-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x512 : Shape := ⟨2, ![50000, 512]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S50000x512 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S50000x512 : Shape := ⟨2, ![50000, 512]⟩
abbrev S128x128 : Shape := ⟨2, ![128, 128]⟩
abbrev S128 : Shape := ⟨1, ![128]⟩
abbrev S128x64 : Shape := ⟨2, ![128, 64]⟩
abbrev S64 : Shape := ⟨1, ![64]⟩
abbrev S512x128 : Shape := ⟨2, ![512, 128]⟩
abbrev S512x8 : Shape := ⟨2, ![512, 8]⟩
abbrev S1x128 : Shape := ⟨2, ![1, 128]⟩
abbrev S1x64 : Shape := ⟨2, ![1, 64]⟩
abbrev S50000x64 : Shape := ⟨2, ![50000, 64]⟩
abbrev S2000x512 : Shape := ⟨2, ![2000, 512]⟩
abbrev S2000x128 : Shape := ⟨2, ![2000, 128]⟩
abbrev S2000x8 : Shape := ⟨2, ![2000, 8]⟩
abbrev S512x1 : Shape := ⟨2, ![512, 1]⟩
abbrev S2000 : Shape := ⟨1, ![2000]⟩
abbrev S2000x1 : Shape := ⟨2, ![2000, 1]⟩
abbrev S2000x64 : Shape := ⟨2, ![2000, 64]⟩
abbrev S512x64 : Shape := ⟨2, ![512, 64]⟩

abbrev nBuf : Space → Nat
  | .hbm => 16
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S50000x512, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S512x128, .f32⟩
  | .hbm, ⟨9, _⟩ => ⟨S512x8, .f32⟩
  | .hbm, ⟨10, _⟩ => ⟨S1x128, .f32⟩
  | .hbm, ⟨11, _⟩ => ⟨S512x128, .f32⟩
  | .hbm, ⟨12, _⟩ => ⟨S1x128, .f32⟩
  | .hbm, ⟨13, _⟩ => ⟨S512x128, .f32⟩
  | .hbm, ⟨14, _⟩ => ⟨S1x64, .f32⟩
  | .hbm, ⟨15, _⟩ => ⟨S50000x64, .f32⟩
  | .local _ .vmem, ⟨0, _⟩ => ⟨S2000x512, .f32⟩
  | .local _ .vmem, ⟨1, _⟩ => ⟨S2000x512, .f32⟩
  | .local _ .vmem, ⟨2, _⟩ => ⟨S2000x128, .f32⟩
  | .local _ .vmem, ⟨3, _⟩ => ⟨S2000x128, .f32⟩
  | .local _ .vmem, ⟨4, _⟩ => ⟨S512x128, .f32⟩
  | .local _ .vmem, ⟨5, _⟩ => ⟨S512x8, .f32⟩
  | .local _ .vmem, ⟨6, _⟩ => ⟨S2000x8, .f32⟩
  | .local _ .vmem, ⟨7, _⟩ => ⟨S512x128, .f32⟩
  | .local _ .vmem, ⟨8, _⟩ => ⟨S512x8, .f32⟩
  | .local _ .vmem, ⟨9, _⟩ => ⟨S128x128, .f32⟩
  | .local _ .vmem, ⟨10, _⟩ => ⟨S1x128, .f32⟩
  | .local _ .vmem, ⟨11, _⟩ => ⟨S2000x512, .f32⟩
  | .local _ .vmem, ⟨12, _⟩ => ⟨S2000x512, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x8, .f32⟩
  | .local _ .vmem, ⟨17, _⟩ => ⟨S128x128, .f32⟩
  | .local _ .vmem, ⟨18, _⟩ => ⟨S1x128, .f32⟩
  | .local _ .vmem, ⟨19, _⟩ => ⟨S2000x512, .f32⟩
  | .local _ .vmem, ⟨20, _⟩ => ⟨S2000x512, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x8, .f32⟩
  | .local _ .vmem, ⟨25, _⟩ => ⟨S128x64, .f32⟩
  | .local _ .vmem, ⟨26, _⟩ => ⟨S1x64, .f32⟩
  | .local _ .vmem, ⟨27, _⟩ => ⟨S2000x512, .f32⟩
  | .local _ .vmem, ⟨28, _⟩ => ⟨S2000x512, .f32⟩
  | .local _ .vmem, ⟨29, _⟩ => ⟨S2000x64, .f32⟩
  | .local _ .vmem, ⟨30, _⟩ => ⟨S2000x64, .f32⟩
  | .local _ .vmem, ⟨31, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0_0 : Ref sig .tc := ⟨.hbm, 8, rfl⟩
abbrev main_call0_v0_1 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg5_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc2_sem0_0 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc2_sem5_0 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S512x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S512x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  shapeCasts_S64_S1x64 : S64.ShapeCasts S1x64
  inb_S512x128_S512x128_0_0 : ∀ a, (![0, 0] : Fin 2 → Nat) a + S512x128.size a ≤ S512x128.size a
  h_S512x128 : 0 < S512x128.numel
  inb_S512x8_S512x8_0_0 : ∀ a, (![0, 0] : Fin 2 → Nat) a + S512x8.size a ≤ S512x8.size a
  h_S512x8 : 0 < S512x8.numel
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  inb_S2000x512_S2000x512_0_0 : ∀ a, (![0, 0] : Fin 2 → Nat) a + S2000x512.size a ≤ S2000x512.size a
  h_S2000x512 : 0 < S2000x512.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  shapeCasts_S512x8_S512x8 : S512x8.ShapeCasts S512x8
  inb_S512x8_S512x1_0_0 : ∀ a, (![0, 0] : Fin 2 → Nat) a + S512x1.size a ≤ S512x8.size a
  h_S512x1 : 0 < S512x1.numel
  shapeCasts_S512x1_S512x1 : S512x1.ShapeCasts S512x1
  broadcasts_S512x1_S512x128 : S512x1.Broadcasts S512x128
  inb_S128x128_S128x128_0_0 : ∀ a, (![0, 0] : Fin 2 → Nat) a + S128x128.size a ≤ S128x128.size a
  h_S128x128 : 0 < S128x128.numel
  reduces_S2000x512_S2000 : S2000x512.Reduces [1] S2000
  shapeCasts_S2000_S2000x1 : S2000.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  dot_S2000x512_S2000x128_S512x128_0_0_1_1_n_n_wf : DotDims.WF S2000x512 S2000x128 S512x128 [0] [0] [1] [1] [] []
  dot_S2000x512_S2000x8_S512x8_0_0_1_1_n_n_wf : DotDims.WF S2000x512 S2000x8 S512x8 [0] [0] [1] [1] [] []
  dot_S512x128_S128x128_S512x128_1_0_0_1_n_n_wf : DotDims.WF S512x128 S128x128 S512x128 [1] [0] [0] [1] [] []
  dot_S2000x512_S512x128_S2000x128_1_0_0_1_n_n_wf : DotDims.WF S2000x512 S512x128 S2000x128 [1] [0] [0] [1] [] []
  dot_S512x128_S128x64_S512x64_1_0_0_1_n_n_wf : DotDims.WF S512x128 S128x64 S512x64 [1] [0] [0] [1] [] []
  dot_S2000x512_S512x64_S2000x64_1_0_0_1_n_n_wf : DotDims.WF S2000x512 S512x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S512x8.size a
  hwx0_3 : ∀ i : grid0.Coords, EltTy.bits .f32 = 32 ∨ (Rect.block (s := S512x8) S512x8.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x8.size a ≤ S512x8.size a
  hwx1_1 : ∀ i : grid1.Coords, EltTy.bits .f32 = 32 ∨ (Rect.block (s := S512x8) S512x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .f32 = 32 ∨ (Rect.block (s := S50000x512) S2000x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .f32 = 32 ∨ (Rect.block (s := S512x128) S512x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x8.size a ≤ S512x8.size a
  hwx2_1 : ∀ i : grid2.Coords, EltTy.bits .f32 = 32 ∨ (Rect.block (s := S512x8) S512x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x512.size a ≤ S50000x512.size a
  hwx2_4 : ∀ i : grid2.Coords, EltTy.bits .f32 = 32 ∨ (Rect.block (s := S50000x512) S2000x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S512x128.size a
  hwx2_5 : ∀ i : grid2.Coords, EltTy.bits .f32 = 32 ∨ (Rect.block (s := S512x128) S512x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x8.size a ≤ S512x8.size a
  hwx3_1 : ∀ i : grid3.Coords, EltTy.bits .f32 = 32 ∨ (Rect.block (s := S512x8) S512x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x512.size a ≤ S50000x512.size a
  hwx3_4 : ∀ i : grid3.Coords, EltTy.bits .f32 = 32 ∨ (Rect.block (s := S50000x512) S2000x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)

variable [Facts₀]

def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S2000x512_S2000x8_S512x8_0_0_1_1_n_n : DotDims S2000x512 S2000x8 S512x8 where
  lhsContracting := [0]
  rhsContracting := [0]
  lhsNonContracting := [1]
  rhsNonContracting := [1]
  lhsBatch := []
  rhsBatch := []
  wf := dot_S2000x512_S2000x8_S512x8_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf

abbrev win0_0 : Pipeline.Window sig grid0 :=
  Pipeline.Window.ofSpec (Memref.whole main_arg1) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S512x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S512x8.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v0_0) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0_1) S512x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S2000x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v2) S512x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v2) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v0_1) S512x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v3) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S2000x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v4) S512x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_call0_v4) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_call0_v0_1) S512x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v5) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg1) S2000x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v0) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S50000x512 : Shape := ⟨2, ![50000, 512]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S512 : Shape := ⟨1, ![512]⟩
abbrev S1x512 : Shape := ⟨2, ![1, 512]⟩
abbrev S50000 : Shape := ⟨1, ![50000]⟩
abbrev S50000x1 : Shape := ⟨2, ![50000, 1]⟩
abbrev S512x50000 : Shape := ⟨2, ![512, 50000]⟩
abbrev S512x128 : Shape := ⟨2, ![512, 128]⟩
abbrev S1x128 : Shape := ⟨2, ![1, 128]⟩
abbrev S50000x64 : Shape := ⟨2, ![50000, 64]⟩
abbrev S512x64 : Shape := ⟨2, ![512, 64]⟩
abbrev S1x64 : Shape := ⟨2, ![1, 64]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x512, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000x128, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S1x512, .f32⟩
  | .hbm, ⟨15, _⟩ => ⟨S50000x512, .f32⟩
  | .hbm, ⟨16, _⟩ => ⟨S50000x512, .f32⟩
  | .hbm, ⟨17, _⟩ => ⟨S_, .f32⟩
  | .hbm, ⟨18, _⟩ => ⟨S50000, .f32⟩
  | .hbm, ⟨19, _⟩ => ⟨S50000x1, .f32⟩
  | .hbm, ⟨20, _⟩ => ⟨S_, .f32⟩
  | .hbm, ⟨21, _⟩ => ⟨S50000x1, .f32⟩
  | .hbm, ⟨22, _⟩ => ⟨S50000x1, .f32⟩
  | .hbm, ⟨23, _⟩ => ⟨S50000x512, .f32⟩
  | .hbm, ⟨24, _⟩ => ⟨S50000x512, .f32⟩
  | .hbm, ⟨25, _⟩ => ⟨S512x50000, .f32⟩
  | .hbm, ⟨26, _⟩ => ⟨S512x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S50000x512, .f32⟩
  | .hbm, ⟨42, _⟩ => ⟨S50000x512, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x512, .f32⟩
  | .hbm, ⟨50, _⟩ => ⟨S50000x512, .f32⟩
  | .hbm, ⟨51, _⟩ => ⟨S512x50000, .f32⟩
  | .hbm, ⟨52, _⟩ => ⟨S512x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x64, .f32⟩
  | .hbm, ⟨61, _⟩ => ⟨S_, .f32⟩
  | .hbm, ⟨62, _⟩ => ⟨S512, .f32⟩
  | .hbm, ⟨63, _⟩ => ⟨S1x512, .f32⟩
  | .hbm, ⟨64, _⟩ => ⟨S_, .f32⟩
  | .hbm, ⟨65, _⟩ => ⟨S1x512, .f32⟩
  | .hbm, ⟨66, _⟩ => ⟨S1x512, .f32⟩
  | .hbm, ⟨67, _⟩ => ⟨S50000x512, .f32⟩
  | .hbm, ⟨68, _⟩ => ⟨S50000x512, .f32⟩
  | .hbm, ⟨69, _⟩ => ⟨S_, .f32⟩
  | .hbm, ⟨70, _⟩ => ⟨S50000, .f32⟩
  | .hbm, ⟨71, _⟩ => ⟨S50000x1, .f32⟩
  | .hbm, ⟨72, _⟩ => ⟨S_, .f32⟩
  | .hbm, ⟨73, _⟩ => ⟨S50000x1, .f32⟩
  | .hbm, ⟨74, _⟩ => ⟨S50000x1, .f32⟩
  | .hbm, ⟨75, _⟩ => ⟨S50000x512, .f32⟩
  | .hbm, ⟨76, _⟩ => ⟨S50000x512, .f32⟩
  | .hbm, ⟨77, _⟩ => ⟨S512x50000, .f32⟩
  | .hbm, ⟨78, _⟩ => ⟨S512x64, .f32⟩
  | .hbm, ⟨79, _⟩ => ⟨S50000x64, .f32⟩
  | .hbm, ⟨80, _⟩ => ⟨S1x64, .f32⟩
  | .hbm, ⟨81, _⟩ => ⟨S50000x64, .f32⟩
  | .hbm, ⟨82, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩

abbrev nD : Nat := 1
abbrev τ : Topo := Topo.v7x

variable {F : FTy → Type} [FloatOps F]

class Facts₀ : Prop where
  reducesTo_S50000x512_S512_d0 : S50000x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bcast_S1x512_S50000x512_0_1 : S1x512.BroadcastsInDim S50000x512 (![0, 1] : Fin 2 → Fin S50000x512.rank)
  reducesTo_S50000x512_S50000_d1 : S50000x512.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  transposes_S50000x512_S512x50000_1_0 : S50000x512.Transposes [1, 0] S512x50000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  dot_S512x50000_S50000x128_S512x128_1_0_0_1_n_n_wf : DotDims.WF S512x50000 S50000x128 S512x128 [1] [0] [0] [1] [] []
  dot_S50000x512_S512x128_S50000x128_1_0_0_1_n_n_wf : DotDims.WF S50000x512 S512x128 S50000x128 [1] [0] [0] [1] [] []
  dot_S50000x128_S128x64_S50000x64_1_0_0_1_n_n_wf : DotDims.WF S50000x128 S128x64 S50000x64 [1] [0] [0] [1] [] []
  dot_S512x50000_S50000x64_S512x64_1_0_0_1_n_n_wf : DotDims.WF S512x50000 S50000x64 S512x64 [1] [0] [0] [1] [] []
  dot_S50000x512_S512x64_S50000x64_1_0_0_1_n_n_wf : DotDims.WF S50000x512 S512x64 S50000x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S512x50000_S50000x128_S512x128_1_0_0_1_n_n : DotDims S512x50000 S50000x128 S512x128 where
  lhsContracting := [1]
  rhsContracting := [0]
  lhsNonContracting := [0]
  rhsNonContracting := [1]
  lhsBatch := []
  rhsBatch := []
  wf := dot_S512x50000_S50000x128_S512x128_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S512x50000_S50000x64_S512x64_1_0_0_1_n_n : DotDims S512x50000 S50000x64 S512x64 where
  lhsContracting := [1]
  rhsContracting := [0]
  lhsNonContracting := [0]
  rhsNonContracting := [1]
  lhsBatch := []
  rhsBatch := []
  wf := dot_S512x50000_S50000x64_S512x64_1_0_0_1_n_n_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf

class Facts : Prop extends Facts₀ where

variable [Facts]
-- ==== Proof.BitsReg0Runs.lean ====
/-
  The first pass over the adjacency (grid of 25 row blocks of 2000): the body run on whole staging
  buffers, in its two control cases. At the first block the two accumulators (the anchor-space
  aggregate, 512 x 128, and the column sums, 512 x 8) are reset to zero and the scratch column of
  ones (2000 x 8) is written, then the block's contribution is added; at every later block the
  accumulators hold what the block before left and the contribution is added to that. Each run
  returns, as the pieces its stores leave, what each written buffer holds afterwards.
-/
import proofs.«182234_g5308579578416_cont_8to1_c_894_2_alg».proof.Proof.Gen.Kernel.Launch
import proofs.«182234_g5308579578416_cont_8to1_c_894_2_alg».proof.Proof.Gen.Kernel.Skeleton
import proofs.«182234_g5308579578416_cont_8to1_c_894_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first block": the body's one branch condition, from the grid coordinate. -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val % 25 = 0 :=
  (by decide +kernel : ∀ t : Fin grid0.N, cond0 (grid0.coords t) ↔ t.val % 25 = 0)

set_option maxHeartbeats 4000000 in
/-- The body at the first block: the accumulators and the scratch at anything beforehand. -/
noncomputable def kernelRun0_A (c : Dev nD) (i : grid0.Coords)
    (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i)
    (x1 : Vec F S2000x512 .f32) (x2 : Vec F S2000x128 .f32) :
    Σ' (L3 : List (View.Piece (Elt F) S512x128 .f32)) (L4 : List (View.Piece (Elt F) S512x8 .f32)), { LS : List (View.Piece (Elt F) S2000x8 .f32) //
      ∀ (E : Set ℕ) (K : PUnit → sProp 𝕄),
        iprop(owns (c : Thread nD τ) arg1 fullShare x1 ∗ owns (c : Thread nD τ) arg2 fullShare x2
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f LS)) -∗ K ⟨⟩))
          ⊢ wp frame (wpE (defs₀ (F := F)) Variants.none c none) E (cc0__pass_in i arg1 harg1 arg2 harg2 arg3 harg3 arg4 harg4 arg5 harg5) K } := by
  refine ⟨?_, ?_, ?_, fun E K => ?run⟩
  case run =>
    simp only [cc0__pass_in_eq_skeleton]; unfold cc0__pass_in_skel
    unfold owns
    iintro ⟨⟨%f1, %hf1, H1⟩, ⟨%f2, %hf2, H2⟩, ⟨%d3, %f3, -, H3⟩, ⟨%d4, %f4, -, H4⟩, ⟨%d5, %f5, -, H5⟩, Hk⟩
    obtain rfl := harg1.eq_unread hf1; obtain rfl := harg2.eq_unread hf2
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    iexists _; iexact H5

set_option maxHeartbeats 4000000 in
/-- The body at a later block: the accumulators and the scratch at what the block before left. -/
noncomputable def kernelRun0_B (c : Dev nD) (i : grid0.Coords)
    (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i)
    (x1 : Vec F S2000x512 .f32) (x2 : Vec F S2000x128 .f32) (xo3 : Vec F S512x128 .f32) (xo4 : Vec F S512x8 .f32) (xs : Vec F S2000x8 .f32) :
    Σ' (L3 : List (View.Piece (Elt F) S512x128 .f32)), { L4 : List (View.Piece (Elt F) S512x8 .f32) //
      ∀ (E : Set ℕ) (K : PUnit → sProp 𝕄),
        iprop(owns (c : Thread nD τ) arg1 fullShare x1 ∗ owns (c : Thread nD τ) arg2 fullShare x2
            ∗ owns (c : Thread nD τ) arg3 fullShare xo3 ∗ owns (c : Thread nD τ) arg4 fullShare xo4 ∗ owns (c : Thread nD τ) arg5 fullShare xs
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__pass_in i arg1 harg1 arg2 harg2 arg3 harg3 arg4 harg4 arg5 harg5) K } := by
  refine ⟨?_, ?_, fun E K => ?run⟩
  case run =>
    simp only [cc0__pass_in_eq_skeleton]; unfold cc0__pass_in_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2
    obtain rfl := harg3.eq_unread hf3; obtain rfl := harg4.eq_unread hf4; obtain rfl := harg5.eq_unread hf5
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    iexists _; isplitr; · ipureintro; exact harg5.read_unread _
    iexact H5

end Cert.Kernel.Hand

end
-- ==== Proof.BitsReg0.lean ====
/-
  The first pass over the adjacency as one region of the pipeline: what its two accumulators and its
  scratch hold after each of the 25 row blocks, by recursion on the block (`outsAt0`: the first block
  starts from zero, each later block adds to what the block before left), the region's invariant (the
  scratch of ones named from the first block on), the proof data, and the body obligation at every
  block — all for any contents `V` of the buffers when the region is entered.
-/
import proofs.«182234_g5308579578416_cont_8to1_c_894_2_alg».proof.Proof.BitsReg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Views through which the accumulators' and the scratch's contents are stated. -/
abbrev VO0_2 : View sig .tc .vmem S512x128 .f32 := (Memref.whole cc0_stg2_0 : Memref sig .tc .vmem S512x128 .f32).view
abbrev VO0_3 : View sig .tc .vmem S512x8 .f32 := (Memref.whole cc0_stg3_0 : Memref sig .tc .vmem S512x8 .f32).view
abbrev ms0_0 (t : Fin cfg0.N) : Memref sig .tc .vmem S2000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8 .f32 := win0_3.stage (cfg0.slots t 3)
abbrev hs0_3 (t : Fin cfg0.N) : (ms0_3 t).IsWhole := hstage0_3 ((cfg0.slots t 3).cast nbuf0_3)
abbrev scM0 : Memref sig .tc .vmem S2000x8 .f32 := Memref.whole cc0_scratch0
abbrev VS0 : View sig .tc .vmem S2000x8 .f32 := scM0.view

/-- The region's entry invariant with the pass's scratch split off. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Region0

/-! ## What each case leaves -/

theorem cover0_A_3 (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) (y : S512x128.Idx) :
    ∃ pc ∈ (kernelRun0_A c i arg1 harg1 arg2 harg2 arg3 harg3 arg4 harg4 arg5 harg5 hc0 x1 x2).1, y ∈ pc.1.set :=
  View.cover_of_tiledL (kernelRun0_A c i arg1 harg1 arg2 harg2 arg3 harg3 arg4 harg4 arg5 harg5 hc0 x1 x2).1 S512x128.size (by sl_kernel_rfl) y
theorem cover0_A_4 (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) (y : S512x8.Idx) :
    ∃ pc ∈ (kernelRun0_A c i arg1 harg1 arg2 harg2 arg3 harg3 arg4 harg4 arg5 harg5 hc0 x1 x2).2.1, y ∈ pc.1.set :=
  View.cover_of_tiledL (kernelRun0_A c i arg1 harg1 arg2 harg2 arg3 harg3 arg4 harg4 arg5 harg5 hc0 x1 x2).2.1 S512x8.size (by sl_kernel_rfl) y
theorem scover0_A (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) (y : S2000x8.Idx) :
    ∃ pc ∈ (kernelRun0_A c i arg1 harg1 arg2 harg2 arg3 harg3 arg4 harg4 arg5 harg5 hc0 x1 x2).2.2.1, y ∈ pc.1.set :=
  View.cover_of_tiledL (kernelRun0_A c i arg1 harg1 arg2 harg2 arg3 harg3 arg4 harg4 arg5 harg5 hc0 x1 x2).2.2.1 S2000x8.size (by sl_kernel_rfl) y
theorem cover0_B_3 (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i) (x1 : Vec F S2000x512 .f32) (x2 : Vec F S2000x128 .f32)
    (xo3 : Vec F S512x128 .f32) (xo4 : Vec F S512x8 .f32) (xs : Vec F S2000x8 .f32) (y : S512x128.Idx) :
    ∃ pc ∈ (kernelRun0_B c i arg1 harg1 arg2 harg2 arg3 harg3 arg4 harg4 arg5 harg5 hc0 x1 x2 xo3 xo4 xs).1, y ∈ pc.1.set :=
  View.cover_of_tiledL (kernelRun0_B c i arg1 harg1 arg2 harg2 arg3 harg3 arg4 harg4 arg5 harg5 hc0 x1 x2 xo3 xo4 xs).1 S512x128.size (by sl_kernel_rfl) y
theorem cover0_B_4 (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i) (x1 : Vec F S2000x512 .f32) (x2 : Vec F S2000x128 .f32)
    (xo3 : Vec F S512x128 .f32) (xo4 : Vec F S512x8 .f32) (xs : Vec F S2000x8 .f32) (y : S512x8.Idx) :
    ∃ pc ∈ (kernelRun0_B c i arg1 harg1 arg2 harg2 arg3 harg3 arg4 harg4 arg5 harg5 hc0 x1 x2 xo3 xo4 xs).2.1, y ∈ pc.1.set :=
  View.cover_of_tiledL (kernelRun0_B c i arg1 harg1 arg2 harg2 arg3 harg3 arg4 harg4 arg5 harg5 hc0 x1 x2 xo3 xo4 xs).2.1 S512x8.size (by sl_kernel_rfl) y

/-- What the first block leaves in the aggregate, the column sums and the scratch. -/
def out0_A (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) :
    Vec F S512x128 .f32 × Vec F S512x8 .f32 × Vec F S2000x8 .f32 :=
  (VO0_2.read (Elt F) (VO0_2.writes (Elt F) VO0_2.junk (kernelRun0_A c i arg1 harg1 arg2 harg2 arg3 harg3 arg4 harg4 arg5 harg5 hc0 x1 x2).1),
   VO0_3.read (Elt F) (VO0_3.writes (Elt F) VO0_3.junk (kernelRun0_A c i arg1 harg1 arg2 harg2 arg3 harg3 arg4 harg4 arg5 harg5 hc0 x1 x2).2.1),
   VS0.read (Elt F) (VS0.writes (Elt F) VS0.junk (kernelRun0_A c i arg1 harg1 arg2 harg2 arg3 harg3 arg4 harg4 arg5 harg5 hc0 x1 x2).2.2.1))

/-- What a later block leaves in them, over what the block before left (the scratch is not written). -/
def out0_B (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i) (x1 : Vec F S2000x512 .f32) (x2 : Vec F S2000x128 .f32)
    (p : Vec F S512x128 .f32 × Vec F S512x8 .f32 × Vec F S2000x8 .f32) :
    Vec F S512x128 .f32 × Vec F S512x8 .f32 × Vec F S2000x8 .f32 :=
  (VO0_2.read (Elt F) (VO0_2.writes (Elt F) VO0_2.junk (kernelRun0_B c i arg1 harg1 arg2 harg2 arg3 harg3 arg4 harg4 arg5 harg5 hc0 x1 x2 p.1 p.2.1 p.2.2).1),
   VO0_3.read (Elt F) (VO0_3.writes (Elt F) VO0_3.junk (kernelRun0_B c i arg1 harg1 arg2 harg2 arg3 harg3 arg4 harg4 arg5 harg5 hc0 x1 x2 p.1 p.2.1 p.2.2).2.1),
   p.2.2)

section Region0

variable (V : (c : Dev nD) → (b : Ref sig .tc) → Buf (Elt F) ((c : Thread nD τ).loc b))

theorem not_cond0_succ (n : ℕ) (hn : n + 1 < cfg0.N) : ¬cond0 (grid0.coords ⟨n + 1, hn⟩) := fun h => by
  have h1 := (hcond0 ⟨n + 1, hn⟩).mp h
  have hN : n + 1 < 25 := lt_of_lt_of_eq hn (show cfg0.N = 25 from N_0)
  dsimp only at h1; omega

/-- THE ACCUMULATION: the aggregate, the column sums and the scratch after the body at block `n`. -/
def outsAt0 (c : Dev nD) : (n : ℕ) → n < cfg0.N → Vec F S512x128 .f32 × Vec F S512x8 .f32 × Vec F S2000x8 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _)
      ((hcond0 ⟨0, hn⟩).mpr (Nat.zero_mod _)) (iblk0 V c 0 ⟨0, hn⟩) (iblk0 V c 1 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _)
      (not_cond0_succ n hn) (iblk0 V c 0 ⟨n + 1, hn⟩) (iblk0 V c 1 ⟨n + 1, hn⟩) (outsAt0 c n (Nat.lt_of_succ_lt hn))

theorem not_cond0_pos (t : Fin cfg0.N) (h0 : t.val ≠ 0) : ¬cond0 (grid0.coords t) := fun h => by
  have h1 := (hcond0 t).mp h
  have hN : t.val < 25 := lt_of_lt_of_eq t.isLt (show cfg0.N = 25 from N_0)
  omega

theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) (ms0_3 t) (hs0_3 t) scM0 (Memref.isWhole_whole _)
      ((hcond0 t).mpr (by rw [h0])) (iblk0 V c 0 t) (iblk0 V c 1 t) := by
  obtain ⟨n, hn⟩ := t
  cases n with
  | zero => exact rfl
  | succ n => exact absurd h0 (Nat.succ_ne_zero n)

theorem outsAt0_B (c : Dev nD) (t : Fin cfg0.N) (h0 : t.val ≠ 0) :
    outsAt0 V c t.val t.isLt = out0_B c (grid0.coords t) (ms0_0 t) (hs0_0 t) (ms0_1 t) (hs0_1 t) (ms0_2 t) (hs0_2 t) (ms0_3 t) (hs0_3 t) scM0 (Memref.isWhole_whole _)
      (not_cond0_pos t h0) (iblk0 V c 0 t) (iblk0 V c 1 t) (outsAt0 V c (t.val - 1) (Nat.lt_of_le_of_lt (Nat.sub_le _ _) t.isLt)) := by
  obtain ⟨n, hn⟩ := t
  cases n with
  | zero => exact absurd rfl h0
  | succ n => exact rfl

/-- The region's invariant before block `n`: at entry the class's; afterwards the scratch at what the block before left,
    the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of the first pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first block an accumulator's buffer holds what the block before left: not written back in between. -/
theorem before0_2_B (c : Dev nD) (t : Fin cfg0.N) (h0 : t.val ≠ 0) (d) :
    (dat0 V c).before 2 t d = (outsAt0 V c (t.val - 1) (Nat.lt_of_le_of_lt (Nat.sub_le _ _) t.isLt)).1 := by
  have hN : t.val < 25 := lt_of_lt_of_eq t.isLt (show cfg0.N = 25 from N_0)
  rw [Dat.before_out_kept _ 2 rfl t h0 (Bool.eq_false_iff.mpr fun h => by have := (flush0_2 _).mp h; dsimp only at this; omega)
    (fun _ => rfl) (fun _ _ => rfl)]
  dsimp only [dat0]
theorem before0_3_B (c : Dev nD) (t : Fin cfg0.N) (h0 : t.val ≠ 0) (d) :
    (dat0 V c).before 3 t d = (outsAt0 V c (t.val - 1) (Nat.lt_of_le_of_lt (Nat.sub_le _ _) t.isLt)).2.1 := by
  have hN : t.val < 25 := lt_of_lt_of_eq t.isLt (show cfg0.N = 25 from N_0)
  rw [Dat.before_out_kept _ 3 rfl t h0 (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  by_cases hz : t.val = 0
  · rw [outsAt0_A V c t hz]
    unfold out0_A; dsimp only
    rw [PhiS0_castSucc V c t, PhiS0_zero V c _ _ hz, PhiA0_eq]
    iintro ⟨⟨⟨HS, Hrest⟩, Hg⟩, Ho, ⟨%d0, H0⟩, ⟨%d1, H1⟩, ⟨%d2, H2⟩, ⟨%d3, H3⟩⟩
    iapply ((kernelRun0_A c (grid0.coords t) _ _ _ _ _ _ _ _ _ _ ((hcond0 t).mpr (by rw [hz])) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [HS]; · iexact HS
    iintro ⟨H0, H1, ⟨%e2, H2⟩, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_3 c _ _ _ _ _ _ _ _ _ _ _ _ _ _)
    unfold owns; iexists _; isplitr
    swap; · iexact H3
    ipureintro; exact View.read_writes_of_cover _ _ _ _ _ (cover0_A_4 c _ _ _ _ _ _ _ _ _ _ _ _ _ _)
  · rw [outsAt0_B V c t hz]
    simp only [before0_2_B V c t hz, before0_3_B V c t hz]
    unfold out0_B; dsimp only
    rw [PhiS0_castSucc V c t, PhiS0_pos V c _ _ hz]
    iintro ⟨⟨⟨HS, Hrest⟩, Hg⟩, Ho, ⟨%d0, H0⟩, ⟨%d1, H1⟩, ⟨%d2, H2⟩, ⟨%d3, H3⟩⟩
    iapply ((kernelRun0_B c (grid0.coords t) _ _ _ _ _ _ _ _ _ _ (not_cond0_pos t hz) (iblk0 V c 0 t) (iblk0 V c 1 t) _ _ _).2.2 Set.univ _)
    isplitl [H0]; · iexact H0
    isplitl [H1]; · iexact H1
    isplitl [H2]; · iexact H2
    isplitl [H3]; · iexact H3
    isplitl [HS]; · iexact HS
    iintro ⟨H0, H1, ⟨%e2, H2⟩, ⟨%e3, H3⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_3 c _ _ _ _ _ _ _ _ _ _ _ _ _ _ _ _ _)
    unfold owns; iexists _; isplitr
    swap; · iexact H3
    ipureintro; exact View.read_writes_of_cover _ _ _ _ _ (cover0_B_4 c _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the region is handed is the invariant before the first block. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last block the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS, Hrest⟩, Hg⟩
  isplitl [HS Hrest]
  · isplitl [HS]; · iexists _; iexact HS
    iexact Hrest
  iexact Hg

end Region0

end Cert.Kernel.Hand

end
-- ==== Proof.BitsReg1Runs.lean ====
/-
  The first hidden layer's pass over the adjacency (25 row blocks of 2000): the body run on whole
  staging buffers, in its two control cases. At the first block the anchor-space weights
  v = (t / col) W are computed from the aggregate t, the floored column sums and the layer's weights
  and kept in scratch, and the output accumulator is reset to zero; at every block the block's rows
  are sent through A v / row + b, rectified, and their aggregate A^T g is added to the accumulator.
  Each run returns, as the pieces its stores leave, what each written buffer holds afterwards.
-/
import proofs.«182234_g5308579578416_cont_8to1_c_894_2_alg».proof.Proof.Gen.Kernel.Launch
import proofs.«182234_g5308579578416_cont_8to1_c_894_2_alg».proof.Proof.Gen.Kernel.Skeleton
import proofs.«182234_g5308579578416_cont_8to1_c_894_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first block": the body's one branch condition, from the grid coordinate. -/
abbrev cond1 (i : grid1.Coords) : Prop := (Scalar.cmpi .ne (Scalar.extui (Scalar.cmpi .eq (BitVec.ofNat 32 (i 0).val) 0#32)) 0#32) = 1#1
/-- It holds at point 0 only. -/
theorem hcond1 : ∀ t : Fin cfg1.N, cond1 (grid1.coords t) ↔ t.val % 25 = 0 :=
  (by decide +kernel : ∀ t : Fin grid1.N, cond1 (grid1.coords t) ↔ t.val % 25 = 0)

set_option maxHeartbeats 4000000 in
/-- The body at the first block: the accumulator and the scratch at anything beforehand. -/
noncomputable def kernelRun1_A (c : Dev nD) (i : grid1.Coords)
    (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i)
    (x1 : Vec F S512x128 .f32) (x2 : Vec F S512x8 .f32) (x3 : Vec F S128x128 .f32) (x4 : Vec F S1x128 .f32) (x5 : Vec F S2000x512 .f32) :
    Σ' (L6 : List (View.Piece (Elt F) S512x128 .f32)), { LS : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS)) -∗ K ⟨⟩))
          ⊢ wp frame (wpE (defs₀ (F := F)) Variants.none c none) E (cc1__pass_mid i arg1 harg1 arg2 harg2 arg3 harg3 arg4 harg4 arg5 harg5 arg6 harg6 arg7 harg7) K } := by
  refine ⟨?_, ?_, fun E K => ?run⟩
  case run =>
    simp only [cc1__pass_mid_eq_skeleton]; unfold cc1__pass_mid_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 4000000 in
/-- The body at a later block: the accumulator and the scratch at what the block before left. -/
noncomputable def kernelRun1_B (c : Dev nD) (i : grid1.Coords)
    (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond1 i)
    (x1 : Vec F S512x128 .f32) (x2 : Vec F S512x8 .f32) (x3 : Vec F S128x128 .f32) (x4 : Vec F S1x128 .f32) (x5 : Vec F S2000x512 .f32)
    (xo6 : Vec F S512x128 .f32) (xs : Vec F S512x128 .f32) :
    { L6 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xo6 ∗ owns (c : Thread nD τ) arg7 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ owns (c : Thread nD τ) arg7 fullShare xs) -∗ K ⟨⟩))
          ⊢ wp frame (wpE (defs₀ (F := F)) Variants.none c none) E (cc1__pass_mid i arg1 harg1 arg2 harg2 arg3 harg3 arg4 harg4 arg5 harg5 arg6 harg6 arg7 harg7) K } := by
  refine ⟨?_, fun E K => ?run⟩
  case run =>
    simp only [cc1__pass_mid_eq_skeleton]; unfold cc1__pass_mid_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6; obtain rfl := harg7.eq_unread hf7
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.Kernel.Hand

end
-- ==== Proof.BitsReg1.lean ====
/-
  The first hidden layer's pass as one region of the pipeline: what its output accumulator (the next
  layer's anchor-space aggregate, 512 x 128) and its scratch (the anchor-space weights v) hold after
  each of the 25 row blocks, by recursion on the block (`outsAt1`), the region's invariant (the scratch
  named from the first block on), the proof data, and the body obligation at every block — all for any
  contents `V` of the buffers when the region is entered.
-/
import proofs.«182234_g5308579578416_cont_8to1_c_894_2_alg».proof.Proof.BitsReg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev VO1_5 : View sig .tc .vmem S512x128 .f32 := (Memref.whole cc1_stg5_0 : Memref sig .tc .vmem S512x128 .f32).view
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev scM1 : Memref sig .tc .vmem S512x128 .f32 := Memref.whole cc1_scratch0
abbrev VS1 : View sig .tc .vmem S512x128 .f32 := scM1.view

/-- The region's entry invariant with the pass's scratch split off. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Region1

/-! ## What each case leaves -/

theorem cover1_A_6 (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i) (x1 : Vec F S512x128 .f32) (x2 : Vec F S512x8 .f32) (x3 : Vec F S128x128 .f32) (x4 : Vec F S1x128 .f32) (x5 : Vec F S2000x512 .f32) (y : S512x128.Idx) :
    ∃ pc ∈ (kernelRun1_A c i arg1 harg1 arg2 harg2 arg3 harg3 arg4 harg4 arg5 harg5 arg6 harg6 arg7 harg7 hc0 x1 x2 x3 x4 x5).1, y ∈ pc.1.set :=
  View.cover_of_tiledL (kernelRun1_A c i arg1 harg1 arg2 harg2 arg3 harg3 arg4 harg4 arg5 harg5 arg6 harg6 arg7 harg7 hc0 x1 x2 x3 x4 x5).1 S512x128.size (by sl_kernel_rfl) y
theorem scover1_A (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i) (x1 : Vec F S512x128 .f32) (x2 : Vec F S512x8 .f32) (x3 : Vec F S128x128 .f32) (x4 : Vec F S1x128 .f32) (x5 : Vec F S2000x512 .f32) (y : S512x128.Idx) :
    ∃ pc ∈ (kernelRun1_A c i arg1 harg1 arg2 harg2 arg3 harg3 arg4 harg4 arg5 harg5 arg6 harg6 arg7 harg7 hc0 x1 x2 x3 x4 x5).2.1, y ∈ pc.1.set :=
  View.cover_of_tiledL (kernelRun1_A c i arg1 harg1 arg2 harg2 arg3 harg3 arg4 harg4 arg5 harg5 arg6 harg6 arg7 harg7 hc0 x1 x2 x3 x4 x5).2.1 S512x128.size (by sl_kernel_rfl) y
theorem cover1_B_6 (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond1 i) (x1 : Vec F S512x128 .f32) (x2 : Vec F S512x8 .f32) (x3 : Vec F S128x128 .f32) (x4 : Vec F S1x128 .f32) (x5 : Vec F S2000x512 .f32) (xo6 : Vec F S512x128 .f32) (xs : Vec F S512x128 .f32) (y : S512x128.Idx) :
    ∃ pc ∈ (kernelRun1_B c i arg1 harg1 arg2 harg2 arg3 harg3 arg4 harg4 arg5 harg5 arg6 harg6 arg7 harg7 hc0 x1 x2 x3 x4 x5 xo6 xs).1, y ∈ pc.1.set :=
  View.cover_of_tiledL (kernelRun1_B c i arg1 harg1 arg2 harg2 arg3 harg3 arg4 harg4 arg5 harg5 arg6 harg6 arg7 harg7 hc0 x1 x2 x3 x4 x5 xo6 xs).1 S512x128.size (by sl_kernel_rfl) y

/-- What the first block leaves in the accumulator and in the scratch. -/
def out1_A (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i) (x1 : Vec F S512x128 .f32) (x2 : Vec F S512x8 .f32) (x3 : Vec F S128x128 .f32) (x4 : Vec F S1x128 .f32) (x5 : Vec F S2000x512 .f32) :
    Vec F S512x128 .f32 × Vec F S512x128 .f32 :=
  (VO1_5.read (Elt F) (VO1_5.writes (Elt F) VO1_5.junk (kernelRun1_A c i arg1 harg1 arg2 harg2 arg3 harg3 arg4 harg4 arg5 harg5 arg6 harg6 arg7 harg7 hc0 x1 x2 x3 x4 x5).1),
   VS1.read (Elt F) (VS1.writes (Elt F) VS1.junk (kernelRun1_A c i arg1 harg1 arg2 harg2 arg3 harg3 arg4 harg4 arg5 harg5 arg6 harg6 arg7 harg7 hc0 x1 x2 x3 x4 x5).2.1))

/-- What a later block leaves in them, over what the block before left (the scratch is not written). -/
def out1_B (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond1 i) (x1 : Vec F S512x128 .f32) (x2 : Vec F S512x8 .f32) (x3 : Vec F S128x128 .f32) (x4 : Vec F S1x128 .f32) (x5 : Vec F S2000x512 .f32)
    (p : Vec F S512x128 .f32 × Vec F S512x128 .f32) : Vec F S512x128 .f32 × Vec F S512x128 .f32 :=
  (VO1_5.read (Elt F) (VO1_5.writes (Elt F) VO1_5.junk (kernelRun1_B c i arg1 harg1 arg2 harg2 arg3 harg3 arg4 harg4 arg5 harg5 arg6 harg6 arg7 harg7 hc0 x1 x2 x3 x4 x5 p.1 p.2).1), p.2)

section Region1

variable (V : (c : Dev nD) → (b : Ref sig .tc) → Buf (Elt F) ((c : Thread nD τ).loc b))

theorem not_cond1_succ (n : ℕ) (hn : n + 1 < cfg1.N) : ¬cond1 (grid1.coords ⟨n + 1, hn⟩) := fun h => by
  have h1 := (hcond1 ⟨n + 1, hn⟩).mp h
  have hN : n + 1 < 25 := lt_of_lt_of_eq hn (show cfg1.N = 25 from N_1)
  dsimp only at h1; omega

/-- THE ACCUMULATION: the accumulator and the scratch after the body at block `n`. -/
def outsAt1 (c : Dev nD) : (n : ℕ) → n < cfg1.N → Vec F S512x128 .f32 × Vec F S512x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _)
      ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn => out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _)
      (not_cond1_succ n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

theorem not_cond1_pos (t : Fin cfg1.N) (h0 : t.val ≠ 0) : ¬cond1 (grid1.coords t) := fun h => by
  have h1 := (hcond1 t).mp h
  have hN : t.val < 25 := lt_of_lt_of_eq t.isLt (show cfg1.N = 25 from N_1)
  omega

theorem outsAt1_A (c : Dev nD) (t : Fin cfg1.N) (h0 : t.val = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      ((hcond1 t).mpr (by rw [h0])) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)

theorem outsAt1_B (c : Dev nD) (t : Fin cfg1.N) (h0 : t.val ≠ 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      (not_cond1_pos t h0) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd rfl h0
  | succ n => exact rfl

/-- The region's invariant before block `n`: at entry the class's; afterwards the scratch at what the block before left,
    the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
/-- After the first block the accumulator's buffer holds what the block before left: not written back in between. -/
theorem before1_5_B (c : Dev nD) (t : Fin cfg1.N) (h0 : t.val ≠ 0) (d) :
    (dat1 V c).before 5 t d = (outsAt1 V c (t.val - 1) (Nat.lt_of_le_of_lt (Nat.sub_le _ _) t.isLt)).1 := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5]
  by_cases hz : t.val = 0
  · rw [outsAt1_A V c t hz]
    unfold out1_A; dsimp only
    rw [PhiS1_castSucc V c t, PhiS1_zero V c _ _ hz, PhiA1_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1 t).mpr (by rw [hz])) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_A_6 c _ _ _ _ _ _ _ _ _ _ _ _ _ _ _ _ _ _ _ _ _)
  · rw [outsAt1_B V c t hz]
    simp only [before1_5_B V c t hz]
    unfold out1_B; dsimp only
    rw [PhiS1_castSucc V c t, PhiS1_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (not_cond1_pos t hz) (iblk1 V c 0 t) (iblk1 V c 1 t) (iblk1 V c 2 t) (iblk1 V c 3 t) (iblk1 V c 4 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, ⟨%e5, H5⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_6 c _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is handed is the invariant before the first block. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last block the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega), PhiA1_eq]
  iintro ⟨⟨HS, Hrest⟩, Hg⟩
  isplitl [HS Hrest]
  · isplitl [HS]; · iexists _; iexact HS
    iexact Hrest
  iexact Hg

end Region1

end Cert.Kernel.Hand

end
-- ==== Proof.BitsReg2Runs.lean ====
/-
  The second hidden layer's pass over the adjacency (25 row blocks of 2000): the body run on whole
  staging buffers, in its two control cases. At the first block the anchor-space weights
  v = (t / col) W are computed from the aggregate t, the floored column sums and the layer's weights
  and kept in scratch, and the output accumulator is reset to zero; at every block the block's rows
  are sent through A v / row + b, rectified, and their aggregate A^T g is added to the accumulator.
  Each run returns, as the pieces its stores leave, what each written buffer holds afterwards.
-/
import proofs.«182234_g5308579578416_cont_8to1_c_894_2_alg».proof.Proof.Gen.Kernel.Launch
import proofs.«182234_g5308579578416_cont_8to1_c_894_2_alg».proof.Proof.Gen.Kernel.Skeleton
import proofs.«182234_g5308579578416_cont_8to1_c_894_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first block": the body's one branch condition, from the grid coordinate. -/
abbrev cond2 (i : grid2.Coords) : Prop := (Scalar.cmpi .ne (Scalar.extui (Scalar.cmpi .eq (BitVec.ofNat 32 (i 0).val) 0#32)) 0#32) = 1#1
/-- It holds at point 0 only. -/
theorem hcond2 : ∀ t : Fin cfg2.N, cond2 (grid2.coords t) ↔ t.val % 25 = 0 :=
  (by decide +kernel : ∀ t : Fin grid2.N, cond2 (grid2.coords t) ↔ t.val % 25 = 0)

set_option maxHeartbeats 4000000 in
/-- The body at the first block: the accumulator and the scratch at anything beforehand. -/
noncomputable def kernelRun2_A (c : Dev nD) (i : grid2.Coords)
    (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i)
    (x1 : Vec F S512x128 .f32) (x2 : Vec F S512x8 .f32) (x3 : Vec F S128x128 .f32) (x4 : Vec F S1x128 .f32) (x5 : Vec F S2000x512 .f32) :
    Σ' (L6 : List (View.Piece (Elt F) S512x128 .f32)), { LS : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS)) -∗ K ⟨⟩))
          ⊢ wp frame (wpE (defs₀ (F := F)) Variants.none c none) E (cc2__pass_mid i arg1 harg1 arg2 harg2 arg3 harg3 arg4 harg4 arg5 harg5 arg6 harg6 arg7 harg7) K } := by
  refine ⟨?_, ?_, fun E K => ?run⟩
  case run =>
    simp only [cc2__pass_mid_eq_skeleton]; unfold cc2__pass_mid_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 4000000 in
/-- The body at a later block: the accumulator and the scratch at what the block before left. -/
noncomputable def kernelRun2_B (c : Dev nD) (i : grid2.Coords)
    (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond2 i)
    (x1 : Vec F S512x128 .f32) (x2 : Vec F S512x8 .f32) (x3 : Vec F S128x128 .f32) (x4 : Vec F S1x128 .f32) (x5 : Vec F S2000x512 .f32)
    (xo6 : Vec F S512x128 .f32) (xs : Vec F S512x128 .f32) :
    { L6 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xo6 ∗ owns (c : Thread nD τ) arg7 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ owns (c : Thread nD τ) arg7 fullShare xs) -∗ K ⟨⟩))
          ⊢ wp frame (wpE (defs₀ (F := F)) Variants.none c none) E (cc2__pass_mid i arg1 harg1 arg2 harg2 arg3 harg3 arg4 harg4 arg5 harg5 arg6 harg6 arg7 harg7) K } := by
  refine ⟨?_, fun E K => ?run⟩
  case run =>
    simp only [cc2__pass_mid_eq_skeleton]; unfold cc2__pass_mid_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6; obtain rfl := harg7.eq_unread hf7
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.Kernel.Hand

end
-- ==== Proof.BitsReg2.lean ====
/-
  The second hidden layer's pass as one region of the pipeline: what its output accumulator (the next
  layer's anchor-space aggregate, 512 x 128) and its scratch (the anchor-space weights v) hold after
  each of the 25 row blocks, by recursion on the block (`outsAt2`), the region's invariant (the scratch
  named from the first block on), the proof data, and the body obligation at every block — all for any
  contents `V` of the buffers when the region is entered.
-/
import proofs.«182234_g5308579578416_cont_8to1_c_894_2_alg».proof.Proof.BitsReg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev VO2_5 : View sig .tc .vmem S512x128 .f32 := (Memref.whole cc2_stg5_0 : Memref sig .tc .vmem S512x128 .f32).view
abbrev ms2_0 (t : Fin cfg2.N) : Memref sig .tc .vmem S512x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x8 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x128 .f32 := win2_5.stage (cfg2.slots t 5)
abbrev hs2_5 (t : Fin cfg2.N) : (ms2_5 t).IsWhole := hstage2_5 ((cfg2.slots t 5).cast nbuf2_5)
abbrev scM2 : Memref sig .tc .vmem S512x128 .f32 := Memref.whole cc2_scratch0
abbrev VS2 : View sig .tc .vmem S512x128 .f32 := scM2.view

/-- The region's entry invariant with the pass's scratch split off. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Region2

/-! ## What each case leaves -/

theorem cover2_A_6 (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i) (x1 : Vec F S512x128 .f32) (x2 : Vec F S512x8 .f32) (x3 : Vec F S128x128 .f32) (x4 : Vec F S1x128 .f32) (x5 : Vec F S2000x512 .f32) (y : S512x128.Idx) :
    ∃ pc ∈ (kernelRun2_A c i arg1 harg1 arg2 harg2 arg3 harg3 arg4 harg4 arg5 harg5 arg6 harg6 arg7 harg7 hc0 x1 x2 x3 x4 x5).1, y ∈ pc.1.set :=
  View.cover_of_tiledL (kernelRun2_A c i arg1 harg1 arg2 harg2 arg3 harg3 arg4 harg4 arg5 harg5 arg6 harg6 arg7 harg7 hc0 x1 x2 x3 x4 x5).1 S512x128.size (by sl_kernel_rfl) y
theorem scover2_A (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i) (x1 : Vec F S512x128 .f32) (x2 : Vec F S512x8 .f32) (x3 : Vec F S128x128 .f32) (x4 : Vec F S1x128 .f32) (x5 : Vec F S2000x512 .f32) (y : S512x128.Idx) :
    ∃ pc ∈ (kernelRun2_A c i arg1 harg1 arg2 harg2 arg3 harg3 arg4 harg4 arg5 harg5 arg6 harg6 arg7 harg7 hc0 x1 x2 x3 x4 x5).2.1, y ∈ pc.1.set :=
  View.cover_of_tiledL (kernelRun2_A c i arg1 harg1 arg2 harg2 arg3 harg3 arg4 harg4 arg5 harg5 arg6 harg6 arg7 harg7 hc0 x1 x2 x3 x4 x5).2.1 S512x128.size (by sl_kernel_rfl) y
theorem cover2_B_6 (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond2 i) (x1 : Vec F S512x128 .f32) (x2 : Vec F S512x8 .f32) (x3 : Vec F S128x128 .f32) (x4 : Vec F S1x128 .f32) (x5 : Vec F S2000x512 .f32) (xo6 : Vec F S512x128 .f32) (xs : Vec F S512x128 .f32) (y : S512x128.Idx) :
    ∃ pc ∈ (kernelRun2_B c i arg1 harg1 arg2 harg2 arg3 harg3 arg4 harg4 arg5 harg5 arg6 harg6 arg7 harg7 hc0 x1 x2 x3 x4 x5 xo6 xs).1, y ∈ pc.1.set :=
  View.cover_of_tiledL (kernelRun2_B c i arg1 harg1 arg2 harg2 arg3 harg3 arg4 harg4 arg5 harg5 arg6 harg6 arg7 harg7 hc0 x1 x2 x3 x4 x5 xo6 xs).1 S512x128.size (by sl_kernel_rfl) y

/-- What the first block leaves in the accumulator and in the scratch. -/
def out2_A (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i) (x1 : Vec F S512x128 .f32) (x2 : Vec F S512x8 .f32) (x3 : Vec F S128x128 .f32) (x4 : Vec F S1x128 .f32) (x5 : Vec F S2000x512 .f32) :
    Vec F S512x128 .f32 × Vec F S512x128 .f32 :=
  (VO2_5.read (Elt F) (VO2_5.writes (Elt F) VO2_5.junk (kernelRun2_A c i arg1 harg1 arg2 harg2 arg3 harg3 arg4 harg4 arg5 harg5 arg6 harg6 arg7 harg7 hc0 x1 x2 x3 x4 x5).1),
   VS2.read (Elt F) (VS2.writes (Elt F) VS2.junk (kernelRun2_A c i arg1 harg1 arg2 harg2 arg3 harg3 arg4 harg4 arg5 harg5 arg6 harg6 arg7 harg7 hc0 x1 x2 x3 x4 x5).2.1))

/-- What a later block leaves in them, over what the block before left (the scratch is not written). -/
def out2_B (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond2 i) (x1 : Vec F S512x128 .f32) (x2 : Vec F S512x8 .f32) (x3 : Vec F S128x128 .f32) (x4 : Vec F S1x128 .f32) (x5 : Vec F S2000x512 .f32)
    (p : Vec F S512x128 .f32 × Vec F S512x128 .f32) : Vec F S512x128 .f32 × Vec F S512x128 .f32 :=
  (VO2_5.read (Elt F) (VO2_5.writes (Elt F) VO2_5.junk (kernelRun2_B c i arg1 harg1 arg2 harg2 arg3 harg3 arg4 harg4 arg5 harg5 arg6 harg6 arg7 harg7 hc0 x1 x2 x3 x4 x5 p.1 p.2).1), p.2)

section Region2

variable (V : (c : Dev nD) → (b : Ref sig .tc) → Buf (Elt F) ((c : Thread nD τ).loc b))

theorem not_cond2_succ (n : ℕ) (hn : n + 1 < cfg2.N) : ¬cond2 (grid2.coords ⟨n + 1, hn⟩) := fun h => by
  have h1 := (hcond2 ⟨n + 1, hn⟩).mp h
  have hN : n + 1 < 25 := lt_of_lt_of_eq hn (show cfg2.N = 25 from N_2)
  dsimp only at h1; omega

/-- THE ACCUMULATION: the accumulator and the scratch after the body at block `n`. -/
def outsAt2 (c : Dev nD) : (n : ℕ) → n < cfg2.N → Vec F S512x128 .f32 × Vec F S512x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _)
      ((hcond2 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _)
      (not_cond2_succ n hn) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))

theorem not_cond2_pos (t : Fin cfg2.N) (h0 : t.val ≠ 0) : ¬cond2 (grid2.coords t) := fun h => by
  have h1 := (hcond2 t).mp h
  have hN : t.val < 25 := lt_of_lt_of_eq t.isLt (show cfg2.N = 25 from N_2)
  omega

theorem outsAt2_A (c : Dev nD) (t : Fin cfg2.N) (h0 : t.val = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
      ((hcond2 t).mpr (by rw [h0])) (iblk2 V c 0 t) (iblk2 V c 1 t) (iblk2 V c 2 t) (iblk2 V c 3 t) (iblk2 V c 4 t) := by
  obtain ⟨n, hn⟩ := t
  cases n with
  | zero => exact rfl
  | succ n => exact absurd h0 (Nat.succ_ne_zero n)

theorem outsAt2_B (c : Dev nD) (t : Fin cfg2.N) (h0 : t.val ≠ 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
      (not_cond2_pos t h0) (iblk2 V c 0 t) (iblk2 V c 1 t) (iblk2 V c 2 t) (iblk2 V c 3 t) (iblk2 V c 4 t) (outsAt2 V c (t.val - 1) (Nat.lt_of_le_of_lt (Nat.sub_le _ _) t.isLt)) := by
  obtain ⟨n, hn⟩ := t
  cases n with
  | zero => exact absurd rfl h0
  | succ n => exact rfl

/-- The region's invariant before block `n`: at entry the class's; afterwards the scratch at what the block before left,
    the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of this pass on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
/-- After the first block the accumulator's buffer holds what the block before left: not written back in between. -/
theorem before2_5_B (c : Dev nD) (t : Fin cfg2.N) (h0 : t.val ≠ 0) (d) :
    (dat2 V c).before 5 t d = (outsAt2 V c (t.val - 1) (Nat.lt_of_le_of_lt (Nat.sub_le _ _) t.isLt)).1 := by
  have hN : t.val < 25 := lt_of_lt_of_eq t.isLt (show cfg2.N = 25 from N_2)
  rw [Dat.before_out_kept _ 5 rfl t h0 (Bool.eq_false_iff.mpr fun h => by have := (flush2_5 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5]
  by_cases hz : t.val = 0
  · rw [outsAt2_A V c t hz]
    unfold out2_A; dsimp only
    rw [PhiS2_castSucc V c t, PhiS2_zero V c _ _ hz, PhiA2_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2 t).mpr (by rw [hz])) (iblk2 V c 0 t) (iblk2 V c 1 t) (iblk2 V c 2 t) (iblk2 V c 3 t) (iblk2 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover2_A c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_A_6 c _ _ _ _ _ _ _ _ _ _ _ _ _ _ _ _ _ _ _ _ _)
  · rw [outsAt2_B V c t hz]
    simp only [before2_5_B V c t hz]
    unfold out2_B; dsimp only
    rw [PhiS2_castSucc V c t, PhiS2_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun2_B c (grid2.coords t) _ _ _ _ _ _ _ _ _ _ _ _ _ _ (not_cond2_pos t hz) (iblk2 V c 0 t) (iblk2 V c 1 t) (iblk2 V c 2 t) (iblk2 V c 3 t) (iblk2 V c 4 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, ⟨%e5, H5⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_B_6 c _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- What the region is handed is the invariant before the first block. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last block the invariant gives the class's back: the scratch's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨⟨HS, Hrest⟩, Hg⟩
  isplitl [HS Hrest]
  · isplitl [HS]; · iexists _; iexact HS
    iexact Hrest
  iexact Hg

end Region2

end Cert.Kernel.Hand

end
-- ==== Proof.BitsReg3Runs.lean ====
/-
  The output layer's pass over the adjacency (25 row blocks of 2000): the body run on whole staging
  buffers, in its two control cases. At the first block the anchor-space weights v = (t / col) W are
  computed from the aggregate t, the floored column sums and the layer's weights and kept in
  scratch; at every block the block's rows are sent through A v / row + b and stored whole into the
  output block, whatever it held before. Each run returns, as the pieces its stores leave, what each
  written buffer holds afterwards.
-/
import proofs.«182234_g5308579578416_cont_8to1_c_894_2_alg».proof.Proof.Gen.Kernel.Launch
import proofs.«182234_g5308579578416_cont_8to1_c_894_2_alg».proof.Proof.Gen.Kernel.Skeleton
import proofs.«182234_g5308579578416_cont_8to1_c_894_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first block": the body's one branch condition, from the grid coordinate. -/
abbrev cond3 (i : grid3.Coords) : Prop := (Scalar.cmpi .ne (Scalar.extui (Scalar.cmpi .eq (BitVec.ofNat 32 (i 0).val) 0#32)) 0#32) = 1#1
/-- It holds at point 0 only. -/
theorem hcond3 : ∀ t : Fin cfg3.N, cond3 (grid3.coords t) ↔ t.val % 25 = 0 :=
  (by decide +kernel : ∀ t : Fin grid3.N, cond3 (grid3.coords t) ↔ t.val % 25 = 0)

set_option maxHeartbeats 4000000 in
/-- The body at the first block: the output block and the scratch at anything beforehand. -/
noncomputable def kernelRun3_A (c : Dev nD) (i : grid3.Coords)
    (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) :
    Σ' (L6 : List (View.Piece (Elt F) S2000x64 .f32)), { LS : List (View.Piece (Elt F) S512x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS)) -∗ K ⟨⟩))
          ⊢ wp frame (wpE (defs₀ (F := F)) Variants.none c none) E (cc3__pass_out i arg1 harg1 arg2 harg2 arg3 harg3 arg4 harg4 arg5 harg5 arg6 harg6 arg7 harg7) K } := by
  refine ⟨?_, ?_, fun E K => ?run⟩
  case run =>
    simp only [cc3__pass_out_eq_skeleton]; unfold cc3__pass_out_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 4000000 in
/-- The body at a later block: the output block at anything, the scratch at what the first block left. -/
noncomputable def kernelRun3_B (c : Dev nD) (i : grid3.Coords)
    (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : ¬cond3 i)
    (x1 : Vec F S512x128 .f32) (x2 : Vec F S512x8 .f32) (x3 : Vec F S128x64 .f32) (x4 : Vec F S1x64 .f32) (x5 : Vec F S2000x512 .f32)
    (xs : Vec F S512x64 .f32) :
    { L6 : List (View.Piece (Elt F) S2000x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ owns (c : Thread nD τ) arg7 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ owns (c : Thread nD τ) arg7 fullShare xs) -∗ K ⟨⟩))
          ⊢ wp frame (wpE (defs₀ (F := F)) Variants.none c none) E (cc3__pass_out i arg1 harg1 arg2 harg2 arg3 harg3 arg4 harg4 arg5 harg5 arg6 harg6 arg7 harg7) K } := by
  refine ⟨?_, fun E K => ?run⟩
  case run =>
    simp only [cc3__pass_out_eq_skeleton]; unfold cc3__pass_out_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.Kernel.Hand

end
-- ==== Proof.BitsReg3.lean ====
/-
  The output layer's pass over the adjacency as one region of the pipeline: what its output block and
  its scratch hold after each of the 25 row blocks, by recursion on the block (`outsAt3`: the first
  block computes the anchor-space weights into the scratch, every block stores its rows of the result
  whole, the scratch unchanged after the first), the region's invariant (the scratch named from the
  first block on), the proof data, and the body obligation at every block — all for any contents `V`
  of the buffers when the region is entered.
-/
import proofs.«182234_g5308579578416_cont_8to1_c_894_2_alg».proof.Proof.BitsReg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The scoped rest of the output pass split at the pass's own scratch, whole at some contents; the
    remainder (every other scoped buffer) unopened. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop(iprop((∃ f : Buf Val ((c : Thread nD τ).loc cc3_scratch0), ((c : Thread nD τ).loc cc3_scratch0) ↦{fullShare} f))
          ∗ Pipeline.scopedRestBut (Ix := Ix) (Name := Name) (U := U) (Lvl := Lvl) (Val := Val) spec3 c [cc3_scratch0]) :=
  Pipeline.scopedRest_split_of_list spec3 c [cc3_scratch0] (by decide) (by decide)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point (fetched there or kept from the point before). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Views through which the output block's and the scratch's contents are stated. -/
abbrev VO3_5 : View sig .tc .vmem S2000x64 .f32 := (Memref.whole cc3_stg5_0 : Memref sig .tc .vmem S2000x64 .f32).view
abbrev ms3_0 (t : Fin cfg3.N) : Memref sig .tc .vmem S512x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x8 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2000x64 .f32 := win3_5.stage (cfg3.slots t 5)
abbrev hs3_5 (t : Fin cfg3.N) : (ms3_5 t).IsWhole := hstage3_5 ((cfg3.slots t 5).cast nbuf3_5)
abbrev scM3 : Memref sig .tc .vmem S512x64 .f32 := Memref.whole cc3_scratch0
abbrev VS3 : View sig .tc .vmem S512x64 .f32 := scM3.view

/-- The region's entry invariant with the pass's scratch split off. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Region3

/-! ## What each case leaves -/

theorem cover3_A_6 (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) (y : S2000x64.Idx) :
    ∃ pc ∈ (kernelRun3_A c i arg1 harg1 arg2 harg2 arg3 harg3 arg4 harg4 arg5 harg5 arg6 harg6 arg7 harg7 hc0 x1 x2 x3 x4 x5).1, y ∈ pc.1.set :=
  View.cover_of_tiledL (kernelRun3_A c i arg1 harg1 arg2 harg2 arg3 harg3 arg4 harg4 arg5 harg5 arg6 harg6 arg7 harg7 hc0 x1 x2 x3 x4 x5).1 S2000x64.size (by sl_kernel_rfl) y
theorem scover3_A (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) (y : S512x64.Idx) :
    ∃ pc ∈ (kernelRun3_A c i arg1 harg1 arg2 harg2 arg3 harg3 arg4 harg4 arg5 harg5 arg6 harg6 arg7 harg7 hc0 x1 x2 x3 x4 x5).2.1, y ∈ pc.1.set :=
  View.cover_of_tiledL (kernelRun3_A c i arg1 harg1 arg2 harg2 arg3 harg3 arg4 harg4 arg5 harg5 arg6 harg6 arg7 harg7 hc0 x1 x2 x3 x4 x5).2.1 S512x64.size (by sl_kernel_rfl) y
theorem cover3_B_6 (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : ¬cond3 i)
    (x1 : Vec F S512x128 .f32) (x2 : Vec F S512x8 .f32) (x3 : Vec F S128x64 .f32) (x4 : Vec F S1x64 .f32) (x5 : Vec F S2000x512 .f32) (xs : Vec F S512x64 .f32) (y : S2000x64.Idx) :
    ∃ pc ∈ (kernelRun3_B c i arg1 harg1 arg2 harg2 arg3 harg3 arg4 harg4 arg5 harg5 arg6 harg6 arg7 harg7 hc0 x1 x2 x3 x4 x5 xs).1, y ∈ pc.1.set :=
  View.cover_of_tiledL (kernelRun3_B c i arg1 harg1 arg2 harg2 arg3 harg3 arg4 harg4 arg5 harg5 arg6 harg6 arg7 harg7 hc0 x1 x2 x3 x4 x5 xs).1 S2000x64.size (by sl_kernel_rfl) y

/-- What the first block leaves in the output block and the scratch. -/
def out3_A (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) :
    Vec F S2000x64 .f32 × Vec F S512x64 .f32 :=
  (VO3_5.read (Elt F) (VO3_5.writes (Elt F) VO3_5.junk (kernelRun3_A c i arg1 harg1 arg2 harg2 arg3 harg3 arg4 harg4 arg5 harg5 arg6 harg6 arg7 harg7 hc0 x1 x2 x3 x4 x5).1),
   VS3.read (Elt F) (VS3.writes (Elt F) VS3.junk (kernelRun3_A c i arg1 harg1 arg2 harg2 arg3 harg3 arg4 harg4 arg5 harg5 arg6 harg6 arg7 harg7 hc0 x1 x2 x3 x4 x5).2.1))

/-- What a later block leaves in them, over the scratch the first block left (the scratch is not written). -/
def out3_B (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : ¬cond3 i)
    (x1 : Vec F S512x128 .f32) (x2 : Vec F S512x8 .f32) (x3 : Vec F S128x64 .f32) (x4 : Vec F S1x64 .f32) (x5 : Vec F S2000x512 .f32) (p : Vec F S2000x64 .f32 × Vec F S512x64 .f32) :
    Vec F S2000x64 .f32 × Vec F S512x64 .f32 :=
  (VO3_5.read (Elt F) (VO3_5.writes (Elt F) VO3_5.junk (kernelRun3_B c i arg1 harg1 arg2 harg2 arg3 harg3 arg4 harg4 arg5 harg5 arg6 harg6 arg7 harg7 hc0 x1 x2 x3 x4 x5 p.2).1),
   p.2)

section Region3

variable (V : (c : Dev nD) → (b : Ref sig .tc) → Buf (Elt F) ((c : Thread nD τ).loc b))

theorem not_cond3_succ (n : ℕ) (hn : n + 1 < cfg3.N) : ¬cond3 (grid3.coords ⟨n + 1, hn⟩) := fun h => by
  have h1 := (hcond3 ⟨n + 1, hn⟩).mp h
  have hN : n + 1 < 25 := lt_of_lt_of_eq hn (show cfg3.N = 25 from N_3)
  dsimp only at h1; omega

/-- THE BLOCKS: the output block and the scratch after the body at block `n`. -/
def outsAt3 (c : Dev nD) : (n : ℕ) → n < cfg3.N → Vec F S2000x64 .f32 × Vec F S512x64 .f32
  | 0, hn => out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _)
      ((hcond3 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn => out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _)
      (not_cond3_succ n hn) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn))

theorem not_cond3_pos (t : Fin cfg3.N) (h0 : t.val ≠ 0) : ¬cond3 (grid3.coords t) := fun h => by
  have h1 := (hcond3 t).mp h
  have hN : t.val < 25 := lt_of_lt_of_eq t.isLt (show cfg3.N = 25 from N_3)
  omega

theorem outsAt3_A (c : Dev nD) (t : Fin cfg3.N) (h0 : t.val = 0) :
    outsAt3 V c t.val t.isLt = out3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _)
      ((hcond3 t).mpr (by rw [h0])) (iblk3 V c 0 t) (iblk3 V c 1 t) (iblk3 V c 2 t) (iblk3 V c 3 t) (iblk3 V c 4 t) := by
  obtain ⟨n, hn⟩ := t
  cases n with
  | zero => exact rfl
  | succ n => exact absurd h0 (Nat.succ_ne_zero n)

theorem outsAt3_B (c : Dev nD) (t : Fin cfg3.N) (h0 : t.val ≠ 0) :
    outsAt3 V c t.val t.isLt = out3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _)
      (not_cond3_pos t h0) (iblk3 V c 0 t) (iblk3 V c 1 t) (iblk3 V c 2 t) (iblk3 V c 3 t) (iblk3 V c 4 t) (outsAt3 V c (t.val - 1) (Nat.lt_of_le_of_lt (Nat.sub_le _ _) t.isLt)) := by
  obtain ⟨n, hn⟩ := t
  cases n with
  | zero => exact absurd rfl h0
  | succ n => exact rfl

/-- The region's invariant before block `n`: at entry the class's; afterwards the scratch at what the block before left,
    the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of the output pass on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3, after3_4, after3_5]
  by_cases hz : t.val = 0
  · rw [outsAt3_A V c t hz]
    unfold out3_A; dsimp only
    rw [PhiS3_castSucc V c t, PhiS3_zero V c _ _ hz, PhiA3_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ _ _ ((hcond3 t).mpr (by rw [hz])) (iblk3 V c 0 t) (iblk3 V c 1 t) (iblk3 V c 2 t) (iblk3 V c 3 t) (iblk3 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover3_A c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover3_A_6 c _ _ _ _ _ _ _ _ _ _ _ _ _ _ _ _ _ _ _ _ _)
  · rw [outsAt3_B V c t hz]
    unfold out3_B; dsimp only
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun3_B c (grid3.coords t) _ _ _ _ _ _ _ _ _ _ _ _ _ _ (not_cond3_pos t hz) (iblk3 V c 0 t) (iblk3 V c 1 t) (iblk3 V c 2 t) (iblk3 V c 3 t) (iblk3 V c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover3_B_6 c _ _ _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

/-- What the region is handed is the invariant before the first block. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last block the invariant gives the class's back: the scratch's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 25 := N_3; omega), PhiA3_eq]
  iintro ⟨⟨HS, Hrest⟩, Hg⟩
  isplitl [HS Hrest]
  · isplitl [HS]; · iexists _; iexact HS
    iexact Hrest
  iexact Hg

end Region3

end Cert.Kernel.Hand

end
-- ==== Proof.BitsRun.lean ====
/-
  The whole kernel program as a run: the four passes over the adjacency, each a region of the pipeline,
  with the three one-line host stretches between them (a bias reshaped to a row). The contents of every
  unscoped buffer at each boundary are a fold from the launch memory: a host stretch applies its operation,
  a region leaves each of its arrays at what its write-backs make of it and every other buffer as entered.
  Every weakly fair execution from the launch memory terminates, and at the end every unscoped buffer holds
  the last fold (`run_main`); the eight argument arrays come back as launched, since no stretch writes one
  and every region only reads them.
-/
import proofs.«182234_g5308579578416_cont_8to1_c_894_2_alg».proof.Proof.BitsReg0
import proofs.«182234_g5308579578416_cont_8to1_c_894_2_alg».proof.Proof.BitsReg1
import proofs.«182234_g5308579578416_cont_8to1_c_894_2_alg».proof.Proof.BitsReg2
import proofs.«182234_g5308579578416_cont_8to1_c_894_2_alg».proof.Proof.BitsReg3
import proofs.«182234_g5308579578416_cont_8to1_c_894_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host stretch `hostOps1` (a bias reshaped to a row). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
theorem W2_of (c : Dev nD) (r : Ref sig .tc) (h : r ∉ hostOps1_W) : W2 m c (Proc.devRef .tc r) = W1 m c (Proc.devRef .tc r) :=
  StableHlo.after_of_writes_sub hostOps1 _ hostOps1_writes h

/-- After region 1: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host stretch `hostOps2` (a bias reshaped to a row). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
theorem W4_of (c : Dev nD) (r : Ref sig .tc) (h : r ∉ hostOps2_W) : W4 m c (Proc.devRef .tc r) = W3 m c (Proc.devRef .tc r) :=
  StableHlo.after_of_writes_sub hostOps2 _ hostOps2_writes h

/-- After region 2: its arrays at what the pipeline leaves, every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the host stretch `hostOps3` (a bias reshaped to a row). -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
theorem W6_of (c : Dev nD) (r : Ref sig .tc) (h : r ∉ hostOps3_W) : W6 m c (Proc.devRef .tc r) = W5 m c (Proc.devRef .tc r) :=
  StableHlo.after_of_writes_sub hostOps3 _ hostOps3_writes h

/-- After region 3: its arrays at what the pipeline leaves, every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := W6_of m c main_arg0 (by decide)
    _ = W4 m c (Proc.devRef .tc main_arg0) := W5_of_ne m c main_arg0 (by decide)
    _ = W3 m c (Proc.devRef .tc main_arg0) := W4_of m c main_arg0 (by decide)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 1).trans (((dat0 (V0 m) c).arrAt_in 1 rfl _).trans (A_eq0 (V0 m) c 1))
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := (W7_arr m c 4).trans (((dat3 (V6 m) c).arrAt_in 4 rfl _).trans (A_eq3 (V6 m) c 4))
    _ = W5 m c (Proc.devRef .tc main_arg1) := W6_of m c main_arg1 (by decide)
    _ = W4 m c (Proc.devRef .tc main_arg1) := (W5_arr m c 4).trans (((dat2 (V4 m) c).arrAt_in 4 rfl _).trans (A_eq2 (V4 m) c 4))
    _ = W3 m c (Proc.devRef .tc main_arg1) := W4_of m c main_arg1 (by decide)
    _ = W2 m c (Proc.devRef .tc main_arg1) := (W3_arr m c 4).trans (((dat1 (V2 m) c).arrAt_in 4 rfl _).trans (A_eq1 (V2 m) c 4))
    _ = W1 m c (Proc.devRef .tc main_arg1) := W2_of m c main_arg1 (by decide)
    _ = W0 m c (Proc.devRef .tc main_arg1) := (W1_arr m c 0).trans (((dat0 (V0 m) c).arrAt_in 0 rfl _).trans (A_eq0 (V0 m) c 0))
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := W6_of m c main_arg2 (by decide)
    _ = W4 m c (Proc.devRef .tc main_arg2) := W5_of_ne m c main_arg2 (by decide)
    _ = W3 m c (Proc.devRef .tc main_arg2) := W4_of m c main_arg2 (by decide)
    _ = W2 m c (Proc.devRef .tc main_arg2) := (W3_arr m c 2).trans (((dat1 (V2 m) c).arrAt_in 2 rfl _).trans (A_eq1 (V2 m) c 2))
    _ = W1 m c (Proc.devRef .tc main_arg2) := W2_of m c main_arg2 (by decide)
    _ = W0 m c (Proc.devRef .tc main_arg2) := W1_of_ne m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W5 m c (Proc.devRef .tc main_arg3) := W6_of m c main_arg3 (by decide)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W5 m c (Proc.devRef .tc main_arg4) := W6_of m c main_arg4 (by decide)
    _ = W4 m c (Proc.devRef .tc main_arg4) := (W5_arr m c 2).trans (((dat2 (V4 m) c).arrAt_in 2 rfl _).trans (A_eq2 (V4 m) c 2))
    _ = W3 m c (Proc.devRef .tc main_arg4) := W4_of m c main_arg4 (by decide)
    _ = W2 m c (Proc.devRef .tc main_arg4) := W3_of_ne m c main_arg4 (by decide)
    _ = W1 m c (Proc.devRef .tc main_arg4) := W2_of m c main_arg4 (by decide)
    _ = W0 m c (Proc.devRef .tc main_arg4) := W1_of_ne m c main_arg4 (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = W5 m c (Proc.devRef .tc main_arg5) := W6_of m c main_arg5 (by decide)
    _ = W4 m c (Proc.devRef .tc main_arg5) := W5_of_ne m c main_arg5 (by decide)
    _ = W3 m c (Proc.devRef .tc main_arg5) := W4_of m c main_arg5 (by decide)
    _ = W2 m c (Proc.devRef .tc main_arg5) := W3_of_ne m c main_arg5 (by decide)
    _ = W1 m c (Proc.devRef .tc main_arg5) := W2_of m c main_arg5 (by decide)
    _ = W0 m c (Proc.devRef .tc main_arg5) := W1_of_ne m c main_arg5 (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := (W7_arr m c 2).trans (((dat3 (V6 m) c).arrAt_in 2 rfl _).trans (A_eq3 (V6 m) c 2))
    _ = W5 m c (Proc.devRef .tc main_arg6) := W6_of m c main_arg6 (by decide)
    _ = W4 m c (Proc.devRef .tc main_arg6) := W5_of_ne m c main_arg6 (by decide)
    _ = W3 m c (Proc.devRef .tc main_arg6) := W4_of m c main_arg6 (by decide)
    _ = W2 m c (Proc.devRef .tc main_arg6) := W3_of_ne m c main_arg6 (by decide)
    _ = W1 m c (Proc.devRef .tc main_arg6) := W2_of m c main_arg6 (by decide)
    _ = W0 m c (Proc.devRef .tc main_arg6) := W1_of_ne m c main_arg6 (by decide)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of_ne m c main_arg7 (by decide)
    _ = W5 m c (Proc.devRef .tc main_arg7) := W6_of m c main_arg7 (by decide)
    _ = W4 m c (Proc.devRef .tc main_arg7) := W5_of_ne m c main_arg7 (by decide)
    _ = W3 m c (Proc.devRef .tc main_arg7) := W4_of m c main_arg7 (by decide)
    _ = W2 m c (Proc.devRef .tc main_arg7) := W3_of_ne m c main_arg7 (by decide)
    _ = W1 m c (Proc.devRef .tc main_arg7) := W2_of m c main_arg7 (by decide)
    _ = W0 m c (Proc.devRef .tc main_arg7) := W1_of_ne m c main_arg7 (by decide)
    _ = m ((c : Thread nD τ).loc main_arg7) := rfl

/-! ## The proof data family and the thread state -/

/-- No pallas_call here has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W0`, left at `W1`. Its arrays are split
    out of the unscoped buffers and put back at the exit contents; the generator register and the scoped rest go into
    the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    have h := hin0 (V0 m) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (V0 m) c).Φ (Fin.last cfg0.N) from rfl]
    have h := hout0 (V0 m) c
    unfold Pipeline.ΦA at h
    iintro Hphi
    ihave Hout := h $$ [Hphi]
    · iexact Hphi
    icases Hout with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W2`, left at `W3`. Its arrays are split
    out of the unscoped buffers and put back at the exit contents; the generator register and the scoped rest go into
    the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    have h := hin1 (V2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V2 m) c).Φ (Fin.last cfg1.N) from rfl]
    have h := hout1 (V2 m) c
    unfold Pipeline.ΦA at h
    iintro Hphi
    ihave Hout := h $$ [Hphi]
    · iexact Hphi
    icases Hout with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at `W4`, left at `W5`. Its arrays are split
    out of the unscoped buffers and put back at the exit contents; the generator register and the scoped rest go into
    the region's invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V4 m) c).Φ 0 from rfl]
    have h := hin2 (V4 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V4 m) c).Φ (Fin.last cfg2.N) from rfl]
    have h := hout2 (V4 m) c
    unfold Pipeline.ΦA at h
    iintro Hphi
    ihave Hout := h $$ [Hphi]
    · iexact Hphi
    icases Hout with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 over the thread state: entered from every unscoped buffer at `W6`, left at `W7`. Its arrays are split
    out of the unscoped buffers and put back at the exit contents; the generator register and the scoped rest go into
    the region's invariant and come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V6 m) c).Φ 0 from rfl]
    have h := hin3 (V6 m) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (V6 m) c).Φ (Fin.last cfg3.N) from rfl]
    have h := hout3 (V6 m) c
    unfold Pipeline.ΦA at h
    iintro Hphi
    ihave Hout := h $$ [Hphi]
    · iexact Hphi
    icases Hout with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer at the last fold `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W7_main_arg0 m c), (h c _ (mem_uc main_arg1 (by decide))).trans (W7_main_arg1 m c),
     (h c _ (mem_uc main_arg2 (by decide))).trans (W7_main_arg2 m c), (h c _ (mem_uc main_arg3 (by decide))).trans (W7_main_arg3 m c),
     (h c _ (mem_uc main_arg4 (by decide))).trans (W7_main_arg4 m c), (h c _ (mem_uc main_arg5 (by decide))).trans (W7_main_arg5 m c),
     (h c _ (mem_uc main_arg6 (by decide))).trans (W7_main_arg6 m c), (h c _ (mem_uc main_arg7 (by decide))).trans (W7_main_arg7 m c)⟩) (run_main m ρ)

end Cert.Kernel.Hand

end
-- ==== Proof.Reg0Runs.lean ====
/-
  The first pass over the adjacency (grid of 25 row blocks of 2000): the body run on whole staging
  buffers, in its two control cases. At the first block the two accumulators (the anchor-space
  aggregate, 512 x 128, and the column sums, 512 x 8) are reset to zero and the scratch column of
  ones (2000 x 8) is written, then the block's contribution is added; at every later block the
  accumulators hold what the block before left and the contribution is added to that. Each run
  returns, as the pieces its stores leave, what each written buffer holds afterwards.
-/
import proofs.«182234_g5308579578416_cont_8to1_c_894_2_alg».proof.Proof.Gen.KernelIdeal.Launch
import proofs.«182234_g5308579578416_cont_8to1_c_894_2_alg».proof.Proof.Gen.KernelIdeal.Skeleton
import proofs.«182234_g5308579578416_cont_8to1_c_894_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first block": the body's one branch condition, from the grid coordinate. -/
abbrev cond0 (i : grid0.Coords) : Prop := (Scalar.cmpi .ne (Scalar.extui (Scalar.cmpi .eq (BitVec.ofNat 32 (i 0).val) 0#32)) 0#32) = 1#1
/-- It holds at point 0 only. -/
theorem hcond0 : ∀ t : Fin cfg0.N, cond0 (grid0.coords t) ↔ t.val % 25 = 0 :=
  (by decide +kernel : ∀ t : Fin grid0.N, cond0 (grid0.coords t) ↔ t.val % 25 = 0)

set_option maxHeartbeats 4000000 in
/-- The body at the first block: the accumulators and the scratch at anything beforehand. -/
noncomputable def kernelRun0_A (c : Dev nD) (i : grid0.Coords)
    (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i)
    (x1 : Vec F S2000x512 .f32) (x2 : Vec F S2000x128 .f32) :
    Σ' (L3 : List (View.Piece (Elt F) S512x128 .f32)) (L4 : List (View.Piece (Elt F) S512x8 .f32)), { LS : List (View.Piece (Elt F) S2000x8 .f32) //
      ∀ (E : Set ℕ) (K : PUnit → sProp 𝕄),
        iprop(owns (c : Thread nD τ) arg1 fullShare x1 ∗ owns (c : Thread nD τ) arg2 fullShare x2
            ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f LS)) -∗ K ⟨⟩))
          ⊢ wp frame (wpE (defs₀ (F := F)) Variants.none c none) E (cc0__pass_in i arg1 harg1 arg2 harg2 arg3 harg3 arg4 harg4 arg5 harg5) K } := by
  refine ⟨?_, ?_, ?_, fun E K => ?run⟩
  case run =>
    simp only [cc0__pass_in_eq_skeleton]; unfold cc0__pass_in_skel
    unfold owns
    iintro ⟨⟨%f1, %hf1, H1⟩, ⟨%f2, %hf2, H2⟩, ⟨%d3, %f3, -, H3⟩, ⟨%d4, %f4, -, H4⟩, ⟨%d5, %f5, -, H5⟩, Hk⟩
    obtain rfl := harg1.eq_unread hf1; obtain rfl := harg2.eq_unread hf2
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    iexists _; iexact H5

set_option maxHeartbeats 4000000 in
/-- The body at a later block: the accumulators and the scratch at what the block before left. -/
noncomputable def kernelRun0_B (c : Dev nD) (i : grid0.Coords)
    (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i)
    (x1 : Vec F S2000x512 .f32) (x2 : Vec F S2000x128 .f32) (xo3 : Vec F S512x128 .f32) (xo4 : Vec F S512x8 .f32) (xs : Vec F S2000x8 .f32) :
    Σ' (L3 : List (View.Piece (Elt F) S512x128 .f32)), { L4 : List (View.Piece (Elt F) S512x8 .f32) //
      ∀ (E : Set ℕ) (K : PUnit → sProp 𝕄),
        iprop(owns (c : Thread nD τ) arg1 fullShare x1 ∗ owns (c : Thread nD τ) arg2 fullShare x2
            ∗ owns (c : Thread nD τ) arg3 fullShare xo3 ∗ owns (c : Thread nD τ) arg4 fullShare xo4 ∗ owns (c : Thread nD τ) arg5 fullShare xs
            ∗ (iprop(owns (c : Thread nD τ) arg1 fullShare x1 ∗ owns (c : Thread nD τ) arg2 fullShare x2
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__pass_in i arg1 harg1 arg2 harg2 arg3 harg3 arg4 harg4 arg5 harg5) K } := by
  refine ⟨?_, ?_, fun E K => ?run⟩
  case run =>
    simp only [cc0__pass_in_eq_skeleton]; unfold cc0__pass_in_skel
    unfold owns
    iintro ⟨⟨%f1, %hf1, H1⟩, ⟨%f2, %hf2, H2⟩, ⟨%f3, %hf3, H3⟩, ⟨%f4, %hf4, H4⟩, ⟨%f5, %hf5, H5⟩, Hk⟩
    obtain rfl := harg1.eq_unread hf1; obtain rfl := harg2.eq_unread hf2
    obtain rfl := harg3.eq_unread hf3; obtain rfl := harg4.eq_unread hf4; obtain rfl := harg5.eq_unread hf5
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [H4]; · iexists _; iexact H4
    iexists _; isplitr; · ipureintro; exact harg5.read_unread _
    iexact H5

end Cert.KernelIdeal.Hand

end
-- ==== Proof.Reg0.lean ====
/-
  The first pass over the adjacency as one region of the pipeline: what its two accumulators and its
  scratch hold after each of the 25 row blocks, by recursion on the block (`outsAt0`: the first block
  starts from zero, each later block adds to what the block before left), the region's invariant (the
  scratch of ones named from the first block on), the proof data, and the body obligation at every
  block — all for any contents `V` of the buffers when the region is entered.
-/
import proofs.«182234_g5308579578416_cont_8to1_c_894_2_alg».proof.Proof.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Views through which the accumulators' and the scratch's contents are stated. -/
abbrev VO0_2 : View sig .tc .vmem S512x128 .f32 := (Memref.whole cc0_stg2_0 : Memref sig .tc .vmem S512x128 .f32).view
abbrev VO0_3 : View sig .tc .vmem S512x8 .f32 := (Memref.whole cc0_stg3_0 : Memref sig .tc .vmem S512x8 .f32).view
abbrev ms0_0 (t : Fin cfg0.N) : Memref sig .tc .vmem S2000x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x8 .f32 := win0_3.stage (cfg0.slots t 3)
abbrev hs0_3 (t : Fin cfg0.N) : (ms0_3 t).IsWhole := hstage0_3 ((cfg0.slots t 3).cast nbuf0_3)
abbrev scM0 : Memref sig .tc .vmem S2000x8 .f32 := Memref.whole cc0_scratch0
abbrev VS0 : View sig .tc .vmem S2000x8 .f32 := scM0.view

/-- The region's entry invariant with the pass's scratch split off. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Region0

/-! ## What each case leaves -/

theorem cover0_A_3 (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) (y : S512x128.Idx) :
    ∃ pc ∈ (kernelRun0_A c i arg1 harg1 arg2 harg2 arg3 harg3 arg4 harg4 arg5 harg5 hc0 x1 x2).1, y ∈ pc.1.set :=
  View.cover_of_tiledL (kernelRun0_A c i arg1 harg1 arg2 harg2 arg3 harg3 arg4 harg4 arg5 harg5 hc0 x1 x2).1 S512x128.size (by sl_kernel_rfl) y
theorem cover0_A_4 (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) (y : S512x8.Idx) :
    ∃ pc ∈ (kernelRun0_A c i arg1 harg1 arg2 harg2 arg3 harg3 arg4 harg4 arg5 harg5 hc0 x1 x2).2.1, y ∈ pc.1.set :=
  View.cover_of_tiledL (kernelRun0_A c i arg1 harg1 arg2 harg2 arg3 harg3 arg4 harg4 arg5 harg5 hc0 x1 x2).2.1 S512x8.size (by sl_kernel_rfl) y
theorem scover0_A (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) (y : S2000x8.Idx) :
    ∃ pc ∈ (kernelRun0_A c i arg1 harg1 arg2 harg2 arg3 harg3 arg4 harg4 arg5 harg5 hc0 x1 x2).2.2.1, y ∈ pc.1.set :=
  View.cover_of_tiledL (kernelRun0_A c i arg1 harg1 arg2 harg2 arg3 harg3 arg4 harg4 arg5 harg5 hc0 x1 x2).2.2.1 S2000x8.size (by sl_kernel_rfl) y
theorem cover0_B_3 (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i) (x1 : Vec F S2000x512 .f32) (x2 : Vec F S2000x128 .f32)
    (xo3 : Vec F S512x128 .f32) (xo4 : Vec F S512x8 .f32) (xs : Vec F S2000x8 .f32) (y : S512x128.Idx) :
    ∃ pc ∈ (kernelRun0_B c i arg1 harg1 arg2 harg2 arg3 harg3 arg4 harg4 arg5 harg5 hc0 x1 x2 xo3 xo4 xs).1, y ∈ pc.1.set :=
  View.cover_of_tiledL (kernelRun0_B c i arg1 harg1 arg2 harg2 arg3 harg3 arg4 harg4 arg5 harg5 hc0 x1 x2 xo3 xo4 xs).1 S512x128.size (by sl_kernel_rfl) y
theorem cover0_B_4 (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i) (x1 : Vec F S2000x512 .f32) (x2 : Vec F S2000x128 .f32)
    (xo3 : Vec F S512x128 .f32) (xo4 : Vec F S512x8 .f32) (xs : Vec F S2000x8 .f32) (y : S512x8.Idx) :
    ∃ pc ∈ (kernelRun0_B c i arg1 harg1 arg2 harg2 arg3 harg3 arg4 harg4 arg5 harg5 hc0 x1 x2 xo3 xo4 xs).2.1, y ∈ pc.1.set :=
  View.cover_of_tiledL (kernelRun0_B c i arg1 harg1 arg2 harg2 arg3 harg3 arg4 harg4 arg5 harg5 hc0 x1 x2 xo3 xo4 xs).2.1 S512x8.size (by sl_kernel_rfl) y

/-- What the first block leaves in the aggregate, the column sums and the scratch. -/
def out0_A (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) :
    Vec F S512x128 .f32 × Vec F S512x8 .f32 × Vec F S2000x8 .f32 :=
  (VO0_2.read (Elt F) (VO0_2.writes (Elt F) VO0_2.junk (kernelRun0_A c i arg1 harg1 arg2 harg2 arg3 harg3 arg4 harg4 arg5 harg5 hc0 x1 x2).1),
   VO0_3.read (Elt F) (VO0_3.writes (Elt F) VO0_3.junk (kernelRun0_A c i arg1 harg1 arg2 harg2 arg3 harg3 arg4 harg4 arg5 harg5 hc0 x1 x2).2.1),
   VS0.read (Elt F) (VS0.writes (Elt F) VS0.junk (kernelRun0_A c i arg1 harg1 arg2 harg2 arg3 harg3 arg4 harg4 arg5 harg5 hc0 x1 x2).2.2.1))

/-- What a later block leaves in them, over what the block before left (the scratch is not written). -/
def out0_B (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i) (x1 : Vec F S2000x512 .f32) (x2 : Vec F S2000x128 .f32)
    (p : Vec F S512x128 .f32 × Vec F S512x8 .f32 × Vec F S2000x8 .f32) :
    Vec F S512x128 .f32 × Vec F S512x8 .f32 × Vec F S2000x8 .f32 :=
  (VO0_2.read (Elt F) (VO0_2.writes (Elt F) VO0_2.junk (kernelRun0_B c i arg1 harg1 arg2 harg2 arg3 harg3 arg4 harg4 arg5 harg5 hc0 x1 x2 p.1 p.2.1 p.2.2).1),
   VO0_3.read (Elt F) (VO0_3.writes (Elt F) VO0_3.junk (kernelRun0_B c i arg1 harg1 arg2 harg2 arg3 harg3 arg4 harg4 arg5 harg5 hc0 x1 x2 p.1 p.2.1 p.2.2).2.1),
   p.2.2)

section Region0

variable (V : (c : Dev nD) → (b : Ref sig .tc) → Buf (Elt F) ((c : Thread nD τ).loc b))

theorem not_cond0_succ (n : ℕ) (hn : n + 1 < cfg0.N) : ¬cond0 (grid0.coords ⟨n + 1, hn⟩) := fun h => by
  have h1 := (hcond0 ⟨n + 1, hn⟩).mp h
  have hN : n + 1 < 25 := lt_of_lt_of_eq hn (show cfg0.N = 25 from N_0)
  dsimp only at h1; omega

/-- THE ACCUMULATION: the aggregate, the column sums and the scratch after the body at block `n`. -/
def outsAt0 (c : Dev nD) : (n : ℕ) → n < cfg0.N → Vec F S512x128 .f32 × Vec F S512x8 .f32 × Vec F S2000x8 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _)
      ((hcond0 ⟨0, hn⟩).mpr (Nat.zero_mod _)) (iblk0 V c 0 ⟨0, hn⟩) (iblk0 V c 1 ⟨0, hn⟩)
  | n + 1, hn => out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _)
      (not_cond0_succ n hn) (iblk0 V c 0 ⟨n + 1, hn⟩) (iblk0 V c 1 ⟨n + 1, hn⟩) (outsAt0 c n (Nat.lt_of_succ_lt hn))

theorem not_cond0_pos (t : Fin cfg0.N) (h0 : t.val ≠ 0) : ¬cond0 (grid0.coords t) := fun h => by
  have h1 := (hcond0 t).mp h
  have hN : t.val < 25 := lt_of_lt_of_eq t.isLt (show cfg0.N = 25 from N_0)
  omega

theorem outsAt0_A (c : Dev nD) (t : Fin cfg0.N) (h0 : t.val = 0) :
    outsAt0 V c t.val t.isLt = out0_A c (grid0.coords t) (ms0_0 t) (hs0_0 t) (ms0_1 t) (hs0_1 t) (ms0_2 t) (hs0_2 t) (ms0_3 t) (hs0_3 t) scM0 (Memref.isWhole_whole _)
      ((hcond0 t).mpr (by rw [h0])) (iblk0 V c 0 t) (iblk0 V c 1 t) := by
  obtain ⟨n, hn⟩ := t
  cases n with
  | zero => exact rfl
  | succ n => exact absurd h0 (Nat.succ_ne_zero n)

theorem outsAt0_B (c : Dev nD) (t : Fin cfg0.N) (h0 : t.val ≠ 0) :
    outsAt0 V c t.val t.isLt = out0_B c (grid0.coords t) (ms0_0 t) (hs0_0 t) (ms0_1 t) (hs0_1 t) (ms0_2 t) (hs0_2 t) (ms0_3 t) (hs0_3 t) scM0 (Memref.isWhole_whole _)
      (not_cond0_pos t h0) (iblk0 V c 0 t) (iblk0 V c 1 t) (outsAt0 V c (t.val - 1) (Nat.lt_of_le_of_lt (Nat.sub_le _ _) t.isLt)) := by
  obtain ⟨n, hn⟩ := t
  cases n with
  | zero => exact absurd rfl h0
  | succ n => exact rfl

/-- The region's invariant before block `n`: at entry the class's; afterwards the scratch at what the block before left,
    the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2.2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of the first pass on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- After the first block an accumulator's buffer holds what the block before left: not written back in between. -/
theorem before0_2_B (c : Dev nD) (t : Fin cfg0.N) (h0 : t.val ≠ 0) (d) :
    (dat0 V c).before 2 t d = (outsAt0 V c (t.val - 1) (Nat.lt_of_le_of_lt (Nat.sub_le _ _) t.isLt)).1 := by
  have hN : t.val < 25 := lt_of_lt_of_eq t.isLt (show cfg0.N = 25 from N_0)
  rw [Dat.before_out_kept _ 2 rfl t h0 (Bool.eq_false_iff.mpr fun h => by have := (flush0_2 _).mp h; dsimp only at this; omega)
    (fun _ => rfl) (fun _ _ => rfl)]
  dsimp only [dat0]
theorem before0_3_B (c : Dev nD) (t : Fin cfg0.N) (h0 : t.val ≠ 0) (d) :
    (dat0 V c).before 3 t d = (outsAt0 V c (t.val - 1) (Nat.lt_of_le_of_lt (Nat.sub_le _ _) t.isLt)).2.1 := by
  have hN : t.val < 25 := lt_of_lt_of_eq t.isLt (show cfg0.N = 25 from N_0)
  rw [Dat.before_out_kept _ 3 rfl t h0 (Bool.eq_false_iff.mpr fun h => by have := (flush0_3 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3]
  by_cases hz : t.val = 0
  · rw [outsAt0_A V c t hz]
    unfold out0_A; dsimp only
    rw [PhiS0_castSucc V c t, PhiS0_zero V c _ _ hz, PhiA0_eq]
    iintro ⟨⟨⟨HS, Hrest⟩, Hg⟩, Ho, ⟨%d0, H0⟩, ⟨%d1, H1⟩, ⟨%d2, H2⟩, ⟨%d3, H3⟩⟩
    iapply ((kernelRun0_A c (grid0.coords t) _ _ _ _ _ _ _ _ _ _ ((hcond0 t).mpr (by rw [hz])) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [HS]; · iexact HS
    iintro ⟨H0, H1, ⟨%e2, H2⟩, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _ _)
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_3 c _ _ _ _ _ _ _ _ _ _ _ _ _ _)
    unfold owns; iexists _; isplitr
    swap; · iexact H3
    ipureintro; exact View.read_writes_of_cover _ _ _ _ _ (cover0_A_4 c _ _ _ _ _ _ _ _ _ _ _ _ _ _)
  · rw [outsAt0_B V c t hz]
    simp only [before0_2_B V c t hz, before0_3_B V c t hz]
    unfold out0_B; dsimp only
    rw [PhiS0_castSucc V c t, PhiS0_pos V c _ _ hz]
    iintro ⟨⟨⟨HS, Hrest⟩, Hg⟩, Ho, ⟨%d0, H0⟩, ⟨%d1, H1⟩, ⟨%d2, H2⟩, ⟨%d3, H3⟩⟩
    iapply ((kernelRun0_B c (grid0.coords t) _ _ _ _ _ _ _ _ _ _ (not_cond0_pos t hz) (iblk0 V c 0 t) (iblk0 V c 1 t) _ _ _).2.2 Set.univ _)
    isplitl [H0]; · iexact H0
    isplitl [H1]; · iexact H1
    isplitl [H2]; · iexact H2
    isplitl [H3]; · iexact H3
    isplitl [HS]; · iexact HS
    iintro ⟨H0, H1, ⟨%e2, H2⟩, ⟨%e3, H3⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_3 c _ _ _ _ _ _ _ _ _ _ _ _ _ _ _ _ _)
    unfold owns; iexists _; isplitr
    swap; · iexact H3
    ipureintro; exact View.read_writes_of_cover _ _ _ _ _ (cover0_B_4 c _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the region is handed is the invariant before the first block. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last block the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS, Hrest⟩, Hg⟩
  isplitl [HS Hrest]
  · isplitl [HS]; · iexists _; iexact HS
    iexact Hrest
  iexact Hg

end Region0

end Cert.KernelIdeal.Hand

end
-- ==== Proof.Reg1Runs.lean ====
/-
  The first hidden layer's pass over the adjacency (25 row blocks of 2000): the body run on whole
  staging buffers, in its two control cases. At the first block the anchor-space weights
  v = (t / col) W are computed from the aggregate t, the floored column sums and the layer's weights
  and kept in scratch, and the output accumulator is reset to zero; at every block the block's rows
  are sent through A v / row + b, rectified, and their aggregate A^T g is added to the accumulator.
  Each run returns, as the pieces its stores leave, what each written buffer holds afterwards.
-/
import proofs.«182234_g5308579578416_cont_8to1_c_894_2_alg».proof.Proof.Gen.KernelIdeal.Launch
import proofs.«182234_g5308579578416_cont_8to1_c_894_2_alg».proof.Proof.Gen.KernelIdeal.Skeleton
import proofs.«182234_g5308579578416_cont_8to1_c_894_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first block": the body's one branch condition, from the grid coordinate. -/
abbrev cond1 (i : grid1.Coords) : Prop := (Scalar.cmpi .ne (Scalar.extui (Scalar.cmpi .eq (BitVec.ofNat 32 (i 0).val) 0#32)) 0#32) = 1#1
/-- It holds at point 0 only. -/
theorem hcond1 : ∀ t : Fin cfg1.N, cond1 (grid1.coords t) ↔ t.val % 25 = 0 :=
  (by decide +kernel : ∀ t : Fin grid1.N, cond1 (grid1.coords t) ↔ t.val % 25 = 0)

set_option maxHeartbeats 4000000 in
/-- The body at the first block: the accumulator and the scratch at anything beforehand. -/
noncomputable def kernelRun1_A (c : Dev nD) (i : grid1.Coords)
    (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i)
    (x1 : Vec F S512x128 .f32) (x2 : Vec F S512x8 .f32) (x3 : Vec F S128x128 .f32) (x4 : Vec F S1x128 .f32) (x5 : Vec F S2000x512 .f32) :
    Σ' (L6 : List (View.Piece (Elt F) S512x128 .f32)), { LS : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS)) -∗ K ⟨⟩))
          ⊢ wp frame (wpE (defs₀ (F := F)) Variants.none c none) E (cc1__pass_mid i arg1 harg1 arg2 harg2 arg3 harg3 arg4 harg4 arg5 harg5 arg6 harg6 arg7 harg7) K } := by
  refine ⟨?_, ?_, fun E K => ?run⟩
  case run =>
    simp only [cc1__pass_mid_eq_skeleton]; unfold cc1__pass_mid_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 4000000 in
/-- The body at a later block: the accumulator and the scratch at what the block before left. -/
noncomputable def kernelRun1_B (c : Dev nD) (i : grid1.Coords)
    (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond1 i)
    (x1 : Vec F S512x128 .f32) (x2 : Vec F S512x8 .f32) (x3 : Vec F S128x128 .f32) (x4 : Vec F S1x128 .f32) (x5 : Vec F S2000x512 .f32)
    (xo6 : Vec F S512x128 .f32) (xs : Vec F S512x128 .f32) :
    { L6 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xo6 ∗ owns (c : Thread nD τ) arg7 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ owns (c : Thread nD τ) arg7 fullShare xs) -∗ K ⟨⟩))
          ⊢ wp frame (wpE (defs₀ (F := F)) Variants.none c none) E (cc1__pass_mid i arg1 harg1 arg2 harg2 arg3 harg3 arg4 harg4 arg5 harg5 arg6 harg6 arg7 harg7) K } := by
  refine ⟨?_, fun E K => ?run⟩
  case run =>
    simp only [cc1__pass_mid_eq_skeleton]; unfold cc1__pass_mid_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6; obtain rfl := harg7.eq_unread hf7
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.KernelIdeal.Hand

end
-- ==== Proof.Reg1.lean ====
/-
  The first hidden layer's pass as one region of the pipeline: what its output accumulator (the next
  layer's anchor-space aggregate, 512 x 128) and its scratch (the anchor-space weights v) hold after
  each of the 25 row blocks, by recursion on the block (`outsAt1`), the region's invariant (the scratch
  named from the first block on), the proof data, and the body obligation at every block — all for any
  contents `V` of the buffers when the region is entered.
-/
import proofs.«182234_g5308579578416_cont_8to1_c_894_2_alg».proof.Proof.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev VO1_5 : View sig .tc .vmem S512x128 .f32 := (Memref.whole cc1_stg5_0 : Memref sig .tc .vmem S512x128 .f32).view
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x8 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
abbrev scM1 : Memref sig .tc .vmem S512x128 .f32 := Memref.whole cc1_scratch0
abbrev VS1 : View sig .tc .vmem S512x128 .f32 := scM1.view

/-- The region's entry invariant with the pass's scratch split off. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Region1

/-! ## What each case leaves -/

theorem cover1_A_6 (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i) (x1 : Vec F S512x128 .f32) (x2 : Vec F S512x8 .f32) (x3 : Vec F S128x128 .f32) (x4 : Vec F S1x128 .f32) (x5 : Vec F S2000x512 .f32) (y : S512x128.Idx) :
    ∃ pc ∈ (kernelRun1_A c i arg1 harg1 arg2 harg2 arg3 harg3 arg4 harg4 arg5 harg5 arg6 harg6 arg7 harg7 hc0 x1 x2 x3 x4 x5).1, y ∈ pc.1.set :=
  View.cover_of_tiledL (kernelRun1_A c i arg1 harg1 arg2 harg2 arg3 harg3 arg4 harg4 arg5 harg5 arg6 harg6 arg7 harg7 hc0 x1 x2 x3 x4 x5).1 S512x128.size (by sl_kernel_rfl) y
theorem scover1_A (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i) (x1 : Vec F S512x128 .f32) (x2 : Vec F S512x8 .f32) (x3 : Vec F S128x128 .f32) (x4 : Vec F S1x128 .f32) (x5 : Vec F S2000x512 .f32) (y : S512x128.Idx) :
    ∃ pc ∈ (kernelRun1_A c i arg1 harg1 arg2 harg2 arg3 harg3 arg4 harg4 arg5 harg5 arg6 harg6 arg7 harg7 hc0 x1 x2 x3 x4 x5).2.1, y ∈ pc.1.set :=
  View.cover_of_tiledL (kernelRun1_A c i arg1 harg1 arg2 harg2 arg3 harg3 arg4 harg4 arg5 harg5 arg6 harg6 arg7 harg7 hc0 x1 x2 x3 x4 x5).2.1 S512x128.size (by sl_kernel_rfl) y
theorem cover1_B_6 (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond1 i) (x1 : Vec F S512x128 .f32) (x2 : Vec F S512x8 .f32) (x3 : Vec F S128x128 .f32) (x4 : Vec F S1x128 .f32) (x5 : Vec F S2000x512 .f32) (xo6 : Vec F S512x128 .f32) (xs : Vec F S512x128 .f32) (y : S512x128.Idx) :
    ∃ pc ∈ (kernelRun1_B c i arg1 harg1 arg2 harg2 arg3 harg3 arg4 harg4 arg5 harg5 arg6 harg6 arg7 harg7 hc0 x1 x2 x3 x4 x5 xo6 xs).1, y ∈ pc.1.set :=
  View.cover_of_tiledL (kernelRun1_B c i arg1 harg1 arg2 harg2 arg3 harg3 arg4 harg4 arg5 harg5 arg6 harg6 arg7 harg7 hc0 x1 x2 x3 x4 x5 xo6 xs).1 S512x128.size (by sl_kernel_rfl) y

/-- What the first block leaves in the accumulator and in the scratch. -/
def out1_A (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i) (x1 : Vec F S512x128 .f32) (x2 : Vec F S512x8 .f32) (x3 : Vec F S128x128 .f32) (x4 : Vec F S1x128 .f32) (x5 : Vec F S2000x512 .f32) :
    Vec F S512x128 .f32 × Vec F S512x128 .f32 :=
  (VO1_5.read (Elt F) (VO1_5.writes (Elt F) VO1_5.junk (kernelRun1_A c i arg1 harg1 arg2 harg2 arg3 harg3 arg4 harg4 arg5 harg5 arg6 harg6 arg7 harg7 hc0 x1 x2 x3 x4 x5).1),
   VS1.read (Elt F) (VS1.writes (Elt F) VS1.junk (kernelRun1_A c i arg1 harg1 arg2 harg2 arg3 harg3 arg4 harg4 arg5 harg5 arg6 harg6 arg7 harg7 hc0 x1 x2 x3 x4 x5).2.1))

/-- What a later block leaves in them, over what the block before left (the scratch is not written). -/
def out1_B (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond1 i) (x1 : Vec F S512x128 .f32) (x2 : Vec F S512x8 .f32) (x3 : Vec F S128x128 .f32) (x4 : Vec F S1x128 .f32) (x5 : Vec F S2000x512 .f32)
    (p : Vec F S512x128 .f32 × Vec F S512x128 .f32) : Vec F S512x128 .f32 × Vec F S512x128 .f32 :=
  (VO1_5.read (Elt F) (VO1_5.writes (Elt F) VO1_5.junk (kernelRun1_B c i arg1 harg1 arg2 harg2 arg3 harg3 arg4 harg4 arg5 harg5 arg6 harg6 arg7 harg7 hc0 x1 x2 x3 x4 x5 p.1 p.2).1), p.2)

section Region1

variable (V : (c : Dev nD) → (b : Ref sig .tc) → Buf (Elt F) ((c : Thread nD τ).loc b))

theorem not_cond1_succ (n : ℕ) (hn : n + 1 < cfg1.N) : ¬cond1 (grid1.coords ⟨n + 1, hn⟩) := fun h => by
  have h1 := (hcond1 ⟨n + 1, hn⟩).mp h
  have hN : n + 1 < 25 := lt_of_lt_of_eq hn (show cfg1.N = 25 from N_1)
  dsimp only at h1; omega

/-- THE ACCUMULATION: the accumulator and the scratch after the body at block `n`. -/
def outsAt1 (c : Dev nD) : (n : ℕ) → n < cfg1.N → Vec F S512x128 .f32 × Vec F S512x128 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _)
      ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn => out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _)
      (not_cond1_succ n hn) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

theorem not_cond1_pos (t : Fin cfg1.N) (h0 : t.val ≠ 0) : ¬cond1 (grid1.coords t) := fun h => by
  have h1 := (hcond1 t).mp h
  have hN : t.val < 25 := lt_of_lt_of_eq t.isLt (show cfg1.N = 25 from N_1)
  omega

theorem outsAt1_A (c : Dev nD) (t : Fin cfg1.N) (h0 : t.val = 0) :
    outsAt1 V c t.val t.isLt = out1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      ((hcond1 t).mpr (by rw [h0])) (iblk1 V c 0 t) (iblk1 V c 1 t) (iblk1 V c 2 t) (iblk1 V c 3 t) (iblk1 V c 4 t) := by
  obtain ⟨n, hn⟩ := t
  cases n with
  | zero => exact rfl
  | succ n => exact absurd h0 (Nat.succ_ne_zero n)

theorem outsAt1_B (c : Dev nD) (t : Fin cfg1.N) (h0 : t.val ≠ 0) :
    outsAt1 V c t.val t.isLt = out1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _)
      (not_cond1_pos t h0) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact absurd rfl h0
  | succ n => exact rfl

/-- The region's invariant before block `n`: at entry the class's; afterwards the scratch at what the block before left,
    the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
/-- After the first block the accumulator's buffer holds what the block before left: not written back in between. -/
theorem before1_5_B (c : Dev nD) (t : Fin cfg1.N) (h0 : t.val ≠ 0) (d) :
    (dat1 V c).before 5 t d = (outsAt1 V c (t.val - 1) (Nat.lt_of_le_of_lt (Nat.sub_le _ _) t.isLt)).1 := by
  have hN : t.val < 25 := lt_of_lt_of_eq t.isLt (show cfg1.N = 25 from N_1)
  rw [Dat.before_out_kept _ 5 rfl t h0 (Bool.eq_false_iff.mpr fun h => by have := (flush1_5 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3, after1_4, after1_5]
  by_cases hz : t.val = 0
  · rw [outsAt1_A V c t hz]
    unfold out1_A; dsimp only
    rw [PhiS1_castSucc V c t, PhiS1_zero V c _ _ hz, PhiA1_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ ((hcond1 t).mpr (by rw [hz])) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_A_6 c _ _ _ _ _ _ _ _ _ _ _ _ _ _ _ _ _ _ _ _ _)
  · rw [outsAt1_B V c t hz]
    simp only [before1_5_B V c t hz]
    unfold out1_B; dsimp only
    rw [PhiS1_castSucc V c t, PhiS1_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ _ _ (not_cond1_pos t hz) (iblk1 V c 0 t) (iblk1 V c 1 t) (iblk1 V c 2 t) (iblk1 V c 3 t) (iblk1 V c 4 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, ⟨%e5, H5⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_B_6 c _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is handed is the invariant before the first block. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last block the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega), PhiA1_eq]
  iintro ⟨⟨HS, Hrest⟩, Hg⟩
  isplitl [HS Hrest]
  · isplitl [HS]; · iexists _; iexact HS
    iexact Hrest
  iexact Hg

end Region1

end Cert.KernelIdeal.Hand

end
-- ==== Proof.Reg2Runs.lean ====
/-
  The second hidden layer's pass over the adjacency (25 row blocks of 2000): the body run on whole
  staging buffers, in its two control cases. At the first block the anchor-space weights
  v = (t / col) W are computed from the aggregate t, the floored column sums and the layer's weights
  and kept in scratch, and the output accumulator is reset to zero; at every block the block's rows
  are sent through A v / row + b, rectified, and their aggregate A^T g is added to the accumulator.
  Each run returns, as the pieces its stores leave, what each written buffer holds afterwards.
-/
import proofs.«182234_g5308579578416_cont_8to1_c_894_2_alg».proof.Proof.Gen.KernelIdeal.Launch
import proofs.«182234_g5308579578416_cont_8to1_c_894_2_alg».proof.Proof.Gen.KernelIdeal.Skeleton
import proofs.«182234_g5308579578416_cont_8to1_c_894_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first block": the body's one branch condition, from the grid coordinate. -/
abbrev cond2 (i : grid2.Coords) : Prop := (Scalar.cmpi .ne (Scalar.extui (Scalar.cmpi .eq (BitVec.ofNat 32 (i 0).val) 0#32)) 0#32) = 1#1
/-- It holds at point 0 only. -/
theorem hcond2 : ∀ t : Fin cfg2.N, cond2 (grid2.coords t) ↔ t.val % 25 = 0 :=
  (by decide +kernel : ∀ t : Fin grid2.N, cond2 (grid2.coords t) ↔ t.val % 25 = 0)

set_option maxHeartbeats 4000000 in
/-- The body at the first block: the accumulator and the scratch at anything beforehand. -/
noncomputable def kernelRun2_A (c : Dev nD) (i : grid2.Coords)
    (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i)
    (x1 : Vec F S512x128 .f32) (x2 : Vec F S512x8 .f32) (x3 : Vec F S128x128 .f32) (x4 : Vec F S1x128 .f32) (x5 : Vec F S2000x512 .f32) :
    Σ' (L6 : List (View.Piece (Elt F) S512x128 .f32)), { LS : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS)) -∗ K ⟨⟩))
          ⊢ wp frame (wpE (defs₀ (F := F)) Variants.none c none) E (cc2__pass_mid i arg1 harg1 arg2 harg2 arg3 harg3 arg4 harg4 arg5 harg5 arg6 harg6 arg7 harg7) K } := by
  refine ⟨?_, ?_, fun E K => ?run⟩
  case run =>
    simp only [cc2__pass_mid_eq_skeleton]; unfold cc2__pass_mid_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 4000000 in
/-- The body at a later block: the accumulator and the scratch at what the block before left. -/
noncomputable def kernelRun2_B (c : Dev nD) (i : grid2.Coords)
    (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond2 i)
    (x1 : Vec F S512x128 .f32) (x2 : Vec F S512x8 .f32) (x3 : Vec F S128x128 .f32) (x4 : Vec F S1x128 .f32) (x5 : Vec F S2000x512 .f32)
    (xo6 : Vec F S512x128 .f32) (xs : Vec F S512x128 .f32) :
    { L6 : List (View.Piece (Elt F) S512x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare xo6 ∗ owns (c : Thread nD τ) arg7 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ owns (c : Thread nD τ) arg7 fullShare xs) -∗ K ⟨⟩))
          ⊢ wp frame (wpE (defs₀ (F := F)) Variants.none c none) E (cc2__pass_mid i arg1 harg1 arg2 harg2 arg3 harg3 arg4 harg4 arg5 harg5 arg6 harg6 arg7 harg7) K } := by
  refine ⟨?_, fun E K => ?run⟩
  case run =>
    simp only [cc2__pass_mid_eq_skeleton]; unfold cc2__pass_mid_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6; obtain rfl := harg7.eq_unread hf7
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.KernelIdeal.Hand

end
-- ==== Proof.Reg2.lean ====
/-
  The second hidden layer's pass as one region of the pipeline: what its output accumulator (the next
  layer's anchor-space aggregate, 512 x 128) and its scratch (the anchor-space weights v) hold after
  each of the 25 row blocks, by recursion on the block (`outsAt2`), the region's invariant (the scratch
  named from the first block on), the proof data, and the body obligation at every block — all for any
  contents `V` of the buffers when the region is entered.
-/
import proofs.«182234_g5308579578416_cont_8to1_c_894_2_alg».proof.Proof.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev VO2_5 : View sig .tc .vmem S512x128 .f32 := (Memref.whole cc2_stg5_0 : Memref sig .tc .vmem S512x128 .f32).view
abbrev ms2_0 (t : Fin cfg2.N) : Memref sig .tc .vmem S512x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x8 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x128 .f32 := win2_5.stage (cfg2.slots t 5)
abbrev hs2_5 (t : Fin cfg2.N) : (ms2_5 t).IsWhole := hstage2_5 ((cfg2.slots t 5).cast nbuf2_5)
abbrev scM2 : Memref sig .tc .vmem S512x128 .f32 := Memref.whole cc2_scratch0
abbrev VS2 : View sig .tc .vmem S512x128 .f32 := scM2.view

/-- The region's entry invariant with the pass's scratch split off. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Region2

/-! ## What each case leaves -/

theorem cover2_A_6 (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i) (x1 : Vec F S512x128 .f32) (x2 : Vec F S512x8 .f32) (x3 : Vec F S128x128 .f32) (x4 : Vec F S1x128 .f32) (x5 : Vec F S2000x512 .f32) (y : S512x128.Idx) :
    ∃ pc ∈ (kernelRun2_A c i arg1 harg1 arg2 harg2 arg3 harg3 arg4 harg4 arg5 harg5 arg6 harg6 arg7 harg7 hc0 x1 x2 x3 x4 x5).1, y ∈ pc.1.set :=
  View.cover_of_tiledL (kernelRun2_A c i arg1 harg1 arg2 harg2 arg3 harg3 arg4 harg4 arg5 harg5 arg6 harg6 arg7 harg7 hc0 x1 x2 x3 x4 x5).1 S512x128.size (by sl_kernel_rfl) y
theorem scover2_A (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i) (x1 : Vec F S512x128 .f32) (x2 : Vec F S512x8 .f32) (x3 : Vec F S128x128 .f32) (x4 : Vec F S1x128 .f32) (x5 : Vec F S2000x512 .f32) (y : S512x128.Idx) :
    ∃ pc ∈ (kernelRun2_A c i arg1 harg1 arg2 harg2 arg3 harg3 arg4 harg4 arg5 harg5 arg6 harg6 arg7 harg7 hc0 x1 x2 x3 x4 x5).2.1, y ∈ pc.1.set :=
  View.cover_of_tiledL (kernelRun2_A c i arg1 harg1 arg2 harg2 arg3 harg3 arg4 harg4 arg5 harg5 arg6 harg6 arg7 harg7 hc0 x1 x2 x3 x4 x5).2.1 S512x128.size (by sl_kernel_rfl) y
theorem cover2_B_6 (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond2 i) (x1 : Vec F S512x128 .f32) (x2 : Vec F S512x8 .f32) (x3 : Vec F S128x128 .f32) (x4 : Vec F S1x128 .f32) (x5 : Vec F S2000x512 .f32) (xo6 : Vec F S512x128 .f32) (xs : Vec F S512x128 .f32) (y : S512x128.Idx) :
    ∃ pc ∈ (kernelRun2_B c i arg1 harg1 arg2 harg2 arg3 harg3 arg4 harg4 arg5 harg5 arg6 harg6 arg7 harg7 hc0 x1 x2 x3 x4 x5 xo6 xs).1, y ∈ pc.1.set :=
  View.cover_of_tiledL (kernelRun2_B c i arg1 harg1 arg2 harg2 arg3 harg3 arg4 harg4 arg5 harg5 arg6 harg6 arg7 harg7 hc0 x1 x2 x3 x4 x5 xo6 xs).1 S512x128.size (by sl_kernel_rfl) y

/-- What the first block leaves in the accumulator and in the scratch. -/
def out2_A (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i) (x1 : Vec F S512x128 .f32) (x2 : Vec F S512x8 .f32) (x3 : Vec F S128x128 .f32) (x4 : Vec F S1x128 .f32) (x5 : Vec F S2000x512 .f32) :
    Vec F S512x128 .f32 × Vec F S512x128 .f32 :=
  (VO2_5.read (Elt F) (VO2_5.writes (Elt F) VO2_5.junk (kernelRun2_A c i arg1 harg1 arg2 harg2 arg3 harg3 arg4 harg4 arg5 harg5 arg6 harg6 arg7 harg7 hc0 x1 x2 x3 x4 x5).1),
   VS2.read (Elt F) (VS2.writes (Elt F) VS2.junk (kernelRun2_A c i arg1 harg1 arg2 harg2 arg3 harg3 arg4 harg4 arg5 harg5 arg6 harg6 arg7 harg7 hc0 x1 x2 x3 x4 x5).2.1))

/-- What a later block leaves in them, over what the block before left (the scratch is not written). -/
def out2_B (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond2 i) (x1 : Vec F S512x128 .f32) (x2 : Vec F S512x8 .f32) (x3 : Vec F S128x128 .f32) (x4 : Vec F S1x128 .f32) (x5 : Vec F S2000x512 .f32)
    (p : Vec F S512x128 .f32 × Vec F S512x128 .f32) : Vec F S512x128 .f32 × Vec F S512x128 .f32 :=
  (VO2_5.read (Elt F) (VO2_5.writes (Elt F) VO2_5.junk (kernelRun2_B c i arg1 harg1 arg2 harg2 arg3 harg3 arg4 harg4 arg5 harg5 arg6 harg6 arg7 harg7 hc0 x1 x2 x3 x4 x5 p.1 p.2).1), p.2)

section Region2

variable (V : (c : Dev nD) → (b : Ref sig .tc) → Buf (Elt F) ((c : Thread nD τ).loc b))

theorem not_cond2_succ (n : ℕ) (hn : n + 1 < cfg2.N) : ¬cond2 (grid2.coords ⟨n + 1, hn⟩) := fun h => by
  have h1 := (hcond2 ⟨n + 1, hn⟩).mp h
  have hN : n + 1 < 25 := lt_of_lt_of_eq hn (show cfg2.N = 25 from N_2)
  dsimp only at h1; omega

/-- THE ACCUMULATION: the accumulator and the scratch after the body at block `n`. -/
def outsAt2 (c : Dev nD) : (n : ℕ) → n < cfg2.N → Vec F S512x128 .f32 × Vec F S512x128 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _)
      ((hcond2 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _)
      (not_cond2_succ n hn) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))

theorem not_cond2_pos (t : Fin cfg2.N) (h0 : t.val ≠ 0) : ¬cond2 (grid2.coords t) := fun h => by
  have h1 := (hcond2 t).mp h
  have hN : t.val < 25 := lt_of_lt_of_eq t.isLt (show cfg2.N = 25 from N_2)
  omega

theorem outsAt2_A (c : Dev nD) (t : Fin cfg2.N) (h0 : t.val = 0) :
    outsAt2 V c t.val t.isLt = out2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
      ((hcond2 t).mpr (by rw [h0])) (iblk2 V c 0 t) (iblk2 V c 1 t) (iblk2 V c 2 t) (iblk2 V c 3 t) (iblk2 V c 4 t) := by
  obtain ⟨n, hn⟩ := t
  cases n with
  | zero => exact rfl
  | succ n => exact absurd h0 (Nat.succ_ne_zero n)

theorem outsAt2_B (c : Dev nD) (t : Fin cfg2.N) (h0 : t.val ≠ 0) :
    outsAt2 V c t.val t.isLt = out2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _)
      (not_cond2_pos t h0) (iblk2 V c 0 t) (iblk2 V c 1 t) (iblk2 V c 2 t) (iblk2 V c 3 t) (iblk2 V c 4 t) (outsAt2 V c (t.val - 1) (Nat.lt_of_le_of_lt (Nat.sub_le _ _) t.isLt)) := by
  obtain ⟨n, hn⟩ := t
  cases n with
  | zero => exact absurd rfl h0
  | succ n => exact rfl

/-- The region's invariant before block `n`: at entry the class's; afterwards the scratch at what the block before left,
    the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of this pass on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
/-- After the first block the accumulator's buffer holds what the block before left: not written back in between. -/
theorem before2_5_B (c : Dev nD) (t : Fin cfg2.N) (h0 : t.val ≠ 0) (d) :
    (dat2 V c).before 5 t d = (outsAt2 V c (t.val - 1) (Nat.lt_of_le_of_lt (Nat.sub_le _ _) t.isLt)).1 := by
  have hN : t.val < 25 := lt_of_lt_of_eq t.isLt (show cfg2.N = 25 from N_2)
  rw [Dat.before_out_kept _ 5 rfl t h0 (Bool.eq_false_iff.mpr fun h => by have := (flush2_5 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5]
  by_cases hz : t.val = 0
  · rw [outsAt2_A V c t hz]
    unfold out2_A; dsimp only
    rw [PhiS2_castSucc V c t, PhiS2_zero V c _ _ hz, PhiA2_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2 t).mpr (by rw [hz])) (iblk2 V c 0 t) (iblk2 V c 1 t) (iblk2 V c 2 t) (iblk2 V c 3 t) (iblk2 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover2_A c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_A_6 c _ _ _ _ _ _ _ _ _ _ _ _ _ _ _ _ _ _ _ _ _)
  · rw [outsAt2_B V c t hz]
    simp only [before2_5_B V c t hz]
    unfold out2_B; dsimp only
    rw [PhiS2_castSucc V c t, PhiS2_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun2_B c (grid2.coords t) _ _ _ _ _ _ _ _ _ _ _ _ _ _ (not_cond2_pos t hz) (iblk2 V c 0 t) (iblk2 V c 1 t) (iblk2 V c 2 t) (iblk2 V c 3 t) (iblk2 V c 4 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, ⟨%e5, H5⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_B_6 c _ _ _ _ _ _ _ _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

/-- What the region is handed is the invariant before the first block. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last block the invariant gives the class's back: the scratch's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨⟨HS, Hrest⟩, Hg⟩
  isplitl [HS Hrest]
  · isplitl [HS]; · iexists _; iexact HS
    iexact Hrest
  iexact Hg

end Region2

end Cert.KernelIdeal.Hand

end
-- ==== Proof.Reg3Runs.lean ====
/-
  The output layer's pass over the adjacency (25 row blocks of 2000): the body run on whole staging
  buffers, in its two control cases. At the first block the anchor-space weights v = (t / col) W are
  computed from the aggregate t, the floored column sums and the layer's weights and kept in
  scratch; at every block the block's rows are sent through A v / row + b and stored whole into the
  output block, whatever it held before. Each run returns, as the pieces its stores leave, what each
  written buffer holds afterwards.
-/
import proofs.«182234_g5308579578416_cont_8to1_c_894_2_alg».proof.Proof.Gen.KernelIdeal.Launch
import proofs.«182234_g5308579578416_cont_8to1_c_894_2_alg».proof.Proof.Gen.KernelIdeal.Skeleton
import proofs.«182234_g5308579578416_cont_8to1_c_894_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first block": the body's one branch condition, from the grid coordinate. -/
abbrev cond3 (i : grid3.Coords) : Prop := (Scalar.cmpi .ne (Scalar.extui (Scalar.cmpi .eq (BitVec.ofNat 32 (i 0).val) 0#32)) 0#32) = 1#1
/-- It holds at point 0 only. -/
theorem hcond3 : ∀ t : Fin cfg3.N, cond3 (grid3.coords t) ↔ t.val % 25 = 0 :=
  (by decide +kernel : ∀ t : Fin grid3.N, cond3 (grid3.coords t) ↔ t.val % 25 = 0)

set_option maxHeartbeats 4000000 in
/-- The body at the first block: the output block and the scratch at anything beforehand. -/
noncomputable def kernelRun3_A (c : Dev nD) (i : grid3.Coords)
    (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) :
    Σ' (L6 : List (View.Piece (Elt F) S2000x64 .f32)), { LS : List (View.Piece (Elt F) S512x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS)) -∗ K ⟨⟩))
          ⊢ wp frame (wpE (defs₀ (F := F)) Variants.none c none) E (cc3__pass_out i arg1 harg1 arg2 harg2 arg3 harg3 arg4 harg4 arg5 harg5 arg6 harg6 arg7 harg7) K } := by
  refine ⟨?_, ?_, fun E K => ?run⟩
  case run =>
    simp only [cc3__pass_out_eq_skeleton]; unfold cc3__pass_out_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3
    obtain rfl := harg4.eq_unread hf4; obtain rfl := harg5.eq_unread hf5
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; iexact H7

set_option maxHeartbeats 4000000 in
/-- The body at a later block: the output block at anything, the scratch at what the first block left. -/
noncomputable def kernelRun3_B (c : Dev nD) (i : grid3.Coords)
    (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : ¬cond3 i)
    (x1 : Vec F S512x128 .f32) (x2 : Vec F S512x8 .f32) (x3 : Vec F S128x64 .f32) (x4 : Vec F S1x64 .f32) (x5 : Vec F S2000x512 .f32)
    (xs : Vec F S512x64 .f32) :
    { L6 : List (View.Piece (Elt F) S2000x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ owns (c : Thread nD τ) arg7 fullShare xs
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ owns (c : Thread nD τ) arg7 fullShare xs) -∗ K ⟨⟩))
          ⊢ wp frame (wpE (defs₀ (F := F)) Variants.none c none) E (cc3__pass_out i arg1 harg1 arg2 harg2 arg3 harg3 arg4 harg4 arg5 harg5 arg6 harg6 arg7 harg7) K } := by
  refine ⟨?_, fun E K => ?run⟩
  case run =>
    simp only [cc3__pass_out_eq_skeleton]; unfold cc3__pass_out_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hf7
    sl_exec (disch := exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Cert.KernelIdeal.Hand

end
-- ==== Proof.Reg3.lean ====
/-
  The output layer's pass over the adjacency as one region of the pipeline: what its output block and
  its scratch hold after each of the 25 row blocks, by recursion on the block (`outsAt3`: the first
  block computes the anchor-space weights into the scratch, every block stores its rows of the result
  whole, the scratch unchanged after the first), the region's invariant (the scratch named from the
  first block on), the proof data, and the body obligation at every block — all for any contents `V`
  of the buffers when the region is entered.
-/
import proofs.«182234_g5308579578416_cont_8to1_c_894_2_alg».proof.Proof.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The scoped rest of the output pass split at the pass's own scratch, whole at some contents; the
    remainder (every other scoped buffer) unopened. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop(iprop((∃ f : Buf Val ((c : Thread nD τ).loc cc3_scratch0), ((c : Thread nD τ).loc cc3_scratch0) ↦{fullShare} f))
          ∗ Pipeline.scopedRestBut (Ix := Ix) (Name := Name) (U := U) (Lvl := Lvl) (Val := Val) spec3 c [cc3_scratch0]) :=
  Pipeline.scopedRest_split_of_list spec3 c [cc3_scratch0] (by decide) (by decide)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point (fetched there or kept from the point before). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Views through which the output block's and the scratch's contents are stated. -/
abbrev VO3_5 : View sig .tc .vmem S2000x64 .f32 := (Memref.whole cc3_stg5_0 : Memref sig .tc .vmem S2000x64 .f32).view
abbrev ms3_0 (t : Fin cfg3.N) : Memref sig .tc .vmem S512x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x8 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S2000x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2000x64 .f32 := win3_5.stage (cfg3.slots t 5)
abbrev hs3_5 (t : Fin cfg3.N) : (ms3_5 t).IsWhole := hstage3_5 ((cfg3.slots t 5).cast nbuf3_5)
abbrev scM3 : Memref sig .tc .vmem S512x64 .f32 := Memref.whole cc3_scratch0
abbrev VS3 : View sig .tc .vmem S512x64 .f32 := scM3.view

/-- The region's entry invariant with the pass's scratch split off. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Region3

/-! ## What each case leaves -/

theorem cover3_A_6 (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) (y : S2000x64.Idx) :
    ∃ pc ∈ (kernelRun3_A c i arg1 harg1 arg2 harg2 arg3 harg3 arg4 harg4 arg5 harg5 arg6 harg6 arg7 harg7 hc0 x1 x2 x3 x4 x5).1, y ∈ pc.1.set :=
  View.cover_of_tiledL (kernelRun3_A c i arg1 harg1 arg2 harg2 arg3 harg3 arg4 harg4 arg5 harg5 arg6 harg6 arg7 harg7 hc0 x1 x2 x3 x4 x5).1 S2000x64.size (by sl_kernel_rfl) y
theorem scover3_A (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) (y : S512x64.Idx) :
    ∃ pc ∈ (kernelRun3_A c i arg1 harg1 arg2 harg2 arg3 harg3 arg4 harg4 arg5 harg5 arg6 harg6 arg7 harg7 hc0 x1 x2 x3 x4 x5).2.1, y ∈ pc.1.set :=
  View.cover_of_tiledL (kernelRun3_A c i arg1 harg1 arg2 harg2 arg3 harg3 arg4 harg4 arg5 harg5 arg6 harg6 arg7 harg7 hc0 x1 x2 x3 x4 x5).2.1 S512x64.size (by sl_kernel_rfl) y
theorem cover3_B_6 (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : ¬cond3 i)
    (x1 : Vec F S512x128 .f32) (x2 : Vec F S512x8 .f32) (x3 : Vec F S128x64 .f32) (x4 : Vec F S1x64 .f32) (x5 : Vec F S2000x512 .f32) (xs : Vec F S512x64 .f32) (y : S2000x64.Idx) :
    ∃ pc ∈ (kernelRun3_B c i arg1 harg1 arg2 harg2 arg3 harg3 arg4 harg4 arg5 harg5 arg6 harg6 arg7 harg7 hc0 x1 x2 x3 x4 x5 xs).1, y ∈ pc.1.set :=
  View.cover_of_tiledL (kernelRun3_B c i arg1 harg1 arg2 harg2 arg3 harg3 arg4 harg4 arg5 harg5 arg6 harg6 arg7 harg7 hc0 x1 x2 x3 x4 x5 xs).1 S2000x64.size (by sl_kernel_rfl) y

/-- What the first block leaves in the output block and the scratch. -/
def out3_A (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) :
    Vec F S2000x64 .f32 × Vec F S512x64 .f32 :=
  (VO3_5.read (Elt F) (VO3_5.writes (Elt F) VO3_5.junk (kernelRun3_A c i arg1 harg1 arg2 harg2 arg3 harg3 arg4 harg4 arg5 harg5 arg6 harg6 arg7 harg7 hc0 x1 x2 x3 x4 x5).1),
   VS3.read (Elt F) (VS3.writes (Elt F) VS3.junk (kernelRun3_A c i arg1 harg1 arg2 harg2 arg3 harg3 arg4 harg4 arg5 harg5 arg6 harg6 arg7 harg7 hc0 x1 x2 x3 x4 x5).2.1))

/-- What a later block leaves in them, over the scratch the first block left (the scratch is not written). -/
def out3_B (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : ¬cond3 i)
    (x1 : Vec F S512x128 .f32) (x2 : Vec F S512x8 .f32) (x3 : Vec F S128x64 .f32) (x4 : Vec F S1x64 .f32) (x5 : Vec F S2000x512 .f32) (p : Vec F S2000x64 .f32 × Vec F S512x64 .f32) :
    Vec F S2000x64 .f32 × Vec F S512x64 .f32 :=
  (VO3_5.read (Elt F) (VO3_5.writes (Elt F) VO3_5.junk (kernelRun3_B c i arg1 harg1 arg2 harg2 arg3 harg3 arg4 harg4 arg5 harg5 arg6 harg6 arg7 harg7 hc0 x1 x2 x3 x4 x5 p.2).1),
   p.2)

section Region3

variable (V : (c : Dev nD) → (b : Ref sig .tc) → Buf (Elt F) ((c : Thread nD τ).loc b))

theorem not_cond3_succ (n : ℕ) (hn : n + 1 < cfg3.N) : ¬cond3 (grid3.coords ⟨n + 1, hn⟩) := fun h => by
  have h1 := (hcond3 ⟨n + 1, hn⟩).mp h
  have hN : n + 1 < 25 := lt_of_lt_of_eq hn (show cfg3.N = 25 from N_3)
  dsimp only at h1; omega

/-- THE BLOCKS: the output block and the scratch after the body at block `n`. -/
def outsAt3 (c : Dev nD) : (n : ℕ) → n < cfg3.N → Vec F S2000x64 .f32 × Vec F S512x64 .f32
  | 0, hn => out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3 (Memref.isWhole_whole _)
      ((hcond3 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩)
  | n + 1, hn => out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3 (Memref.isWhole_whole _)
      (not_cond3_succ n hn) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn))

theorem not_cond3_pos (t : Fin cfg3.N) (h0 : t.val ≠ 0) : ¬cond3 (grid3.coords t) := fun h => by
  have h1 := (hcond3 t).mp h
  have hN : t.val < 25 := lt_of_lt_of_eq t.isLt (show cfg3.N = 25 from N_3)
  omega

theorem outsAt3_A (c : Dev nD) (t : Fin cfg3.N) (h0 : t.val = 0) :
    outsAt3 V c t.val t.isLt = out3_A c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _)
      ((hcond3 t).mpr (by rw [h0])) (iblk3 V c 0 t) (iblk3 V c 1 t) (iblk3 V c 2 t) (iblk3 V c 3 t) (iblk3 V c 4 t) := by
  obtain ⟨n, hn⟩ := t
  cases n with
  | zero => exact rfl
  | succ n => exact absurd h0 (Nat.succ_ne_zero n)

theorem outsAt3_B (c : Dev nD) (t : Fin cfg3.N) (h0 : t.val ≠ 0) :
    outsAt3 V c t.val t.isLt = out3_B c (grid3.coords t) (ms3_0 t) (hs3_0 t) (ms3_1 t) (hs3_1 t) (ms3_2 t) (hs3_2 t) (ms3_3 t) (hs3_3 t) (ms3_4 t) (hs3_4 t) (ms3_5 t) (hs3_5 t) scM3 (Memref.isWhole_whole _)
      (not_cond3_pos t h0) (iblk3 V c 0 t) (iblk3 V c 1 t) (iblk3 V c 2 t) (iblk3 V c 3 t) (iblk3 V c 4 t) (outsAt3 V c (t.val - 1) (Nat.lt_of_le_of_lt (Nat.sub_le _ _) t.isLt)) := by
  obtain ⟨n, hn⟩ := t
  cases n with
  | zero => exact absurd rfl h0
  | succ n => exact rfl

/-- The region's invariant before block `n`: at entry the class's; afterwards the scratch at what the block before left,
    the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(owns (c : Thread nD τ) scM3 fullShare ((outsAt3 V c n hn).2)
      ∗ Pipeline.scopedRestBut (Ix := Unit) (Name := ℕ) (U := UR sig nD τ) (Lvl := ℕ) (Val := Elt F) spec3 c [cc3_scratch0]) ∗ (∃ r, prngReg c r)) := rfl
theorem PhiS3_pos (c : Dev nD) (n : ℕ) (h : n ≤ cfg3.N) (hz : n ≠ 0) :
    PhiS3 V c n h = iprop(iprop(owns (c : Thread nD τ) scM3 fullShare ((outsAt3 V c (n - 1) (by omega)).2)
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of the output pass on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 4000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  rw [after3_0, after3_1, after3_2, after3_3, after3_4, after3_5]
  by_cases hz : t.val = 0
  · rw [outsAt3_A V c t hz]
    unfold out3_A; dsimp only
    rw [PhiS3_castSucc V c t, PhiS3_zero V c _ _ hz, PhiA3_eq]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ _ _ ((hcond3 t).mpr (by rw [hz])) (iblk3 V c 0 t) (iblk3 V c 1 t) (iblk3 V c 2 t) (iblk3 V c 3 t) (iblk3 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover3_A c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover3_A_6 c _ _ _ _ _ _ _ _ _ _ _ _ _ _ _ _ _ _ _ _ _)
  · rw [outsAt3_B V c t hz]
    unfold out3_B; dsimp only
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩⟩
    iapply ((kernelRun3_B c (grid3.coords t) _ _ _ _ _ _ _ _ _ _ _ _ _ _ (not_cond3_pos t hz) (iblk3 V c 0 t) (iblk3 V c 1 t) (iblk3 V c 2 t) (iblk3 V c 3 t) (iblk3 V c 4 t) _).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover3_B_6 c _ _ _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

/-- What the region is handed is the invariant before the first block. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last block the invariant gives the class's back: the scratch's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 25 := N_3; omega), PhiA3_eq]
  iintro ⟨⟨HS, Hrest⟩, Hg⟩
  isplitl [HS Hrest]
  · isplitl [HS]; · iexists _; iexact HS
    iexact Hrest
  iexact Hg

end Region3

end Cert.KernelIdeal.Hand

end
-- ==== Proof.Run.lean ====
/-
  The whole kernel program as a run: the four passes over the adjacency, each a region of the pipeline,
  with the three one-line host stretches between them (a bias reshaped to a row). The contents of every
  unscoped buffer at each boundary are a fold from the launch memory: a host stretch applies its operation,
  a region leaves each of its arrays at what its write-backs make of it and every other buffer as entered.
  Every weakly fair execution from the launch memory terminates, and at the end every unscoped buffer holds
  the last fold (`run_main`); the eight argument arrays come back as launched, since no stretch writes one
  and every region only reads them.
-/
import proofs.«182234_g5308579578416_cont_8to1_c_894_2_alg».proof.Proof.Reg0
import proofs.«182234_g5308579578416_cont_8to1_c_894_2_alg».proof.Proof.Reg1
import proofs.«182234_g5308579578416_cont_8to1_c_894_2_alg».proof.Proof.Reg2
import proofs.«182234_g5308579578416_cont_8to1_c_894_2_alg».proof.Proof.Reg3
import proofs.«182234_g5308579578416_cont_8to1_c_894_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0 : (c : Dev nD) → (b : Ref sig .tc) → Buf (Elt F) ((c : Thread nD τ).loc b) := fun c b => W0 m c b

/-- After region 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host stretch `hostOps1` (a bias reshaped to a row). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
theorem W2_of (c : Dev nD) (r : Ref sig .tc) (h : r ∉ hostOps1_W) : W2 m c (Proc.devRef .tc r) = W1 m c (Proc.devRef .tc r) :=
  StableHlo.after_of_writes_sub hostOps1 _ hostOps1_writes h

/-- After region 1: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After the host stretch `hostOps2` (a bias reshaped to a row). -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
theorem W4_of (c : Dev nD) (r : Ref sig .tc) (h : r ∉ hostOps2_W) : W4 m c (Proc.devRef .tc r) = W3 m c (Proc.devRef .tc r) :=
  StableHlo.after_of_writes_sub hostOps2 _ hostOps2_writes h

/-- After region 2: its arrays at what the pipeline leaves, every other buffer as entered. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the host stretch `hostOps3` (a bias reshaped to a row). -/
abbrev W6 : Dev nD → Valuation τ sig (Elt F) := fun c => StableHlo.after hostOps3 (W5 m c)
abbrev V6 : (c : Dev nD) → (b : Ref sig .tc) → Buf (Elt F) ((c : Thread nD τ).loc b) := fun c b => W6 m c b
theorem W6_of (c : Dev nD) (r : Ref sig .tc) (h : r ∉ hostOps3_W) : W6 m c (Proc.devRef .tc r) = W5 m c (Proc.devRef .tc r) :=
  StableHlo.after_of_writes_sub hostOps3 _ hostOps3_writes h

/-- After region 3: its arrays at what the pipeline leaves, every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-! ## The arguments end as launched -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := W6_of m c main_arg0 (by decide)
    _ = W4 m c (Proc.devRef .tc main_arg0) := W5_of_ne m c main_arg0 (by decide)
    _ = W3 m c (Proc.devRef .tc main_arg0) := W4_of m c main_arg0 (by decide)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 1).trans (((dat0 (V0 m) c).arrAt_in 1 rfl _).trans (A_eq0 (V0 m) c 1))
    _ = m ((c : Thread nD τ).loc main_arg0) := rfl
theorem W7_main_arg1 (c : Dev nD) : W7 m c (Proc.devRef .tc main_arg1) = m ((c : Thread nD τ).loc main_arg1) :=
  calc W7 m c (Proc.devRef .tc main_arg1)
    _ = W6 m c (Proc.devRef .tc main_arg1) := (W7_arr m c 4).trans (((dat3 (V6 m) c).arrAt_in 4 rfl _).trans (A_eq3 (V6 m) c 4))
    _ = W5 m c (Proc.devRef .tc main_arg1) := W6_of m c main_arg1 (by decide)
    _ = W4 m c (Proc.devRef .tc main_arg1) := (W5_arr m c 4).trans (((dat2 (V4 m) c).arrAt_in 4 rfl _).trans (A_eq2 (V4 m) c 4))
    _ = W3 m c (Proc.devRef .tc main_arg1) := W4_of m c main_arg1 (by decide)
    _ = W2 m c (Proc.devRef .tc main_arg1) := (W3_arr m c 4).trans (((dat1 (V2 m) c).arrAt_in 4 rfl _).trans (A_eq1 (V2 m) c 4))
    _ = W1 m c (Proc.devRef .tc main_arg1) := W2_of m c main_arg1 (by decide)
    _ = W0 m c (Proc.devRef .tc main_arg1) := (W1_arr m c 0).trans (((dat0 (V0 m) c).arrAt_in 0 rfl _).trans (A_eq0 (V0 m) c 0))
    _ = m ((c : Thread nD τ).loc main_arg1) := rfl
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := W6_of m c main_arg2 (by decide)
    _ = W4 m c (Proc.devRef .tc main_arg2) := W5_of_ne m c main_arg2 (by decide)
    _ = W3 m c (Proc.devRef .tc main_arg2) := W4_of m c main_arg2 (by decide)
    _ = W2 m c (Proc.devRef .tc main_arg2) := (W3_arr m c 2).trans (((dat1 (V2 m) c).arrAt_in 2 rfl _).trans (A_eq1 (V2 m) c 2))
    _ = W1 m c (Proc.devRef .tc main_arg2) := W2_of m c main_arg2 (by decide)
    _ = W0 m c (Proc.devRef .tc main_arg2) := W1_of_ne m c main_arg2 (by decide)
    _ = m ((c : Thread nD τ).loc main_arg2) := rfl
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W5 m c (Proc.devRef .tc main_arg3) := W6_of m c main_arg3 (by decide)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide)
    _ = W1 m c (Proc.devRef .tc main_arg3) := W2_of m c main_arg3 (by decide)
    _ = W0 m c (Proc.devRef .tc main_arg3) := W1_of_ne m c main_arg3 (by decide)
    _ = m ((c : Thread nD τ).loc main_arg3) := rfl
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W5 m c (Proc.devRef .tc main_arg4) := W6_of m c main_arg4 (by decide)
    _ = W4 m c (Proc.devRef .tc main_arg4) := (W5_arr m c 2).trans (((dat2 (V4 m) c).arrAt_in 2 rfl _).trans (A_eq2 (V4 m) c 2))
    _ = W3 m c (Proc.devRef .tc main_arg4) := W4_of m c main_arg4 (by decide)
    _ = W2 m c (Proc.devRef .tc main_arg4) := W3_of_ne m c main_arg4 (by decide)
    _ = W1 m c (Proc.devRef .tc main_arg4) := W2_of m c main_arg4 (by decide)
    _ = W0 m c (Proc.devRef .tc main_arg4) := W1_of_ne m c main_arg4 (by decide)
    _ = m ((c : Thread nD τ).loc main_arg4) := rfl
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = W5 m c (Proc.devRef .tc main_arg5) := W6_of m c main_arg5 (by decide)
    _ = W4 m c (Proc.devRef .tc main_arg5) := W5_of_ne m c main_arg5 (by decide)
    _ = W3 m c (Proc.devRef .tc main_arg5) := W4_of m c main_arg5 (by decide)
    _ = W2 m c (Proc.devRef .tc main_arg5) := W3_of_ne m c main_arg5 (by decide)
    _ = W1 m c (Proc.devRef .tc main_arg5) := W2_of m c main_arg5 (by decide)
    _ = W0 m c (Proc.devRef .tc main_arg5) := W1_of_ne m c main_arg5 (by decide)
    _ = m ((c : Thread nD τ).loc main_arg5) := rfl
theorem W7_main_arg6 (c : Dev nD) : W7 m c (Proc.devRef .tc main_arg6) = m ((c : Thread nD τ).loc main_arg6) :=
  calc W7 m c (Proc.devRef .tc main_arg6)
    _ = W6 m c (Proc.devRef .tc main_arg6) := (W7_arr m c 2).trans (((dat3 (V6 m) c).arrAt_in 2 rfl _).trans (A_eq3 (V6 m) c 2))
    _ = W5 m c (Proc.devRef .tc main_arg6) := W6_of m c main_arg6 (by decide)
    _ = W4 m c (Proc.devRef .tc main_arg6) := W5_of_ne m c main_arg6 (by decide)
    _ = W3 m c (Proc.devRef .tc main_arg6) := W4_of m c main_arg6 (by decide)
    _ = W2 m c (Proc.devRef .tc main_arg6) := W3_of_ne m c main_arg6 (by decide)
    _ = W1 m c (Proc.devRef .tc main_arg6) := W2_of m c main_arg6 (by decide)
    _ = W0 m c (Proc.devRef .tc main_arg6) := W1_of_ne m c main_arg6 (by decide)
    _ = m ((c : Thread nD τ).loc main_arg6) := rfl
theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of_ne m c main_arg7 (by decide)
    _ = W5 m c (Proc.devRef .tc main_arg7) := W6_of m c main_arg7 (by decide)
    _ = W4 m c (Proc.devRef .tc main_arg7) := W5_of_ne m c main_arg7 (by decide)
    _ = W3 m c (Proc.devRef .tc main_arg7) := W4_of m c main_arg7 (by decide)
    _ = W2 m c (Proc.devRef .tc main_arg7) := W3_of_ne m c main_arg7 (by decide)
    _ = W1 m c (Proc.devRef .tc main_arg7) := W2_of m c main_arg7 (by decide)
    _ = W0 m c (Proc.devRef .tc main_arg7) := W1_of_ne m c main_arg7 (by decide)
    _ = m ((c : Thread nD τ).loc main_arg7) := rfl

/-! ## The proof data family and the thread state -/

/-- No pallas_call here has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V4 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m c) ∗ ∃ r, prngReg c r)

/-! ## The regions as segments -/

-- a library lemma stated over the pinned configuration unifies with the printed one only when unification may
-- unfold plain definitions in a metavariable's type
set_option backward.isDefEq.respectTransparency.types false in
/-- Region 0 over the thread state: entered from every unscoped buffer at `W0`, left at `W1`. Its arrays are split
    out of the unscoped buffers and put back at the exit contents; the generator register and the scoped rest go into
    the region's invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    have h := hin0 (V0 m) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (V0 m) c).Φ (Fin.last cfg0.N) from rfl]
    have h := hout0 (V0 m) c
    unfold Pipeline.ΦA at h
    iintro Hphi
    ihave Hout := h $$ [Hphi]
    · iexact Hphi
    icases Hout with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered from every unscoped buffer at `W2`, left at `W3`. Its arrays are split
    out of the unscoped buffers and put back at the exit contents; the generator register and the scoped rest go into
    the region's invariant and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    have h := hin1 (V2 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V2 m) c).Φ (Fin.last cfg1.N) from rfl]
    have h := hout1 (V2 m) c
    unfold Pipeline.ΦA at h
    iintro Hphi
    ihave Hout := h $$ [Hphi]
    · iexact Hphi
    icases Hout with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered from every unscoped buffer at `W4`, left at `W5`. Its arrays are split
    out of the unscoped buffers and put back at the exit contents; the generator register and the scoped rest go into
    the region's invariant and come back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V4 m) c).Φ 0 from rfl]
    have h := hin2 (V4 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (V4 m) c).Φ (Fin.last cfg2.N) from rfl]
    have h := hout2 (V4 m) c
    unfold Pipeline.ΦA at h
    iintro Hphi
    ihave Hout := h $$ [Hphi]
    · iexact Hphi
    icases Hout with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 3 over the thread state: entered from every unscoped buffer at `W6`, left at `W7`. Its arrays are split
    out of the unscoped buffers and put back at the exit contents; the generator register and the scoped rest go into
    the region's invariant and come back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V6 m) c).Φ 0 from rfl]
    have h := hin3 (V6 m) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (V6 m) c).Φ (Fin.last cfg3.N) from rfl]
    have h := hout3 (V6 m) c
    unfold Pipeline.ΦA at h
    iintro Hphi
    ihave Hout := h $$ [Hphi]
    · iexact Hphi
    icases Hout with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .region (reg2 m),
    .host (hseg hostOps3 hostOps3_sub hostOps3_fresh (W5 m)),
    .region (reg3 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state has every unscoped buffer at the last fold `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: the eight argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (W7_main_arg0 m c), (h c _ (mem_uc main_arg1 (by decide))).trans (W7_main_arg1 m c),
     (h c _ (mem_uc main_arg2 (by decide))).trans (W7_main_arg2 m c), (h c _ (mem_uc main_arg3 (by decide))).trans (W7_main_arg3 m c),
     (h c _ (mem_uc main_arg4 (by decide))).trans (W7_main_arg4 m c), (h c _ (mem_uc main_arg5 (by decide))).trans (W7_main_arg5 m c),
     (h c _ (mem_uc main_arg6 (by decide))).trans (W7_main_arg6 m c), (h c _ (mem_uc main_arg7 (by decide))).trans (W7_main_arg7 m c)⟩) (run_main m ρ)

end Cert.KernelIdeal.Hand

end
-- ==== Proof.Track.lean ====
/-
  Which buffers each step of the program leaves alone: a region leaves every buffer that is not one of its
  output arrays as it found it (an input array is only read), a host stretch every buffer but the one it writes.
-/
import proofs.«182234_g5308579578416_cont_8to1_c_894_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_keep_arg0 (c : Dev nD) : W1 m c (Proc.devRef .tc main_arg0) = W0 m c (Proc.devRef .tc main_arg0) :=
  (W1_arr m c 1).trans (((dat0 (V0 m) c).arrAt_in 1 rfl _).trans (A_eq0 (V0 m) c 1))
theorem W1_keep_arg1 (c : Dev nD) : W1 m c (Proc.devRef .tc main_arg1) = W0 m c (Proc.devRef .tc main_arg1) :=
  (W1_arr m c 0).trans (((dat0 (V0 m) c).arrAt_in 0 rfl _).trans (A_eq0 (V0 m) c 0))
theorem W1_keep_arg2 (c : Dev nD) : W1 m c (Proc.devRef .tc main_arg2) = W0 m c (Proc.devRef .tc main_arg2) :=
  W1_of_ne m c main_arg2 (by decide)
theorem W1_keep_arg3 (c : Dev nD) : W1 m c (Proc.devRef .tc main_arg3) = W0 m c (Proc.devRef .tc main_arg3) :=
  W1_of_ne m c main_arg3 (by decide)
theorem W1_keep_arg4 (c : Dev nD) : W1 m c (Proc.devRef .tc main_arg4) = W0 m c (Proc.devRef .tc main_arg4) :=
  W1_of_ne m c main_arg4 (by decide)
theorem W1_keep_arg5 (c : Dev nD) : W1 m c (Proc.devRef .tc main_arg5) = W0 m c (Proc.devRef .tc main_arg5) :=
  W1_of_ne m c main_arg5 (by decide)
theorem W1_keep_arg6 (c : Dev nD) : W1 m c (Proc.devRef .tc main_arg6) = W0 m c (Proc.devRef .tc main_arg6) :=
  W1_of_ne m c main_arg6 (by decide)
theorem W1_keep_arg7 (c : Dev nD) : W1 m c (Proc.devRef .tc main_arg7) = W0 m c (Proc.devRef .tc main_arg7) :=
  W1_of_ne m c main_arg7 (by decide)
theorem W1_keep_v1 (c : Dev nD) : W1 m c (Proc.devRef .tc main_call0_v1) = W0 m c (Proc.devRef .tc main_call0_v1) :=
  W1_of_ne m c main_call0_v1 (by decide)
theorem W1_keep_v2 (c : Dev nD) : W1 m c (Proc.devRef .tc main_call0_v2) = W0 m c (Proc.devRef .tc main_call0_v2) :=
  W1_of_ne m c main_call0_v2 (by decide)
theorem W1_keep_v3 (c : Dev nD) : W1 m c (Proc.devRef .tc main_call0_v3) = W0 m c (Proc.devRef .tc main_call0_v3) :=
  W1_of_ne m c main_call0_v3 (by decide)
theorem W1_keep_v4 (c : Dev nD) : W1 m c (Proc.devRef .tc main_call0_v4) = W0 m c (Proc.devRef .tc main_call0_v4) :=
  W1_of_ne m c main_call0_v4 (by decide)
theorem W1_keep_v5 (c : Dev nD) : W1 m c (Proc.devRef .tc main_call0_v5) = W0 m c (Proc.devRef .tc main_call0_v5) :=
  W1_of_ne m c main_call0_v5 (by decide)
theorem W1_keep_v0 (c : Dev nD) : W1 m c (Proc.devRef .tc main_v0) = W0 m c (Proc.devRef .tc main_v0) :=
  W1_of_ne m c main_v0 (by decide)
theorem W2_keep_arg0 (c : Dev nD) : W2 m c (Proc.devRef .tc main_arg0) = W1 m c (Proc.devRef .tc main_arg0) :=
  W2_of m c main_arg0 (by decide)
theorem W2_keep_arg1 (c : Dev nD) : W2 m c (Proc.devRef .tc main_arg1) = W1 m c (Proc.devRef .tc main_arg1) :=
  W2_of m c main_arg1 (by decide)
theorem W2_keep_arg2 (c : Dev nD) : W2 m c (Proc.devRef .tc main_arg2) = W1 m c (Proc.devRef .tc main_arg2) :=
  W2_of m c main_arg2 (by decide)
theorem W2_keep_arg3 (c : Dev nD) : W2 m c (Proc.devRef .tc main_arg3) = W1 m c (Proc.devRef .tc main_arg3) :=
  W2_of m c main_arg3 (by decide)
theorem W2_keep_arg4 (c : Dev nD) : W2 m c (Proc.devRef .tc main_arg4) = W1 m c (Proc.devRef .tc main_arg4) :=
  W2_of m c main_arg4 (by decide)
theorem W2_keep_arg5 (c : Dev nD) : W2 m c (Proc.devRef .tc main_arg5) = W1 m c (Proc.devRef .tc main_arg5) :=
  W2_of m c main_arg5 (by decide)
theorem W2_keep_arg6 (c : Dev nD) : W2 m c (Proc.devRef .tc main_arg6) = W1 m c (Proc.devRef .tc main_arg6) :=
  W2_of m c main_arg6 (by decide)
theorem W2_keep_arg7 (c : Dev nD) : W2 m c (Proc.devRef .tc main_arg7) = W1 m c (Proc.devRef .tc main_arg7) :=
  W2_of m c main_arg7 (by decide)
theorem W2_keep_v0_0 (c : Dev nD) : W2 m c (Proc.devRef .tc main_call0_v0_0) = W1 m c (Proc.devRef .tc main_call0_v0_0) :=
  W2_of m c main_call0_v0_0 (by decide)
theorem W2_keep_v0_1 (c : Dev nD) : W2 m c (Proc.devRef .tc main_call0_v0_1) = W1 m c (Proc.devRef .tc main_call0_v0_1) :=
  W2_of m c main_call0_v0_1 (by decide)
theorem W2_keep_v2 (c : Dev nD) : W2 m c (Proc.devRef .tc main_call0_v2) = W1 m c (Proc.devRef .tc main_call0_v2) :=
  W2_of m c main_call0_v2 (by decide)
theorem W2_keep_v3 (c : Dev nD) : W2 m c (Proc.devRef .tc main_call0_v3) = W1 m c (Proc.devRef .tc main_call0_v3) :=
  W2_of m c main_call0_v3 (by decide)
theorem W2_keep_v4 (c : Dev nD) : W2 m c (Proc.devRef .tc main_call0_v4) = W1 m c (Proc.devRef .tc main_call0_v4) :=
  W2_of m c main_call0_v4 (by decide)
theorem W2_keep_v5 (c : Dev nD) : W2 m c (Proc.devRef .tc main_call0_v5) = W1 m c (Proc.devRef .tc main_call0_v5) :=
  W2_of m c main_call0_v5 (by decide)
theorem W2_keep_v0 (c : Dev nD) : W2 m c (Proc.devRef .tc main_v0) = W1 m c (Proc.devRef .tc main_v0) :=
  W2_of m c main_v0 (by decide)
theorem W3_keep_arg0 (c : Dev nD) : W3 m c (Proc.devRef .tc main_arg0) = W2 m c (Proc.devRef .tc main_arg0) :=
  W3_of_ne m c main_arg0 (by decide)
theorem W3_keep_arg1 (c : Dev nD) : W3 m c (Proc.devRef .tc main_arg1) = W2 m c (Proc.devRef .tc main_arg1) :=
  (W3_arr m c 4).trans (((dat1 (V2 m) c).arrAt_in 4 rfl _).trans (A_eq1 (V2 m) c 4))
theorem W3_keep_arg2 (c : Dev nD) : W3 m c (Proc.devRef .tc main_arg2) = W2 m c (Proc.devRef .tc main_arg2) :=
  (W3_arr m c 2).trans (((dat1 (V2 m) c).arrAt_in 2 rfl _).trans (A_eq1 (V2 m) c 2))
theorem W3_keep_arg3 (c : Dev nD) : W3 m c (Proc.devRef .tc main_arg3) = W2 m c (Proc.devRef .tc main_arg3) :=
  W3_of_ne m c main_arg3 (by decide)
theorem W3_keep_arg4 (c : Dev nD) : W3 m c (Proc.devRef .tc main_arg4) = W2 m c (Proc.devRef .tc main_arg4) :=
  W3_of_ne m c main_arg4 (by decide)
theorem W3_keep_arg5 (c : Dev nD) : W3 m c (Proc.devRef .tc main_arg5) = W2 m c (Proc.devRef .tc main_arg5) :=
  W3_of_ne m c main_arg5 (by decide)
theorem W3_keep_arg6 (c : Dev nD) : W3 m c (Proc.devRef .tc main_arg6) = W2 m c (Proc.devRef .tc main_arg6) :=
  W3_of_ne m c main_arg6 (by decide)
theorem W3_keep_arg7 (c : Dev nD) : W3 m c (Proc.devRef .tc main_arg7) = W2 m c (Proc.devRef .tc main_arg7) :=
  W3_of_ne m c main_arg7 (by decide)
theorem W3_keep_v0_0 (c : Dev nD) : W3 m c (Proc.devRef .tc main_call0_v0_0) = W2 m c (Proc.devRef .tc main_call0_v0_0) :=
  (W3_arr m c 0).trans (((dat1 (V2 m) c).arrAt_in 0 rfl _).trans (A_eq1 (V2 m) c 0))
theorem W3_keep_v0_1 (c : Dev nD) : W3 m c (Proc.devRef .tc main_call0_v0_1) = W2 m c (Proc.devRef .tc main_call0_v0_1) :=
  (W3_arr m c 1).trans (((dat1 (V2 m) c).arrAt_in 1 rfl _).trans (A_eq1 (V2 m) c 1))
theorem W3_keep_v1 (c : Dev nD) : W3 m c (Proc.devRef .tc main_call0_v1) = W2 m c (Proc.devRef .tc main_call0_v1) :=
  (W3_arr m c 3).trans (((dat1 (V2 m) c).arrAt_in 3 rfl _).trans (A_eq1 (V2 m) c 3))
theorem W3_keep_v3 (c : Dev nD) : W3 m c (Proc.devRef .tc main_call0_v3) = W2 m c (Proc.devRef .tc main_call0_v3) :=
  W3_of_ne m c main_call0_v3 (by decide)
theorem W3_keep_v4 (c : Dev nD) : W3 m c (Proc.devRef .tc main_call0_v4) = W2 m c (Proc.devRef .tc main_call0_v4) :=
  W3_of_ne m c main_call0_v4 (by decide)
theorem W3_keep_v5 (c : Dev nD) : W3 m c (Proc.devRef .tc main_call0_v5) = W2 m c (Proc.devRef .tc main_call0_v5) :=
  W3_of_ne m c main_call0_v5 (by decide)
theorem W3_keep_v0 (c : Dev nD) : W3 m c (Proc.devRef .tc main_v0) = W2 m c (Proc.devRef .tc main_v0) :=
  W3_of_ne m c main_v0 (by decide)
theorem W4_keep_arg0 (c : Dev nD) : W4 m c (Proc.devRef .tc main_arg0) = W3 m c (Proc.devRef .tc main_arg0) :=
  W4_of m c main_arg0 (by decide)
theorem W4_keep_arg1 (c : Dev nD) : W4 m c (Proc.devRef .tc main_arg1) = W3 m c (Proc.devRef .tc main_arg1) :=
  W4_of m c main_arg1 (by decide)
theorem W4_keep_arg2 (c : Dev nD) : W4 m c (Proc.devRef .tc main_arg2) = W3 m c (Proc.devRef .tc main_arg2) :=
  W4_of m c main_arg2 (by decide)
theorem W4_keep_arg3 (c : Dev nD) : W4 m c (Proc.devRef .tc main_arg3) = W3 m c (Proc.devRef .tc main_arg3) :=
  W4_of m c main_arg3 (by decide)
theorem W4_keep_arg4 (c : Dev nD) : W4 m c (Proc.devRef .tc main_arg4) = W3 m c (Proc.devRef .tc main_arg4) :=
  W4_of m c main_arg4 (by decide)
theorem W4_keep_arg5 (c : Dev nD) : W4 m c (Proc.devRef .tc main_arg5) = W3 m c (Proc.devRef .tc main_arg5) :=
  W4_of m c main_arg5 (by decide)
theorem W4_keep_arg6 (c : Dev nD) : W4 m c (Proc.devRef .tc main_arg6) = W3 m c (Proc.devRef .tc main_arg6) :=
  W4_of m c main_arg6 (by decide)
theorem W4_keep_arg7 (c : Dev nD) : W4 m c (Proc.devRef .tc main_arg7) = W3 m c (Proc.devRef .tc main_arg7) :=
  W4_of m c main_arg7 (by decide)
theorem W4_keep_v0_0 (c : Dev nD) : W4 m c (Proc.devRef .tc main_call0_v0_0) = W3 m c (Proc.devRef .tc main_call0_v0_0) :=
  W4_of m c main_call0_v0_0 (by decide)
theorem W4_keep_v0_1 (c : Dev nD) : W4 m c (Proc.devRef .tc main_call0_v0_1) = W3 m c (Proc.devRef .tc main_call0_v0_1) :=
  W4_of m c main_call0_v0_1 (by decide)
theorem W4_keep_v1 (c : Dev nD) : W4 m c (Proc.devRef .tc main_call0_v1) = W3 m c (Proc.devRef .tc main_call0_v1) :=
  W4_of m c main_call0_v1 (by decide)
theorem W4_keep_v2 (c : Dev nD) : W4 m c (Proc.devRef .tc main_call0_v2) = W3 m c (Proc.devRef .tc main_call0_v2) :=
  W4_of m c main_call0_v2 (by decide)
theorem W4_keep_v4 (c : Dev nD) : W4 m c (Proc.devRef .tc main_call0_v4) = W3 m c (Proc.devRef .tc main_call0_v4) :=
  W4_of m c main_call0_v4 (by decide)
theorem W4_keep_v5 (c : Dev nD) : W4 m c (Proc.devRef .tc main_call0_v5) = W3 m c (Proc.devRef .tc main_call0_v5) :=
  W4_of m c main_call0_v5 (by decide)
theorem W4_keep_v0 (c : Dev nD) : W4 m c (Proc.devRef .tc main_v0) = W3 m c (Proc.devRef .tc main_v0) :=
  W4_of m c main_v0 (by decide)
theorem W5_keep_arg0 (c : Dev nD) : W5 m c (Proc.devRef .tc main_arg0) = W4 m c (Proc.devRef .tc main_arg0) :=
  W5_of_ne m c main_arg0 (by decide)
theorem W5_keep_arg1 (c : Dev nD) : W5 m c (Proc.devRef .tc main_arg1) = W4 m c (Proc.devRef .tc main_arg1) :=
  (W5_arr m c 4).trans (((dat2 (V4 m) c).arrAt_in 4 rfl _).trans (A_eq2 (V4 m) c 4))
theorem W5_keep_arg2 (c : Dev nD) : W5 m c (Proc.devRef .tc main_arg2) = W4 m c (Proc.devRef .tc main_arg2) :=
  W5_of_ne m c main_arg2 (by decide)
theorem W5_keep_arg3 (c : Dev nD) : W5 m c (Proc.devRef .tc main_arg3) = W4 m c (Proc.devRef .tc main_arg3) :=
  W5_of_ne m c main_arg3 (by decide)
theorem W5_keep_arg4 (c : Dev nD) : W5 m c (Proc.devRef .tc main_arg4) = W4 m c (Proc.devRef .tc main_arg4) :=
  (W5_arr m c 2).trans (((dat2 (V4 m) c).arrAt_in 2 rfl _).trans (A_eq2 (V4 m) c 2))
theorem W5_keep_arg5 (c : Dev nD) : W5 m c (Proc.devRef .tc main_arg5) = W4 m c (Proc.devRef .tc main_arg5) :=
  W5_of_ne m c main_arg5 (by decide)
theorem W5_keep_arg6 (c : Dev nD) : W5 m c (Proc.devRef .tc main_arg6) = W4 m c (Proc.devRef .tc main_arg6) :=
  W5_of_ne m c main_arg6 (by decide)
theorem W5_keep_arg7 (c : Dev nD) : W5 m c (Proc.devRef .tc main_arg7) = W4 m c (Proc.devRef .tc main_arg7) :=
  W5_of_ne m c main_arg7 (by decide)
theorem W5_keep_v0_0 (c : Dev nD) : W5 m c (Proc.devRef .tc main_call0_v0_0) = W4 m c (Proc.devRef .tc main_call0_v0_0) :=
  W5_of_ne m c main_call0_v0_0 (by decide)
theorem W5_keep_v0_1 (c : Dev nD) : W5 m c (Proc.devRef .tc main_call0_v0_1) = W4 m c (Proc.devRef .tc main_call0_v0_1) :=
  (W5_arr m c 1).trans (((dat2 (V4 m) c).arrAt_in 1 rfl _).trans (A_eq2 (V4 m) c 1))
theorem W5_keep_v1 (c : Dev nD) : W5 m c (Proc.devRef .tc main_call0_v1) = W4 m c (Proc.devRef .tc main_call0_v1) :=
  W5_of_ne m c main_call0_v1 (by decide)
theorem W5_keep_v2 (c : Dev nD) : W5 m c (Proc.devRef .tc main_call0_v2) = W4 m c (Proc.devRef .tc main_call0_v2) :=
  (W5_arr m c 0).trans (((dat2 (V4 m) c).arrAt_in 0 rfl _).trans (A_eq2 (V4 m) c 0))
theorem W5_keep_v3 (c : Dev nD) : W5 m c (Proc.devRef .tc main_call0_v3) = W4 m c (Proc.devRef .tc main_call0_v3) :=
  (W5_arr m c 3).trans (((dat2 (V4 m) c).arrAt_in 3 rfl _).trans (A_eq2 (V4 m) c 3))
theorem W5_keep_v5 (c : Dev nD) : W5 m c (Proc.devRef .tc main_call0_v5) = W4 m c (Proc.devRef .tc main_call0_v5) :=
  W5_of_ne m c main_call0_v5 (by decide)
theorem W5_keep_v0 (c : Dev nD) : W5 m c (Proc.devRef .tc main_v0) = W4 m c (Proc.devRef .tc main_v0) :=
  W5_of_ne m c main_v0 (by decide)
theorem W6_keep_arg0 (c : Dev nD) : W6 m c (Proc.devRef .tc main_arg0) = W5 m c (Proc.devRef .tc main_arg0) :=
  W6_of m c main_arg0 (by decide)
theorem W6_keep_arg1 (c : Dev nD) : W6 m c (Proc.devRef .tc main_arg1) = W5 m c (Proc.devRef .tc main_arg1) :=
  W6_of m c main_arg1 (by decide)
theorem W6_keep_arg2 (c : Dev nD) : W6 m c (Proc.devRef .tc main_arg2) = W5 m c (Proc.devRef .tc main_arg2) :=
  W6_of m c main_arg2 (by decide)
theorem W6_keep_arg3 (c : Dev nD) : W6 m c (Proc.devRef .tc main_arg3) = W5 m c (Proc.devRef .tc main_arg3) :=
  W6_of m c main_arg3 (by decide)
theorem W6_keep_arg4 (c : Dev nD) : W6 m c (Proc.devRef .tc main_arg4) = W5 m c (Proc.devRef .tc main_arg4) :=
  W6_of m c main_arg4 (by decide)
theorem W6_keep_arg5 (c : Dev nD) : W6 m c (Proc.devRef .tc main_arg5) = W5 m c (Proc.devRef .tc main_arg5) :=
  W6_of m c main_arg5 (by decide)
theorem W6_keep_arg6 (c : Dev nD) : W6 m c (Proc.devRef .tc main_arg6) = W5 m c (Proc.devRef .tc main_arg6) :=
  W6_of m c main_arg6 (by decide)
theorem W6_keep_arg7 (c : Dev nD) : W6 m c (Proc.devRef .tc main_arg7) = W5 m c (Proc.devRef .tc main_arg7) :=
  W6_of m c main_arg7 (by decide)
theorem W6_keep_v0_0 (c : Dev nD) : W6 m c (Proc.devRef .tc main_call0_v0_0) = W5 m c (Proc.devRef .tc main_call0_v0_0) :=
  W6_of m c main_call0_v0_0 (by decide)
theorem W6_keep_v0_1 (c : Dev nD) : W6 m c (Proc.devRef .tc main_call0_v0_1) = W5 m c (Proc.devRef .tc main_call0_v0_1) :=
  W6_of m c main_call0_v0_1 (by decide)
theorem W6_keep_v1 (c : Dev nD) : W6 m c (Proc.devRef .tc main_call0_v1) = W5 m c (Proc.devRef .tc main_call0_v1) :=
  W6_of m c main_call0_v1 (by decide)
theorem W6_keep_v2 (c : Dev nD) : W6 m c (Proc.devRef .tc main_call0_v2) = W5 m c (Proc.devRef .tc main_call0_v2) :=
  W6_of m c main_call0_v2 (by decide)
theorem W6_keep_v3 (c : Dev nD) : W6 m c (Proc.devRef .tc main_call0_v3) = W5 m c (Proc.devRef .tc main_call0_v3) :=
  W6_of m c main_call0_v3 (by decide)
theorem W6_keep_v4 (c : Dev nD) : W6 m c (Proc.devRef .tc main_call0_v4) = W5 m c (Proc.devRef .tc main_call0_v4) :=
  W6_of m c main_call0_v4 (by decide)
theorem W6_keep_v0 (c : Dev nD) : W6 m c (Proc.devRef .tc main_v0) = W5 m c (Proc.devRef .tc main_v0) :=
  W6_of m c main_v0 (by decide)
theorem W7_keep_arg0 (c : Dev nD) : W7 m c (Proc.devRef .tc main_arg0) = W6 m c (Proc.devRef .tc main_arg0) :=
  W7_of_ne m c main_arg0 (by decide)
theorem W7_keep_arg1 (c : Dev nD) : W7 m c (Proc.devRef .tc main_arg1) = W6 m c (Proc.devRef .tc main_arg1) :=
  (W7_arr m c 4).trans (((dat3 (V6 m) c).arrAt_in 4 rfl _).trans (A_eq3 (V6 m) c 4))
theorem W7_keep_arg2 (c : Dev nD) : W7 m c (Proc.devRef .tc main_arg2) = W6 m c (Proc.devRef .tc main_arg2) :=
  W7_of_ne m c main_arg2 (by decide)
theorem W7_keep_arg3 (c : Dev nD) : W7 m c (Proc.devRef .tc main_arg3) = W6 m c (Proc.devRef .tc main_arg3) :=
  W7_of_ne m c main_arg3 (by decide)
theorem W7_keep_arg4 (c : Dev nD) : W7 m c (Proc.devRef .tc main_arg4) = W6 m c (Proc.devRef .tc main_arg4) :=
  W7_of_ne m c main_arg4 (by decide)
theorem W7_keep_arg5 (c : Dev nD) : W7 m c (Proc.devRef .tc main_arg5) = W6 m c (Proc.devRef .tc main_arg5) :=
  W7_of_ne m c main_arg5 (by decide)
theorem W7_keep_arg6 (c : Dev nD) : W7 m c (Proc.devRef .tc main_arg6) = W6 m c (Proc.devRef .tc main_arg6) :=
  (W7_arr m c 2).trans (((dat3 (V6 m) c).arrAt_in 2 rfl _).trans (A_eq3 (V6 m) c 2))
theorem W7_keep_arg7 (c : Dev nD) : W7 m c (Proc.devRef .tc main_arg7) = W6 m c (Proc.devRef .tc main_arg7) :=
  W7_of_ne m c main_arg7 (by decide)
theorem W7_keep_v0_0 (c : Dev nD) : W7 m c (Proc.devRef .tc main_call0_v0_0) = W6 m c (Proc.devRef .tc main_call0_v0_0) :=
  W7_of_ne m c main_call0_v0_0 (by decide)
theorem W7_keep_v0_1 (c : Dev nD) : W7 m c (Proc.devRef .tc main_call0_v0_1) = W6 m c (Proc.devRef .tc main_call0_v0_1) :=
  (W7_arr m c 1).trans (((dat3 (V6 m) c).arrAt_in 1 rfl _).trans (A_eq3 (V6 m) c 1))
theorem W7_keep_v1 (c : Dev nD) : W7 m c (Proc.devRef .tc main_call0_v1) = W6 m c (Proc.devRef .tc main_call0_v1) :=
  W7_of_ne m c main_call0_v1 (by decide)
theorem W7_keep_v2 (c : Dev nD) : W7 m c (Proc.devRef .tc main_call0_v2) = W6 m c (Proc.devRef .tc main_call0_v2) :=
  W7_of_ne m c main_call0_v2 (by decide)
theorem W7_keep_v3 (c : Dev nD) : W7 m c (Proc.devRef .tc main_call0_v3) = W6 m c (Proc.devRef .tc main_call0_v3) :=
  W7_of_ne m c main_call0_v3 (by decide)
theorem W7_keep_v4 (c : Dev nD) : W7 m c (Proc.devRef .tc main_call0_v4) = W6 m c (Proc.devRef .tc main_call0_v4) :=
  (W7_arr m c 0).trans (((dat3 (V6 m) c).arrAt_in 0 rfl _).trans (A_eq3 (V6 m) c 0))
theorem W7_keep_v5 (c : Dev nD) : W7 m c (Proc.devRef .tc main_call0_v5) = W6 m c (Proc.devRef .tc main_call0_v5) :=
  (W7_arr m c 3).trans (((dat3 (V6 m) c).arrAt_in 3 rfl _).trans (A_eq3 (V6 m) c 3))

end Cert.KernelIdeal.Hand

end
-- ==== Proof.Reshape.lean ====
/-
  The three host stretches between the passes each reshape a bias vector to a one-row matrix: the row's
  entry at column `f` is the vector's entry `f`.
-/
import proofs.«182234_g5308579578416_cont_8to1_c_894_2_alg».proof.Proof.Run
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open ValueIdx

variable (m : (ℓ : Loc nD τ sig) → Buf (Elt F) ℓ)

theorem W2_v1_apply (c : Dev nD) (f : Fin 128) :
    (W2 m c (Proc.devRef .tc main_call0_v1) : S1x128.Idx → Elt F .f32) (ix2 (0 : Fin 1) f) = (W1 m c (Proc.devRef .tc main_arg3) : S128.Idx → Elt F .f32) (ix1 f) := by
  have e : (W2 m c (Proc.devRef .tc main_call0_v1) : S1x128.Idx → Elt F .f32)
      = shapeCast S1x128 (W1 m c (Proc.devRef .tc main_arg3) : S128.Idx → Elt F .f32) shapeCasts_S128_S1x128 := by
    show StableHlo.after hostOps1 _ (Proc.devRef .tc main_call0_v1) = _
    after_results; rfl
  rw [e]; exact shapeCast_a_1a_apply _ _ _ _

theorem W4_v3_apply (c : Dev nD) (f : Fin 128) :
    (W4 m c (Proc.devRef .tc main_call0_v3) : S1x128.Idx → Elt F .f32) (ix2 (0 : Fin 1) f) = (W3 m c (Proc.devRef .tc main_arg5) : S128.Idx → Elt F .f32) (ix1 f) := by
  have e : (W4 m c (Proc.devRef .tc main_call0_v3) : S1x128.Idx → Elt F .f32)
      = shapeCast S1x128 (W3 m c (Proc.devRef .tc main_arg5) : S128.Idx → Elt F .f32) shapeCasts_S128_S1x128 := by
    show StableHlo.after hostOps2 _ (Proc.devRef .tc main_call0_v3) = _
    after_results; rfl
  rw [e]; exact shapeCast_a_1a_apply _ _ _ _

theorem W6_v5_apply (c : Dev nD) (f : Fin 64) :
    (W6 m c (Proc.devRef .tc main_call0_v5) : S1x64.Idx → Elt F .f32) (ix2 (0 : Fin 1) f) = (W5 m c (Proc.devRef .tc main_arg7) : S64.Idx → Elt F .f32) (ix1 f) := by
  have e : (W6 m c (Proc.devRef .tc main_call0_v5) : S1x64.Idx → Elt F .f32)
      = shapeCast S1x64 (W5 m c (Proc.devRef .tc main_arg7) : S64.Idx → Elt F .f32) shapeCasts_S64_S1x64 := by
    show StableHlo.after hostOps3 _ (Proc.devRef .tc main_call0_v5) = _
    after_results; rfl
  rw [e]; exact shapeCast_a_1a_apply _ _ _ _

end Cert.KernelIdeal.Hand

end
-- ==== Proof.Val0Pieces.lean ====
/-
  The first pass, one block at a time: what each of the body's two control cases leaves in the
  aggregate, the column sums and the scratch, as the stored values of the loaded blocks — the first
  block's stores over the zeros and ones it has just written, a later block's over what the block
  before left — and the recursion over the blocks restated with them.
-/
import proofs.«182234_g5308579578416_cont_8to1_c_894_2_alg».proof.Proof.Reg0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

variable {F : FTy → Type} [FloatOps F]

theorem hz2 : (![0, 0] : Fin 2 → Nat) = fun _ => 0 := funext fun a => by fin_cases a <;> rfl

/-- A later block leaves, in the aggregate, the block's step over what the block before left. -/
theorem out0_B_agg (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i) (x1 : Vec F S2000x512 .f32) (x2 : Vec F S2000x128 .f32)
    (p : Vec F S512x128 .f32 × Vec F S512x8 .f32 × Vec F S2000x8 .f32) :
    (out0_B c i arg1 harg1 arg2 harg2 arg3 harg3 arg4 harg4 arg5 harg5 hc0 x1 x2 p).1 = k0_pay4 x1 p.1 x2 := by
  unfold out0_B
  dsimp only
  rw [View.read_writes_eq_canon _ _ _ (cover0_B_3 c i arg1 harg1 arg2 harg2 arg3 harg3 arg4 harg4 arg5 harg5 hc0 x1 x2 p.1 p.2.1 p.2.2)]
  unfold kernelRun0_B
  dsimp only
  rw [View.canon_unit_zero hz2]
  simp only [View.readAt_eq_ld, harg1.read_unread, harg2.read_unread, harg3.read_unread,
    View.ld_unit_zero (S := S2000x512) hz2, View.ld_unit_zero (S := S2000x128) hz2, View.ld_unit_zero (S := S512x128) hz2]

/-- A later block leaves, in the column sums, the block's step over what the block before left, with the scratch as the ones. -/
theorem out0_B_col (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i) (x1 : Vec F S2000x512 .f32) (x2 : Vec F S2000x128 .f32)
    (p : Vec F S512x128 .f32 × Vec F S512x8 .f32 × Vec F S2000x8 .f32) :
    (out0_B c i arg1 harg1 arg2 harg2 arg3 harg3 arg4 harg4 arg5 harg5 hc0 x1 x2 p).2.1 = k0_pay5 x1 p.2.1 p.2.2 := by
  unfold out0_B
  dsimp only
  rw [View.read_writes_eq_canon _ _ _ (cover0_B_4 c i arg1 harg1 arg2 harg2 arg3 harg3 arg4 harg4 arg5 harg5 hc0 x1 x2 p.1 p.2.1 p.2.2)]
  unfold kernelRun0_B
  dsimp only
  rw [View.canon_unit_zero hz2]
  simp only [View.readAt_eq_ld, harg1.read_unread, harg4.read_unread, harg5.read_unread,
    View.ld_unit_zero (S := S2000x512) hz2, View.ld_unit_zero (S := S512x8) hz2, View.ld_unit_zero (S := S2000x8) hz2]

/-- A later block leaves the scratch as it found it. -/
theorem out0_B_scr (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : ¬cond0 i) (x1 : Vec F S2000x512 .f32) (x2 : Vec F S2000x128 .f32)
    (p : Vec F S512x128 .f32 × Vec F S512x8 .f32 × Vec F S2000x8 .f32) :
    (out0_B c i arg1 harg1 arg2 harg2 arg3 harg3 arg4 harg4 arg5 harg5 hc0 x1 x2 p).2.2 = p.2.2 := rfl

/-- The first block leaves, in the aggregate, the block's step over zero. -/
theorem out0_A_agg (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) :
    (out0_A c i arg1 harg1 arg2 harg2 arg3 harg3 arg4 harg4 arg5 harg5 hc0 x1 x2).1 = k0_pay4 x1 k0_pay1 x2 := by
  unfold out0_A
  dsimp only
  rw [View.read_writes_eq_canon _ _ _ (cover0_A_3 c i arg1 harg1 arg2 harg2 arg3 harg3 arg4 harg4 arg5 harg5 hc0 x1 x2)]
  unfold kernelRun0_A
  dsimp only
  sl_unfold_words
  rw [View.canon_cons_unit_zero (S := S512x128) hz2, View.readCov_unit_zero (S := S512x128) _ hz2]
  simp only [View.readAt_eq_ld, harg1.read_unread, harg2.read_unread,
    View.ld_unit_zero (S := S2000x512) hz2, View.ld_unit_zero (S := S2000x128) hz2]

/-- The first block leaves, in the column sums, the block's step over zero, with the ones just written. -/
theorem out0_A_col (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) :
    (out0_A c i arg1 harg1 arg2 harg2 arg3 harg3 arg4 harg4 arg5 harg5 hc0 x1 x2).2.1 = k0_pay5 x1 k0_pay2 k0_pay3 := by
  unfold out0_A
  dsimp only
  rw [View.read_writes_eq_canon _ _ _ (cover0_A_4 c i arg1 harg1 arg2 harg2 arg3 harg3 arg4 harg4 arg5 harg5 hc0 x1 x2)]
  unfold kernelRun0_A
  dsimp only
  sl_unfold_words
  rw [View.canon_cons_unit_zero (S := S512x8) hz2, View.readCov_unit_zero (S := S512x8) _ hz2, View.readCov_unit_zero (S := S2000x8) _ hz2]
  simp only [View.readAt_eq_ld, harg1.read_unread, View.ld_unit_zero (S := S2000x512) hz2]

/-- The first block leaves the scratch at the ones. -/
theorem out0_A_scr (c : Dev nD) (i : grid0.Coords) (arg1 : Memref sig .tc .vmem S2000x512 .f32) (harg1 : arg1.IsWhole) (arg2 : Memref sig .tc .vmem S2000x128 .f32) (harg2 : arg2.IsWhole)
    (arg3 : Memref sig .tc .vmem S512x128 .f32) (harg3 : arg3.IsWhole) (arg4 : Memref sig .tc .vmem S512x8 .f32) (harg4 : arg4.IsWhole)
    (arg5 : Memref sig .tc .vmem S2000x8 .f32) (harg5 : arg5.IsWhole) (hc0 : cond0 i) (x1 : Vec F S2000x512 .f32) (x2 : Vec F S2000x128 .f32) :
    (out0_A c i arg1 harg1 arg2 harg2 arg3 harg3 arg4 harg4 arg5 harg5 hc0 x1 x2).2.2 = k0_pay3 := by
  unfold out0_A
  dsimp only
  rw [View.read_writes_eq_canon _ _ _ (scover0_A c i arg1 harg1 arg2 harg2 arg3 harg3 arg4 harg4 arg5 harg5 hc0 x1 x2)]
  unfold kernelRun0_A
  dsimp only
  sl_unfold_words
  rw [View.canon_unit_zero hz2]

/-! ## The recursion's two equations, one component at a time -/

section Steps

variable (V : (c : Dev nD) → (b : Ref sig .tc) → Buf (Elt F) ((c : Thread nD τ).loc b))

/-- After the first block the aggregate is the block's step over zero. -/
theorem outsAt0_agg_zero (c : Dev nD) (hn : 0 < cfg0.N) :
    (outsAt0 V c 0 hn).1 = k0_pay4 (iblk0 V c 0 ⟨0, hn⟩) k0_pay1 (iblk0 V c 1 ⟨0, hn⟩) :=
  out0_A_agg c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr (Nat.zero_mod _)) (iblk0 V c 0 ⟨0, hn⟩) (iblk0 V c 1 ⟨0, hn⟩)

/-- After the first block the column sums are the block's step over zero, with the ones. -/
theorem outsAt0_col_zero (c : Dev nD) (hn : 0 < cfg0.N) :
    (outsAt0 V c 0 hn).2.1 = k0_pay5 (iblk0 V c 0 ⟨0, hn⟩) k0_pay2 k0_pay3 :=
  out0_A_col c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr (Nat.zero_mod _)) (iblk0 V c 0 ⟨0, hn⟩) (iblk0 V c 1 ⟨0, hn⟩)

/-- After a later block the aggregate is the block's step over what the block before left. -/
theorem outsAt0_agg_succ (c : Dev nD) (n : ℕ) (hn : n + 1 < cfg0.N) :
    (outsAt0 V c (n + 1) hn).1 = k0_pay4 (iblk0 V c 0 ⟨n + 1, hn⟩) (outsAt0 V c n (Nat.lt_of_succ_lt hn)).1 (iblk0 V c 1 ⟨n + 1, hn⟩) :=
  out0_B_agg c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (not_cond0_succ n hn) (iblk0 V c 0 ⟨n + 1, hn⟩) (iblk0 V c 1 ⟨n + 1, hn⟩) (outsAt0 V c n (Nat.lt_of_succ_lt hn))

/-- After a later block the column sums are the block's step over what the block before left, with the scratch it left. -/
theorem outsAt0_col_succ (c : Dev nD) (n : ℕ) (hn : n + 1 < cfg0.N) :
    (outsAt0 V c (n + 1) hn).2.1 = k0_pay5 (iblk0 V c 0 ⟨n + 1, hn⟩) (outsAt0 V c n (Nat.lt_of_succ_lt hn)).2.1 (outsAt0 V c n (Nat.lt_of_succ_lt hn)).2.2 :=
  out0_B_col c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (not_cond0_succ n hn) (iblk0 V c 0 ⟨n + 1, hn⟩) (iblk0 V c 1 ⟨n + 1, hn⟩) (outsAt0 V c n (Nat.lt_of_succ_lt hn))

/-- The scratch holds the ones after every block. -/
theorem outsAt0_scr (c : Dev nD) : ∀ (n : ℕ) (hn : n < cfg0.N), (outsAt0 V c n hn).2.2 = k0_pay3
  | 0, hn => out0_A_scr c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0 ⟨0, hn⟩).mpr (Nat.zero_mod _)) (iblk0 V c 0 ⟨0, hn⟩) (iblk0 V c 1 ⟨0, hn⟩)
  | n + 1, hn => (out0_B_scr c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (not_cond0_succ n hn) (iblk0 V c 0 ⟨n + 1, hn⟩) (iblk0 V c 1 ⟨n + 1, hn⟩) (outsAt0 V c n (Nat.lt_of_succ_lt hn))).trans
      (outsAt0_scr c n (Nat.lt_of_succ_lt hn))

end Steps

end Cert.KernelIdeal.Hand

end
-- ==== Proof.Val0Blocks.lean ====
/-
  The first pass's two input windows read at an entry: at grid point `t` the block of 2000 rows of the
  adjacency (and of the features) is rows `2000 t … 2000 t + 1999` of the array, all its columns.
-/
import proofs.«182234_g5308579578416_cont_8to1_c_894_2_alg».proof.Proof.Reg0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

variable {F : FTy → Type} [FloatOps F]

section Blocks

variable (V : (c : Dev nD) → (b : Ref sig .tc) → Buf (Elt F) ((c : Thread nD τ).loc b))

/-- The adjacency's block at point `t` is block row `t`, block column 0. -/
theorem idx0_0 : ∀ t : Fin cfg0.N, win0_0.index t 0 = t.val ∧ win0_0.index t 1 = 0 :=
  (by decide +kernel : ∀ t : Fin grid0.N, win0_0.index t 0 = t.val ∧ win0_0.index t 1 = 0)
/-- The features' block at point `t` is block row `t`, block column 0. -/
theorem idx0_1 : ∀ t : Fin cfg0.N, win0_1.index t 0 = t.val ∧ win0_1.index t 1 = 0 :=
  (by decide +kernel : ∀ t : Fin grid0.N, win0_1.index t 0 = t.val ∧ win0_1.index t 1 = 0)

/-- The adjacency's block at point `t`, at `(r, a)`: the array at row `2000 t + r`. -/
theorem iblk0_0_apply (c : Dev nD) (t : Fin cfg0.N) (r : Fin 2000) (a : Fin 512) (h : 2000 * t.val + r.val < 50000) :
    (iblk0 V c 0 t : S2000x512.Idx → Elt F .f32) (ix2 r a)
      = (V c main_arg1 : S50000x512.Idx → Elt F .f32) (ix2 (⟨2000 * t.val + r.val, h⟩ : Fin 50000) a) := by
  unfold iblk0
  rw [View.read_apply]
  show V c main_arg1 _ = V c main_arg1 _
  congr 1
  funext x
  apply Fin.ext
  match x with
  | ⟨0, _⟩ => show win0_0.index t 0 * 2000 + 1 * r.val = 2000 * t.val + r.val; rw [(idx0_0 t).1]; omega
  | ⟨1, _⟩ => show win0_0.index t 1 * 512 + 1 * a.val = a.val; rw [(idx0_0 t).2]; omega

/-- The features' block at point `t`, at `(r, k)`: the array at row `2000 t + r`. -/
theorem iblk0_1_apply (c : Dev nD) (t : Fin cfg0.N) (r : Fin 2000) (k : Fin 128) (h : 2000 * t.val + r.val < 50000) :
    (iblk0 V c 1 t : S2000x128.Idx → Elt F .f32) (ix2 r k)
      = (V c main_arg0 : S50000x128.Idx → Elt F .f32) (ix2 (⟨2000 * t.val + r.val, h⟩ : Fin 50000) k) := by
  unfold iblk0
  rw [View.read_apply]
  show V c main_arg0 _ = V c main_arg0 _
  congr 1
  funext x
  apply Fin.ext
  match x with
  | ⟨0, _⟩ => show win0_1.index t 0 * 2000 + 1 * r.val = 2000 * t.val + r.val; rw [(idx0_1 t).1]; omega
  | ⟨1, _⟩ => show win0_1.index t 1 * 128 + 1 * k.val = k.val; rw [(idx0_1 t).2]; omega

end Blocks

end Cert.KernelIdeal.Hand

end
-- ==== Proof.PayIn.lean ====
/-
  The first kernel's stored values, read entry by entry.

  The kernel clears two accumulators (the anchor-space features `t` [512,128] and the column sums
  [512,8]) and fills a [2000,8] block with ones; then, for each block of 2000 rows of the
  node-by-anchor matrix `A`, it adds `Aᵀ x` of the block to the first accumulator and `Aᵀ 1` of
  the block to the second. At an entry `(a, k)` the product contracted over the rows is the finite
  sum `Σ_r A(r,a) · x(r,k)` in the extended reals.
-/
import proofs.«182234_g5308579578416_cont_8to1_c_894_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic ValueIdx Cert.KernelIdeal Cert.KernelIdeal.Gen

theorem dotT128_lhs_c (j : S512x128.Idx) (q : dot_S2000x512_S2000x128_S512x128_0_0_1_1_n_n.contr.Idx) :
    (dot_S2000x512_S2000x128_S512x128_0_0_1_1_n_n.lhsIdx j q 0).val = (q ⟨0, by decide⟩).val :=
  dot_S2000x512_S2000x128_S512x128_0_0_1_1_n_n.lhsIdx_val_of_single rfl j q
theorem dotT128_lhs_n (j : S512x128.Idx) (q : dot_S2000x512_S2000x128_S512x128_0_0_1_1_n_n.contr.Idx) :
    (dot_S2000x512_S2000x128_S512x128_0_0_1_1_n_n.lhsIdx j q 1).val = (j 0).val := by
  unfold DotDims.lhsIdx
  rw [dif_neg (show ¬(1 : Fin S2000x512.rank) ∈ dot_S2000x512_S2000x128_S512x128_0_0_1_1_n_n.lhsBatch by decide), dif_pos (show (1 : Fin S2000x512.rank) ∈ dot_S2000x512_S2000x128_S512x128_0_0_1_1_n_n.lhsNonContracting by decide)]
  rfl
theorem dotT128_rhs_c (j : S512x128.Idx) (q : dot_S2000x512_S2000x128_S512x128_0_0_1_1_n_n.contr.Idx) :
    (dot_S2000x512_S2000x128_S512x128_0_0_1_1_n_n.rhsIdx j q 0).val = (q ⟨0, by decide⟩).val :=
  dot_S2000x512_S2000x128_S512x128_0_0_1_1_n_n.rhsIdx_val_of_single rfl j q
theorem dotT128_rhs_n (j : S512x128.Idx) (q : dot_S2000x512_S2000x128_S512x128_0_0_1_1_n_n.contr.Idx) :
    (dot_S2000x512_S2000x128_S512x128_0_0_1_1_n_n.rhsIdx j q 1).val = (j 1).val := by
  unfold DotDims.rhsIdx
  rw [dif_neg (show ¬(1 : Fin S2000x128.rank) ∈ dot_S2000x512_S2000x128_S512x128_0_0_1_1_n_n.rhsBatch by decide), dif_pos (show (1 : Fin S2000x128.rank) ∈ dot_S2000x512_S2000x128_S512x128_0_0_1_1_n_n.rhsNonContracting by decide)]
  rfl

/-- `lᵀ r` into the zero accumulator, for a [2000,512] and a [2000,128] factor: at `(p, q)` the sum over the rows `n` of `l(n,p) · r(n,q)`. -/
theorem matmulT128_apply (l : FVec Ideal S2000x512 .f32) (r : FVec Ideal S2000x128 .f32) (p : Fin 512) (q : Fin 128) :
    matmul dot_S2000x512_S2000x128_S512x128_0_0_1_1_n_n none l r (constant S512x128 .f32 0x00000000#32) (ix2 p q)
      = ∑ n : Fin 2000, l (ix2 n p) * r (ix2 n q) := by
  refine (Ideal.matmul_constant_zero_apply dot_S2000x512_S2000x128_S512x128_0_0_1_1_n_n none l r (ix2 p q)).trans ?_
  rw [← Equiv.sum_comp (contrEquiv1 dot_S2000x512_S2000x128_S512x128_0_0_1_1_n_n 2000 rfl rfl).symm]
  refine Finset.sum_congr rfl fun n _ => ?_
  have hk := contrEquiv1_symm_val dot_S2000x512_S2000x128_S512x128_0_0_1_1_n_n 2000 rfl rfl n
  have el : dot_S2000x512_S2000x128_S512x128_0_0_1_1_n_n.lhsIdx (ix2 p q) ((contrEquiv1 dot_S2000x512_S2000x128_S512x128_0_0_1_1_n_n 2000 rfl rfl).symm n) = ix2 n p := funext fun x => Fin.ext (by
    match x with
    | ⟨0, _⟩ => exact (dotT128_lhs_c _ _).trans hk
    | ⟨1, _⟩ => exact dotT128_lhs_n _ _)
  have er : dot_S2000x512_S2000x128_S512x128_0_0_1_1_n_n.rhsIdx (ix2 p q) ((contrEquiv1 dot_S2000x512_S2000x128_S512x128_0_0_1_1_n_n 2000 rfl rfl).symm n) = ix2 n q := funext fun x => Fin.ext (by
    match x with
    | ⟨0, _⟩ => exact (dotT128_rhs_c _ _).trans hk
    | ⟨1, _⟩ => exact dotT128_rhs_n _ _)
  rw [el, er]

theorem dotT8_lhs_c (j : S512x8.Idx) (q : dot_S2000x512_S2000x8_S512x8_0_0_1_1_n_n.contr.Idx) :
    (dot_S2000x512_S2000x8_S512x8_0_0_1_1_n_n.lhsIdx j q 0).val = (q ⟨0, by decide⟩).val :=
  dot_S2000x512_S2000x8_S512x8_0_0_1_1_n_n.lhsIdx_val_of_single rfl j q
theorem dotT8_lhs_n (j : S512x8.Idx) (q : dot_S2000x512_S2000x8_S512x8_0_0_1_1_n_n.contr.Idx) :
    (dot_S2000x512_S2000x8_S512x8_0_0_1_1_n_n.lhsIdx j q 1).val = (j 0).val := by
  unfold DotDims.lhsIdx
  rw [dif_neg (show ¬(1 : Fin S2000x512.rank) ∈ dot_S2000x512_S2000x8_S512x8_0_0_1_1_n_n.lhsBatch by decide), dif_pos (show (1 : Fin S2000x512.rank) ∈ dot_S2000x512_S2000x8_S512x8_0_0_1_1_n_n.lhsNonContracting by decide)]
  rfl
theorem dotT8_rhs_c (j : S512x8.Idx) (q : dot_S2000x512_S2000x8_S512x8_0_0_1_1_n_n.contr.Idx) :
    (dot_S2000x512_S2000x8_S512x8_0_0_1_1_n_n.rhsIdx j q 0).val = (q ⟨0, by decide⟩).val :=
  dot_S2000x512_S2000x8_S512x8_0_0_1_1_n_n.rhsIdx_val_of_single rfl j q
theorem dotT8_rhs_n (j : S512x8.Idx) (q : dot_S2000x512_S2000x8_S512x8_0_0_1_1_n_n.contr.Idx) :
    (dot_S2000x512_S2000x8_S512x8_0_0_1_1_n_n.rhsIdx j q 1).val = (j 1).val := by
  unfold DotDims.rhsIdx
  rw [dif_neg (show ¬(1 : Fin S2000x8.rank) ∈ dot_S2000x512_S2000x8_S512x8_0_0_1_1_n_n.rhsBatch by decide), dif_pos (show (1 : Fin S2000x8.rank) ∈ dot_S2000x512_S2000x8_S512x8_0_0_1_1_n_n.rhsNonContracting by decide)]
  rfl

/-- `lᵀ r` into the zero accumulator, for a [2000,512] and a [2000,8] factor: at `(p, q)` the sum over the rows `n` of `l(n,p) · r(n,q)`. -/
theorem matmulT8_apply (l : FVec Ideal S2000x512 .f32) (r : FVec Ideal S2000x8 .f32) (p : Fin 512) (q : Fin 8) :
    matmul dot_S2000x512_S2000x8_S512x8_0_0_1_1_n_n none l r (constant S512x8 .f32 0x00000000#32) (ix2 p q)
      = ∑ n : Fin 2000, l (ix2 n p) * r (ix2 n q) := by
  refine (Ideal.matmul_constant_zero_apply dot_S2000x512_S2000x8_S512x8_0_0_1_1_n_n none l r (ix2 p q)).trans ?_
  rw [← Equiv.sum_comp (contrEquiv1 dot_S2000x512_S2000x8_S512x8_0_0_1_1_n_n 2000 rfl rfl).symm]
  refine Finset.sum_congr rfl fun n _ => ?_
  have hk := contrEquiv1_symm_val dot_S2000x512_S2000x8_S512x8_0_0_1_1_n_n 2000 rfl rfl n
  have el : dot_S2000x512_S2000x8_S512x8_0_0_1_1_n_n.lhsIdx (ix2 p q) ((contrEquiv1 dot_S2000x512_S2000x8_S512x8_0_0_1_1_n_n 2000 rfl rfl).symm n) = ix2 n p := funext fun x => Fin.ext (by
    match x with
    | ⟨0, _⟩ => exact (dotT8_lhs_c _ _).trans hk
    | ⟨1, _⟩ => exact dotT8_lhs_n _ _)
  have er : dot_S2000x512_S2000x8_S512x8_0_0_1_1_n_n.rhsIdx (ix2 p q) ((contrEquiv1 dot_S2000x512_S2000x8_S512x8_0_0_1_1_n_n 2000 rfl rfl).symm n) = ix2 n q := funext fun x => Fin.ext (by
    match x with
    | ⟨0, _⟩ => exact (dotT8_rhs_c _ _).trans hk
    | ⟨1, _⟩ => exact dotT8_rhs_n _ _)
  rw [el, er]

/-- The cleared feature accumulator is zero everywhere. -/
theorem k0_pay1_apply (a : Fin 512) (k : Fin 128) : k0_pay1 (F := Ideal) (ix2 a k) = 0 :=
  Ideal.ofBits_zero_f32

/-- The cleared column-sum accumulator is zero everywhere. -/
theorem k0_pay2_apply (a : Fin 512) (j : Fin 8) : k0_pay2 (F := Ideal) (ix2 a j) = 0 :=
  Ideal.ofBits_zero_f32

/-- The block of ones is the word of `1.0` everywhere. -/
theorem k0_pay3_apply (r : Fin 2000) (j : Fin 8) : k0_pay3 (F := Ideal) (ix2 r j) = Ideal.ofBits .f32 0x3F800000#32 := by
  unfold k0_pay3
  rw [shapeCast_self]
  rfl

/-- One block's step of the feature accumulator: `t(a,k) + Σ_r A(r,a) · x(r,k)`. -/
theorem k0_pay4_apply (v3 : Vec Ideal S2000x512 .f32) (v4 : Vec Ideal S512x128 .f32) (v6 : Vec Ideal S2000x128 .f32) (a : Fin 512) (k : Fin 128) :
    k0_pay4 v3 v4 v6 (ix2 a k) = v4 (ix2 a k) + ∑ r : Fin 2000, v3 (ix2 r a) * v6 (ix2 r k) := by
  unfold k0_pay4
  refine (addf_apply _ _ _).trans ?_
  refine congrArg₂ (· + ·) ?_ ?_
  · exact congrFun (shapeCast_self v4 _) _
  · exact matmulT128_apply v3 v6 a k

/-- One block's step of the column-sum accumulator: `c(a,j) + Σ_r A(r,a) · o(r,j)`. -/
theorem k0_pay5_apply (v3 : Vec Ideal S2000x512 .f32) (v10 : Vec Ideal S512x8 .f32) (v12 : Vec Ideal S2000x8 .f32) (a : Fin 512) (j : Fin 8) :
    k0_pay5 v3 v10 v12 (ix2 a j) = v10 (ix2 a j) + ∑ r : Fin 2000, v3 (ix2 r a) * v12 (ix2 r j) := by
  unfold k0_pay5
  refine (addf_apply _ _ _).trans ?_
  refine congrArg₂ (· + ·) ?_ ?_
  · exact congrFun (shapeCast_self v10 _) _
  · exact matmulT8_apply v3 v12 a j

/-! ## Readings shared by the later kernels: a column added to a vector, a column spread over the rows, a row sum -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the second axis of a [2000,512] array, from the zero word: at `r` the sum over `a` of `v(r,a)`. -/
theorem rowSum_apply (v : FVec Ideal S2000x512 .f32) (hφ : FKind.Formats FTy.f32)
    (hacc : (0x00000000#32 : BitVec 32) = FKind.add.neutral .f32 hφ) (r : Fin 2000) :
    multiReduction (F := Ideal) .add [1] S2000 v 0x00000000#32 reduces_S2000x512_S2000 hφ hacc (ix1 r)
      = ∑ a : Fin 512, v (ix2 r a) := by
  refine (Ideal.multiReduction_add_single v 0x00000000#32 reduces_S2000x512_S2000 hφ hacc (ix1 r)).trans ?_
  refine Finset.sum_congr rfl fun a _ => ?_
  exact congrArg v (funext fun x => Fin.ext (by match x with | ⟨0, _⟩ => rfl | ⟨1, _⟩ => rfl))

end Cert.KernelIdeal.PayValue

end
-- ==== Proof.EpsLiteral.lean ====
/-
  The three f32 literals of the layers as extended reals: zero, one, and the floor `1e-12`
  (the pattern `0x2B8CBCCC`), which is a positive real.
-/
import Idealize.ShloMosaic.PureOps.Ideal

namespace AnchorGcn

open Idealize.ShloMosaic

/-- The f32 pattern `0x00000000` denotes zero. -/
theorem zero_literal : Ideal.ofBits .f32 0x00000000#32 = (0 : EReal) := by
  simp [Ideal.ofBits, Ideal.ieee]

/-- The f32 pattern `0x3F800000` denotes one. -/
theorem one_literal : Ideal.ofBits .f32 0x3F800000#32 = (1 : EReal) := by
  rw [show (1 : EReal) = ((1 : ℝ) : EReal) by norm_cast]
  simp [Ideal.ofBits, Ideal.ieee, -EReal.coe_mul]; norm_num

/-- The f32 pattern `0x2B8CBCCC` (sign 0, exponent 87, fraction 834764) denotes the positive real
    `(2^23 + 834764) * 2^(87 - 127 - 23) = 9223372 * 2^(-63)`. -/
theorem eps_literal_eq : Ideal.ofBits .f32 0x2B8CBCCC#32 = (((9223372 : ℝ) * (2 : ℝ) ^ (-63 : Int) : ℝ) : EReal) := by
  simp [Ideal.ofBits, Ideal.ieee, -EReal.coe_mul]

/-- The floor literal is a positive real. -/
theorem eps_literal : ∃ e : ℝ, 0 < e ∧ Ideal.ofBits .f32 0x2B8CBCCC#32 = (e : EReal) :=
  ⟨(9223372 : ℝ) * (2 : ℝ) ^ (-63 : Int), by positivity, eps_literal_eq⟩

end AnchorGcn
-- ==== Proof.LibBlockSum.lean ====
/-
  A finite sum over `m · n` consecutive positions, split into `m` blocks of `n`: for any function `f`
  of the natural numbers with values in a commutative additive monoid,
  `Σ_{i < m·n} f i = Σ_{t < m} Σ_{r < n} f (n·t + r)` — over `Finset.range` (`sum_range_blocks`) and
  with the outer left side and the inner right side indexed by `Fin` (`sum_fin_blocks`). A grid of
  `m` row blocks of `n` rows that accumulates one block per step ends at the sum over all `m·n` rows.
-/
import Idealize.ShloMosaic.Lib.ValueIdx

namespace AnchorGcn

/-- `Σ_{i < m·n} f i = Σ_{t < m} Σ_{r < n} f (n·t + r)`, by induction on the number of blocks. -/
theorem sum_range_blocks {M : Type*} [AddCommMonoid M] (f : ℕ → M) (n : ℕ) : ∀ m : ℕ,
    ∑ i ∈ Finset.range (m * n), f i = ∑ t ∈ Finset.range m, ∑ r ∈ Finset.range n, f (n * t + r)
  | 0 => by rw [Nat.zero_mul, Finset.sum_range_zero, Finset.sum_range_zero]
  | m + 1 => by
    rw [Nat.succ_mul, Finset.sum_range_add, sum_range_blocks f n m, Finset.sum_range_succ, Nat.mul_comm m n]

/-- The same with the positions and the rows of a block as `Fin` indices:
    `Σ_{i : Fin (m·n)} f i = Σ_{t < m} Σ_{r : Fin n} f (n·t + r)`. -/
theorem sum_fin_blocks {M : Type*} [AddCommMonoid M] (f : ℕ → M) (m n : ℕ) :
    ∑ i : Fin (m * n), f i.val = ∑ t ∈ Finset.range m, ∑ r : Fin n, f (n * t + r.val) := by
  rw [Fin.sum_univ_eq_sum_range f (m * n), sum_range_blocks f n m]
  exact Finset.sum_congr rfl fun t _ => (Fin.sum_univ_eq_sum_range (fun r => f (n * t + r)) n).symm

end AnchorGcn
-- ==== Proof.Val0.lean ====
/-
  THE VALUE OF THE FIRST PASS. Over the 25 row blocks the aggregate accumulates `Aᵀ x` and the
  column sums accumulate `Aᵀ 1`: after block `n` each entry is the sum over the first `2000 (n + 1)`
  rows (by induction on the block; addition of extended reals is a commutative monoid, so nothing
  about finiteness is needed), the sum over 25 blocks of 2000 rows is the sum over all 50000 rows, and
  the two output arrays, written back once, whole, at the last block, end holding those sums.
-/
import proofs.«182234_g5308579578416_cont_8to1_c_894_2_alg».proof.Proof.Reg0
import proofs.«182234_g5308579578416_cont_8to1_c_894_2_alg».proof.Proof.Val0Pieces
import proofs.«182234_g5308579578416_cont_8to1_c_894_2_alg».proof.Proof.Val0Blocks
import proofs.«182234_g5308579578416_cont_8to1_c_894_2_alg».proof.Proof.PayIn
import proofs.«182234_g5308579578416_cont_8to1_c_894_2_alg».proof.Proof.EpsLiteral
import Idealize.ShloMosaic.Lib.Pipeline.Value
import Idealize.ShloMosaic.Lib.ValueIdx
import proofs.«182234_g5308579578416_cont_8to1_c_894_2_alg».proof.Proof.LibBlockSum

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)

variable {F : FTy → Type} [FloatOps F]

section Accumulate

variable (V : (c : Dev nD) → (b : Ref sig .tc) → Buf (Elt Ideal) ((c : Thread nD τ).loc b))

/-- The adjacency as the region finds it, as an array of extended reals. -/
abbrev adj0 (c : Dev nD) : S50000x512.Idx → EReal := V c main_arg1
/-- The features as the region finds them, as an array of extended reals. -/
abbrev feat0 (c : Dev nD) : S50000x128.Idx → EReal := V c main_arg0

/-- The adjacency at row `n`, as a function of the natural numbers: zero past the last row. -/
def adjN (c : Dev nD) (n : ℕ) (a : Fin 512) : EReal :=
  if h : n < 50000 then adj0 V c (ix2 (⟨n, h⟩ : Fin 50000) a) else 0
/-- The features at row `n`, as a function of the natural numbers: zero past the last row. -/
def featN (c : Dev nD) (n : ℕ) (k : Fin 128) : EReal :=
  if h : n < 50000 then feat0 V c (ix2 (⟨n, h⟩ : Fin 50000) k) else 0

theorem adjN_val (c : Dev nD) (n : Fin 50000) (a : Fin 512) : adjN V c n.val a = adj0 V c (ix2 n a) := by
  unfold adjN; rw [dif_pos n.isLt]
theorem featN_val (c : Dev nD) (n : Fin 50000) (k : Fin 128) : featN V c n.val k = feat0 V c (ix2 n k) := by
  unfold featN; rw [dif_pos n.isLt]

theorem lt_rows (n : ℕ) (hn : n < cfg0.N) (r : Fin 2000) : 2000 * n + r.val < 50000 := by
  have hN : n < 25 := lt_of_lt_of_eq hn (show cfg0.N = 25 from N_0)
  have := r.isLt; omega

theorem iblk0_0_adjN (c : Dev nD) (n : ℕ) (hn : n < cfg0.N) (r : Fin 2000) (a : Fin 512) :
    (iblk0 V c 0 ⟨n, hn⟩ : S2000x512.Idx → EReal) (ix2 r a) = adjN V c (2000 * n + r.val) a := by
  unfold adjN
  rw [dif_pos (lt_rows n hn r)]
  exact iblk0_0_apply V c ⟨n, hn⟩ r a (lt_rows n hn r)
theorem iblk0_1_featN (c : Dev nD) (n : ℕ) (hn : n < cfg0.N) (r : Fin 2000) (k : Fin 128) :
    (iblk0 V c 1 ⟨n, hn⟩ : S2000x128.Idx → EReal) (ix2 r k) = featN V c (2000 * n + r.val) k := by
  unfold featN
  rw [dif_pos (lt_rows n hn r)]
  exact iblk0_1_apply V c ⟨n, hn⟩ r k (lt_rows n hn r)

/-- After block `n` the aggregate at `(a, k)` is `Σ A(i,a) · x(i,k)` over the rows of the first `n + 1` blocks. -/
theorem agg_inv (c : Dev nD) (a : Fin 512) (k : Fin 128) : ∀ (n : ℕ) (hn : n < cfg0.N),
    (outsAt0 V c n hn).1 (ix2 a k)
      = ∑ t ∈ Finset.range (n + 1), ∑ r : Fin 2000, adjN V c (2000 * t + r.val) a * featN V c (2000 * t + r.val) k
  | 0, hn => by
    refine (congrFun (outsAt0_agg_zero V c hn) (ix2 a k)).trans ?_
    refine (PayValue.k0_pay4_apply (iblk0 V c 0 ⟨0, hn⟩) (k0_pay1 (F := Ideal)) (iblk0 V c 1 ⟨0, hn⟩) a k).trans ?_
    rw [PayValue.k0_pay1_apply, zero_add, Finset.sum_range_one]
    exact Finset.sum_congr rfl fun r _ => congrArg₂ (· * ·) (iblk0_0_adjN V c 0 hn r a) (iblk0_1_featN V c 0 hn r k)
  | n + 1, hn => by
    refine (congrFun (outsAt0_agg_succ V c n hn) (ix2 a k)).trans ?_
    refine (PayValue.k0_pay4_apply (iblk0 V c 0 ⟨n + 1, hn⟩) (outsAt0 V c n (Nat.lt_of_succ_lt hn)).1 (iblk0 V c 1 ⟨n + 1, hn⟩) a k).trans ?_
    rw [agg_inv c a k n (Nat.lt_of_succ_lt hn), Finset.sum_range_succ _ (n + 1)]
    exact congrArg (_ + ·) (Finset.sum_congr rfl fun r _ =>
      congrArg₂ (· * ·) (iblk0_0_adjN V c (n + 1) hn r a) (iblk0_1_featN V c (n + 1) hn r k))

/-- After block `n` the column sum at `(a, j)` is `Σ A(i,a)` over the rows of the first `n + 1` blocks. -/
theorem col_inv (c : Dev nD) (a : Fin 512) (j : Fin 8) : ∀ (n : ℕ) (hn : n < cfg0.N),
    (outsAt0 V c n hn).2.1 (ix2 a j) = ∑ t ∈ Finset.range (n + 1), ∑ r : Fin 2000, adjN V c (2000 * t + r.val) a
  | 0, hn => by
    refine (congrFun (outsAt0_col_zero V c hn) (ix2 a j)).trans ?_
    refine (PayValue.k0_pay5_apply (iblk0 V c 0 ⟨0, hn⟩) (k0_pay2 (F := Ideal)) (k0_pay3 (F := Ideal)) a j).trans ?_
    rw [PayValue.k0_pay2_apply, zero_add, Finset.sum_range_one]
    refine Finset.sum_congr rfl fun r _ => ?_
    rw [PayValue.k0_pay3_apply, AnchorGcn.one_literal, mul_one]
    exact iblk0_0_adjN V c 0 hn r a
  | n + 1, hn => by
    refine (congrFun (outsAt0_col_succ V c n hn) (ix2 a j)).trans ?_
    refine (PayValue.k0_pay5_apply (iblk0 V c 0 ⟨n + 1, hn⟩) (outsAt0 V c n (Nat.lt_of_succ_lt hn)).2.1 (outsAt0 V c n (Nat.lt_of_succ_lt hn)).2.2 a j).trans ?_
    rw [col_inv c a j n (Nat.lt_of_succ_lt hn), Finset.sum_range_succ _ (n + 1)]
    refine congrArg (_ + ·) (Finset.sum_congr rfl fun r _ => ?_)
    rw [outsAt0_scr V c n (Nat.lt_of_succ_lt hn), PayValue.k0_pay3_apply, AnchorGcn.one_literal, mul_one]
    exact iblk0_0_adjN V c (n + 1) hn r a

end Accumulate

/-! ## The arrays after the region: written back once, whole, at the last block -/

section Final

variable (V : (c : Dev nD) → (b : Ref sig .tc) → Buf (Elt Ideal) ((c : Thread nD τ).loc b))

/-- The last block. -/
abbrev tLast0 : Fin cfg0.N := ⟨24, by rw [show cfg0.N = 25 from N_0]; decide⟩

/-- What the last block leaves in the aggregate, as contents of the aggregate's array. -/
abbrev aggLast (c : Dev nD) : Buf (Elt Ideal) ((c : Thread nD τ).loc main_call0_v0_0) := (outsAt0 V c tLast0.val tLast0.isLt).1
/-- What the last block leaves in the column sums, as contents of their array. -/
abbrev colLast (c : Dev nD) : Buf (Elt Ideal) ((c : Thread nD τ).loc main_call0_v0_1) := (outsAt0 V c tLast0.val tLast0.isLt).2.1

theorem flushed0_2 (c : Dev nD) (t : Fin cfg0.N) (hf : (cfg0.win 2).flush t = true) :
    (dat0 V c).flushed 2 t = ((cfg0.win 2).blk t).view.read (Elt Ideal) (aggLast V c) := by
  have hN : cfg0.N = 25 := N_0
  have h24 : t.val = 24 := by have := (flush0_2 t).mp hf; have := t.isLt; omega
  obtain rfl : t = tLast0 := Fin.ext h24
  show (cfg0.win 2).cut (grid0.coords tLast0) ((dat0 V c).after 2 tLast0) = _
  rw [after0_2]
  have hz' : (fun a => win0_2.index tLast0 a * main_call0_v0_0.ty.shape.size a) = fun _ => 0 := funext fun a => by fin_cases a <;> decide
  exact (Memref.read_access_unit_zero (Elt Ideal) main_call0_v0_0 hz' (fun a => by rw [congrFun hz' a]; simp) (aggLast V c)).symm

theorem flushed0_3 (c : Dev nD) (t : Fin cfg0.N) (hf : (cfg0.win 3).flush t = true) :
    (dat0 V c).flushed 3 t = ((cfg0.win 3).blk t).view.read (Elt Ideal) (colLast V c) := by
  have hN : cfg0.N = 25 := N_0
  have h24 : t.val = 24 := by have := (flush0_3 t).mp hf; have := t.isLt; omega
  obtain rfl : t = tLast0 := Fin.ext h24
  show (cfg0.win 3).cut (grid0.coords tLast0) ((dat0 V c).after 3 tLast0) = _
  rw [after0_3]
  have hz' : (fun a => win0_3.index tLast0 a * main_call0_v0_1.ty.shape.size a) = fun _ => 0 := funext fun a => by fin_cases a <;> decide
  exact (Memref.read_access_unit_zero (Elt Ideal) main_call0_v0_1 hz' (fun a => by rw [congrFun hz' a]; simp) (colLast V c)).symm

/-- The aggregate's array ends holding what the last block left. -/
theorem final0_2 (c : Dev nD) : (dat0 V c).arrAt 2 cfg0.N = aggLast V c :=
  (dat0 V c).arrAt_eq_of_cover 2 (aggLast V c) (flushed0_2 V c) fun i =>
    ⟨tLast0, (flush0_2 tLast0).mpr rfl, by
      show i ∈ ((View.whole main_call0_v0_0).slice (win0_2.rect tLast0)).set
      rw [View.set_slice_whole, Rect.mem_set_unit]
      intro a
      have h0 : (i 0 : Nat) < 512 := (i 0).isLt
      have h1 : (i 1 : Nat) < 128 := (i 1).isLt
      match a with
      | ⟨0, _⟩ => show win0_2.index tLast0 0 * win0_2.size 0 ≤ (i 0 : Nat) ∧ (i 0 : Nat) < win0_2.index tLast0 0 * win0_2.size 0 + win0_2.xsize (grid0.coords tLast0) 0
                  rw [show win0_2.index tLast0 0 * win0_2.size 0 = 0 from by decide +kernel, show win0_2.xsize (grid0.coords tLast0) 0 = 512 from by decide +kernel]; omega
      | ⟨1, _⟩ => show win0_2.index tLast0 1 * win0_2.size 1 ≤ (i 1 : Nat) ∧ (i 1 : Nat) < win0_2.index tLast0 1 * win0_2.size 1 + win0_2.xsize (grid0.coords tLast0) 1
                  rw [show win0_2.index tLast0 1 * win0_2.size 1 = 0 from by decide +kernel, show win0_2.xsize (grid0.coords tLast0) 1 = 128 from by decide +kernel]; omega⟩

/-- The column sums' array ends holding what the last block left. -/
theorem final0_3 (c : Dev nD) : (dat0 V c).arrAt 3 cfg0.N = colLast V c :=
  (dat0 V c).arrAt_eq_of_cover 3 (colLast V c) (flushed0_3 V c) fun i =>
    ⟨tLast0, (flush0_3 tLast0).mpr rfl, by
      show i ∈ ((View.whole main_call0_v0_1).slice (win0_3.rect tLast0)).set
      rw [View.set_slice_whole, Rect.mem_set_unit]
      intro a
      have h0 : (i 0 : Nat) < 512 := (i 0).isLt
      have h1 : (i 1 : Nat) < 8 := (i 1).isLt
      match a with
      | ⟨0, _⟩ => show win0_3.index tLast0 0 * win0_3.size 0 ≤ (i 0 : Nat) ∧ (i 0 : Nat) < win0_3.index tLast0 0 * win0_3.size 0 + win0_3.xsize (grid0.coords tLast0) 0
                  rw [show win0_3.index tLast0 0 * win0_3.size 0 = 0 from by decide +kernel, show win0_3.xsize (grid0.coords tLast0) 0 = 512 from by decide +kernel]; omega
      | ⟨1, _⟩ => show win0_3.index tLast0 1 * win0_3.size 1 ≤ (i 1 : Nat) ∧ (i 1 : Nat) < win0_3.index tLast0 1 * win0_3.size 1 + win0_3.xsize (grid0.coords tLast0) 1
                  rw [show win0_3.index tLast0 1 * win0_3.size 1 = 0 from by decide +kernel, show win0_3.xsize (grid0.coords tLast0) 1 = 8 from by decide +kernel]; omega⟩

/-- The aggregate's array after the region, as an array of extended reals. -/
abbrev aggOut0 (c : Dev nD) : S512x128.Idx → EReal := (dat0 (F := Ideal) V c).arrAt 2 cfg0.N
/-- The column sums' array after the region, as an array of extended reals. -/
abbrev colOut0 (c : Dev nD) : S512x8.Idx → EReal := (dat0 (F := Ideal) V c).arrAt 3 cfg0.N

/-- THE AGGREGATE after the first pass: `(Aᵀ x)(a, k) = Σ_n A(n,a) · x(n,k)` over all 50000 rows. -/
theorem val0_agg (c : Dev nD) (a : Fin 512) (k : Fin 128) :
    aggOut0 V c (ix2 a k) = ∑ n : Fin 50000, adj0 V c (ix2 n a) * feat0 V c (ix2 n k) := by
  refine (congrFun (final0_2 V c) (ix2 a k)).trans ?_
  refine (agg_inv V c a k 24 tLast0.isLt).trans ?_
  refine ((AnchorGcn.sum_fin_blocks (fun i => adjN V c i a * featN V c i k) 25 2000).symm).trans ?_
  exact Finset.sum_congr rfl fun n _ => congrArg₂ (· * ·) (adjN_val V c n a) (featN_val V c n k)

/-- THE COLUMN SUMS after the first pass: `Σ_n A(n,a)` over all 50000 rows, in each of the 8 columns. -/
theorem val0_col (c : Dev nD) (a : Fin 512) (j : Fin 8) :
    colOut0 V c (ix2 a j) = ∑ n : Fin 50000, adj0 V c (ix2 n a) := by
  refine (congrFun (final0_3 V c) (ix2 a j)).trans ?_
  refine (col_inv V c a j 24 tLast0.isLt).trans ?_
  refine ((AnchorGcn.sum_fin_blocks (fun i => adjN V c i a) 25 2000).symm).trans ?_
  exact Finset.sum_congr rfl fun n _ => adjN_val V c n a

end Final

end Cert.KernelIdeal.Hand

end
-- ==== Proof.Val1Pieces.lean ====
/-
  The first hidden layer's pass, read back as values (I): what each of the body's two control cases
  leaves in the output accumulator and in the scratch, as the body's arithmetic on whole blocks, and
  what each input window's block holds at an index — the aggregate, the column sums, the weights and
  the bias are whole arrays at every block; block t of the adjacency is its rows 2000 t … 2000 t + 1999.
  For any float values.
-/
import proofs.«182234_g5308579578416_cont_8to1_c_894_2_alg».proof.Proof.Reg1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]

/-! ### What each control case leaves, as the body's arithmetic on whole blocks -/

theorem hzero1 : (![0, 0] : Fin 2 → Nat) = fun _ => 0 := funext fun a => by fin_cases a <;> rfl

/-- Column 0 of the [512,8] block of column sums, as a [512,1] block. -/
def col0_1 (x2 : Vec F S512x8 .f32) : Vec F S512x1 .f32 :=
  View.ld x2 (Rect.unit ![0, 0] S512x1.size inb_S512x8_S512x1_0_0)

/-- The first block leaves the anchor-space weights in the scratch. -/
theorem out1_A_snd (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i) (x1 : Vec F S512x128 .f32) (x2 : Vec F S512x8 .f32) (x3 : Vec F S128x128 .f32) (x4 : Vec F S1x128 .f32) (x5 : Vec F S2000x512 .f32) :
    (out1_A c i arg1 harg1 arg2 harg2 arg3 harg3 arg4 harg4 arg5 harg5 arg6 harg6 arg7 harg7 hc0 x1 x2 x3 x4 x5).2 = k1_pay1 (col0_1 x2) x1 x3 := by
  unfold out1_A
  dsimp only
  rw [View.read_writes_eq_canon _ _ _ (scover1_A c i arg1 harg1 arg2 harg2 arg3 harg3 arg4 harg4 arg5 harg5 arg6 harg6 arg7 harg7 hc0 x1 x2 x3 x4 x5)]
  unfold kernelRun1_A
  dsimp only
  sl_unfold_words
  rw [View.canon_unit_zero (S := S512x128) hzero1]
  simp only [View.readAt_eq_ld, harg1.read_unread, harg2.read_unread, harg3.read_unread,
    View.ld_unit_zero (S := S512x128) hzero1, View.ld_unit_zero (S := S128x128) hzero1]
  rfl

/-- The first block leaves in the accumulator its own step from the cleared accumulator. -/
theorem out1_A_fst (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond1 i) (x1 : Vec F S512x128 .f32) (x2 : Vec F S512x8 .f32) (x3 : Vec F S128x128 .f32) (x4 : Vec F S1x128 .f32) (x5 : Vec F S2000x512 .f32) :
    (out1_A c i arg1 harg1 arg2 harg2 arg3 harg3 arg4 harg4 arg5 harg5 arg6 harg6 arg7 harg7 hc0 x1 x2 x3 x4 x5).1 = k1_pay3 x5 (k1_pay1 (col0_1 x2) x1 x3) x4 k1_pay2 := by
  unfold out1_A
  dsimp only
  rw [View.read_writes_eq_canon _ _ _ (cover1_A_6 c i arg1 harg1 arg2 harg2 arg3 harg3 arg4 harg4 arg5 harg5 arg6 harg6 arg7 harg7 hc0 x1 x2 x3 x4 x5)]
  unfold kernelRun1_A
  dsimp only
  sl_unfold_words
  rw [View.canon_cons_unit_zero (S := S512x128) hzero1, View.readCov_unit_zero (S := S512x128) _ hzero1,
    View.readCov_unit_zero (S := S512x128) _ hzero1]
  simp only [View.readAt_eq_ld, harg1.read_unread, harg2.read_unread, harg3.read_unread, harg4.read_unread, harg5.read_unread,
    View.ld_unit_zero (S := S512x128) hzero1, View.ld_unit_zero (S := S128x128) hzero1, View.ld_unit_zero (S := S1x128) hzero1,
    View.ld_unit_zero (S := S2000x512) hzero1]
  rfl

/-- A later block adds its step to what the block before left; the scratch is read, not written. -/
theorem out1_B_fst (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond1 i) (x1 : Vec F S512x128 .f32) (x2 : Vec F S512x8 .f32) (x3 : Vec F S128x128 .f32) (x4 : Vec F S1x128 .f32) (x5 : Vec F S2000x512 .f32) (p : Vec F S512x128 .f32 × Vec F S512x128 .f32) :
    (out1_B c i arg1 harg1 arg2 harg2 arg3 harg3 arg4 harg4 arg5 harg5 arg6 harg6 arg7 harg7 hc0 x1 x2 x3 x4 x5 p).1 = k1_pay3 x5 p.2 x4 p.1 := by
  unfold out1_B
  dsimp only
  rw [View.read_writes_eq_canon _ _ _ (cover1_B_6 c i arg1 harg1 arg2 harg2 arg3 harg3 arg4 harg4 arg5 harg5 arg6 harg6 arg7 harg7 hc0 x1 x2 x3 x4 x5 p.1 p.2)]
  unfold kernelRun1_B
  dsimp only
  sl_unfold_words
  rw [View.canon_unit_zero (S := S512x128) hzero1]
  simp only [View.readAt_eq_ld, harg4.read_unread, harg5.read_unread, harg6.read_unread, harg7.read_unread,
    View.ld_unit_zero (S := S512x128) hzero1, View.ld_unit_zero (S := S1x128) hzero1, View.ld_unit_zero (S := S2000x512) hzero1]

theorem out1_B_snd (c : Dev nD) (i : grid1.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond1 i) (x1 : Vec F S512x128 .f32) (x2 : Vec F S512x8 .f32) (x3 : Vec F S128x128 .f32) (x4 : Vec F S1x128 .f32) (x5 : Vec F S2000x512 .f32) (p : Vec F S512x128 .f32 × Vec F S512x128 .f32) :
    (out1_B c i arg1 harg1 arg2 harg2 arg3 harg3 arg4 harg4 arg5 harg5 arg6 harg6 arg7 harg7 hc0 x1 x2 x3 x4 x5 p).2 = p.2 := rfl

/-! ### The input blocks at an index -/

section Blocks

variable (V : (c : Dev nD) → (b : Ref sig .tc) → Buf (Elt F) ((c : Thread nD τ).loc b))

theorem col0_1_apply (x2 : Vec F S512x8 .f32) (a : Fin 512) : col0_1 x2 (ix2 a (0 : Fin 1)) = x2 (ix2 a (0 : Fin 8)) := by
  unfold col0_1
  show x2 _ = x2 _
  congr 1
  funext d; apply Fin.ext
  match d with
  | ⟨0, _⟩ => show 0 + 1 * a.val = a.val; omega
  | ⟨1, _⟩ => show 0 + 1 * 0 = 0; omega

theorem idx1_0 : ∀ t : Fin grid1.N, win1_0.index t 0 = 0 ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = 0 ∧ win1_2.index t 1 = 0 := by decide +kernel
theorem idx1_3 : ∀ t : Fin grid1.N, win1_3.index t 0 = 0 ∧ win1_3.index t 1 = 0 := by decide +kernel
theorem idx1_4 : ∀ t : Fin grid1.N, win1_4.index t 0 = t.val ∧ win1_4.index t 1 = 0 := by decide +kernel

/-- The aggregate's block is the whole aggregate. -/
theorem iblk1_0_apply (c : Dev nD) (t : Fin cfg1.N) (a : Fin 512) (k : Fin 128) :
    (iblk1 V c 0 t : Vec F S512x128 .f32) (ix2 a k) = V c main_call0_v0_0 (ix2 a k) := by
  unfold iblk1
  rw [View.read_apply]
  show V c main_call0_v0_0 _ = V c main_call0_v0_0 _
  congr 1
  funext d; apply Fin.ext
  match d with
  | ⟨0, _⟩ => show win1_0.index t 0 * 512 + 1 * a.val = a.val; rw [(idx1_0 t).1]; omega
  | ⟨1, _⟩ => show win1_0.index t 1 * 128 + 1 * k.val = k.val; rw [(idx1_0 t).2]; omega

/-- The column sums' block is the whole array of column sums. -/
theorem iblk1_1_apply (c : Dev nD) (t : Fin cfg1.N) (a : Fin 512) (k : Fin 8) :
    (iblk1 V c 1 t : Vec F S512x8 .f32) (ix2 a k) = V c main_call0_v0_1 (ix2 a k) := by
  unfold iblk1
  rw [View.read_apply]
  show V c main_call0_v0_1 _ = V c main_call0_v0_1 _
  congr 1
  funext d; apply Fin.ext
  match d with
  | ⟨0, _⟩ => show win1_1.index t 0 * 512 + 1 * a.val = a.val; rw [(idx1_1 t).1]; omega
  | ⟨1, _⟩ => show win1_1.index t 1 * 8 + 1 * k.val = k.val; rw [(idx1_1 t).2]; omega

/-- The weights' block is the whole weight matrix. -/
theorem iblk1_2_apply (c : Dev nD) (t : Fin cfg1.N) (k : Fin 128) (f : Fin 128) :
    (iblk1 V c 2 t : Vec F S128x128 .f32) (ix2 k f) = V c main_arg2 (ix2 k f) := by
  unfold iblk1
  rw [View.read_apply]
  show V c main_arg2 _ = V c main_arg2 _
  congr 1
  funext d; apply Fin.ext
  match d with
  | ⟨0, _⟩ => show win1_2.index t 0 * 128 + 1 * k.val = k.val; rw [(idx1_2 t).1]; omega
  | ⟨1, _⟩ => show win1_2.index t 1 * 128 + 1 * f.val = f.val; rw [(idx1_2 t).2]; omega

/-- The bias' block is the whole bias row. -/
theorem iblk1_3_apply (c : Dev nD) (t : Fin cfg1.N) (z : Fin 1) (f : Fin 128) :
    (iblk1 V c 3 t : Vec F S1x128 .f32) (ix2 z f) = V c main_call0_v1 (ix2 z f) := by
  unfold iblk1
  rw [View.read_apply]
  show V c main_call0_v1 _ = V c main_call0_v1 _
  congr 1
  funext d; apply Fin.ext
  match d with
  | ⟨0, _⟩ => show win1_3.index t 0 * 1 + 1 * z.val = z.val; rw [(idx1_3 t).1]; omega
  | ⟨1, _⟩ => show win1_3.index t 1 * 128 + 1 * f.val = f.val; rw [(idx1_3 t).2]; omega

/-- Block `t` of the adjacency is its rows `2000 t … 2000 t + 1999`. -/
theorem iblk1_4_apply (c : Dev nD) (t : Fin cfg1.N) (r : Fin 2000) (a' : Fin 512) (hb : 2000 * t.val + r.val < 50000) :
    (iblk1 V c 4 t : Vec F S2000x512 .f32) (ix2 r a') = V c main_arg1 (ix2 (⟨2000 * t.val + r.val, hb⟩ : Fin 50000) a') := by
  unfold iblk1
  rw [View.read_apply]
  show V c main_arg1 _ = V c main_arg1 _
  congr 1
  funext d; apply Fin.ext
  match d with
  | ⟨0, _⟩ => show win1_4.index t 0 * 2000 + 1 * r.val = 2000 * t.val + r.val; rw [(idx1_4 t).1]; omega
  | ⟨1, _⟩ => show win1_4.index t 1 * 512 + 1 * a'.val = a'.val; rw [(idx1_4 t).2]; omega

end Blocks

end Cert.KernelIdeal.Hand

end
-- ==== Proof.PayMid.lean ====
/-
  The second and third kernels' stored values (layers 1 and 2; the two kernels are one text), read
  entry by entry.

  On its first block the kernel turns the anchor-space features `t` [512,128] of the previous pass
  into `v = (t / max col eps) W` and clears the accumulator of the next layer. On every block of 2000
  rows of the node-by-anchor matrix `A` it forms the layer's output rows
  `h(r,f) = max (Σ_a A(r,a) v(a,f) / max (Σ_a A(r,a)) eps + b(f)) 0` and adds `Aᵀ h` of the block to
  the next layer's accumulator. Every sum is a finite sum in the extended reals, every quotient
  `Ideal.div`.
-/
import proofs.«182234_g5308579578416_cont_8to1_c_894_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«182234_g5308579578416_cont_8to1_c_894_2_alg».proof.Proof.PayIn

noncomputable section

namespace Cert.KernelIdeal.PayValue

open Idealize.ShloMosaic ValueIdx Cert.KernelIdeal Cert.KernelIdeal.Gen

theorem dotW128_lhs_c (j : S512x128.Idx) (q : dot_S512x128_S128x128_S512x128_1_0_0_1_n_n.contr.Idx) :
    (dot_S512x128_S128x128_S512x128_1_0_0_1_n_n.lhsIdx j q 1).val = (q ⟨0, by decide⟩).val :=
  dot_S512x128_S128x128_S512x128_1_0_0_1_n_n.lhsIdx_val_of_single rfl j q
theorem dotW128_lhs_n (j : S512x128.Idx) (q : dot_S512x128_S128x128_S512x128_1_0_0_1_n_n.contr.Idx) :
    (dot_S512x128_S128x128_S512x128_1_0_0_1_n_n.lhsIdx j q 0).val = (j 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem dotW128_rhs_c (j : S512x128.Idx) (q : dot_S512x128_S128x128_S512x128_1_0_0_1_n_n.contr.Idx) :
    (dot_S512x128_S128x128_S512x128_1_0_0_1_n_n.rhsIdx j q 0).val = (q ⟨0, by decide⟩).val :=
  dot_S512x128_S128x128_S512x128_1_0_0_1_n_n.rhsIdx_val_of_single rfl j q
theorem dotW128_rhs_n (j : S512x128.Idx) (q : dot_S512x128_S128x128_S512x128_1_0_0_1_n_n.contr.Idx) :
    (dot_S512x128_S128x128_S512x128_1_0_0_1_n_n.rhsIdx j q 1).val = (j 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- `l r` into the zero accumulator, for a [512,128] and a [128,128] factor: at `(p, q)` the sum over `n` of `l(p,n) · r(n,q)`. -/
theorem matmulW128_apply (l : FVec Ideal S512x128 .f32) (r : FVec Ideal S128x128 .f32) (p : Fin 512) (q : Fin 128) :
    matmul dot_S512x128_S128x128_S512x128_1_0_0_1_n_n none l r (constant S512x128 .f32 0x00000000#32) (ix2 p q)
      = ∑ n : Fin 128, l (ix2 p n) * r (ix2 n q) := by
  refine (Ideal.matmul_constant_zero_apply dot_S512x128_S128x128_S512x128_1_0_0_1_n_n none l r (ix2 p q)).trans ?_
  rw [← Equiv.sum_comp (contrEquiv1 dot_S512x128_S128x128_S512x128_1_0_0_1_n_n 128 rfl rfl).symm]
  refine Finset.sum_congr rfl fun n _ => ?_
  have hk := contrEquiv1_symm_val dot_S512x128_S128x128_S512x128_1_0_0_1_n_n 128 rfl rfl n
  have el : dot_S512x128_S128x128_S512x128_1_0_0_1_n_n.lhsIdx (ix2 p q) ((contrEquiv1 dot_S512x128_S128x128_S512x128_1_0_0_1_n_n 128 rfl rfl).symm n) = ix2 p n := funext fun x => Fin.ext (by
    match x with
    | ⟨0, _⟩ => exact dotW128_lhs_n _ _
    | ⟨1, _⟩ => exact (dotW128_lhs_c _ _).trans hk)
  have er : dot_S512x128_S128x128_S512x128_1_0_0_1_n_n.rhsIdx (ix2 p q) ((contrEquiv1 dot_S512x128_S128x128_S512x128_1_0_0_1_n_n 128 rfl rfl).symm n) = ix2 n q := funext fun x => Fin.ext (by
    match x with
    | ⟨0, _⟩ => exact (dotW128_rhs_c _ _).trans hk
    | ⟨1, _⟩ => exact dotW128_rhs_n _ _)
  rw [el, er]

theorem dotA128_lhs_c (j : S2000x128.Idx) (q : dot_S2000x512_S512x128_S2000x128_1_0_0_1_n_n.contr.Idx) :
    (dot_S2000x512_S512x128_S2000x128_1_0_0_1_n_n.lhsIdx j q 1).val = (q ⟨0, by decide⟩).val :=
  dot_S2000x512_S512x128_S2000x128_1_0_0_1_n_n.lhsIdx_val_of_single rfl j q
theorem dotA128_lhs_n (j : S2000x128.Idx) (q : dot_S2000x512_S512x128_S2000x128_1_0_0_1_n_n.contr.Idx) :
    (dot_S2000x512_S512x128_S2000x128_1_0_0_1_n_n.lhsIdx j q 0).val = (j 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem dotA128_rhs_c (j : S2000x128.Idx) (q : dot_S2000x512_S512x128_S2000x128_1_0_0_1_n_n.contr.Idx) :
    (dot_S2000x512_S512x128_S2000x128_1_0_0_1_n_n.rhsIdx j q 0).val = (q ⟨0, by decide⟩).val :=
  dot_S2000x512_S512x128_S2000x128_1_0_0_1_n_n.rhsIdx_val_of_single rfl j q
theorem dotA128_rhs_n (j : S2000x128.Idx) (q : dot_S2000x512_S512x128_S2000x128_1_0_0_1_n_n.contr.Idx) :
    (dot_S2000x512_S512x128_S2000x128_1_0_0_1_n_n.rhsIdx j q 1).val = (j 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- `l r` into the zero accumulator, for a [2000,512] and a [512,128] factor: at `(p, q)` the sum over `n` of `l(p,n) · r(n,q)`. -/
theorem matmulA128_apply (l : FVec Ideal S2000x512 .f32) (r : FVec Ideal S512x128 .f32) (p : Fin 2000) (q : Fin 128) :
    matmul dot_S2000x512_S512x128_S2000x128_1_0_0_1_n_n none l r (constant S2000x128 .f32 0x00000000#32) (ix2 p q)
      = ∑ n : Fin 512, l (ix2 p n) * r (ix2 n q) := by
  refine (Ideal.matmul_constant_zero_apply dot_S2000x512_S512x128_S2000x128_1_0_0_1_n_n none l r (ix2 p q)).trans ?_
  rw [← Equiv.sum_comp (contrEquiv1 dot_S2000x512_S512x128_S2000x128_1_0_0_1_n_n 512 rfl rfl).symm]
  refine Finset.sum_congr rfl fun n _ => ?_
  have hk := contrEquiv1_symm_val dot_S2000x512_S512x128_S2000x128_1_0_0_1_n_n 512 rfl rfl n
  have el : dot_S2000x512_S512x128_S2000x128_1_0_0_1_n_n.lhsIdx (ix2 p q) ((contrEquiv1 dot_S2000x512_S512x128_S2000x128_1_0_0_1_n_n 512 rfl rfl).symm n) = ix2 p n := funext fun x => Fin.ext (by
    match x with
    | ⟨0, _⟩ => exact dotA128_lhs_n _ _
    | ⟨1, _⟩ => exact (dotA128_lhs_c _ _).trans hk)
  have er : dot_S2000x512_S512x128_S2000x128_1_0_0_1_n_n.rhsIdx (ix2 p q) ((contrEquiv1 dot_S2000x512_S512x128_S2000x128_1_0_0_1_n_n 512 rfl rfl).symm n) = ix2 n q := funext fun x => Fin.ext (by
    match x with
    | ⟨0, _⟩ => exact (dotA128_rhs_c _ _).trans hk
    | ⟨1, _⟩ => exact dotA128_rhs_n _ _)
  rw [el, er]

/-- The anchor-space rows scaled by the floored column sums, times the weights: `Σ_k (t(a,k) / max col(a) eps) · W(k,f)`. -/
theorem k1_pay1_apply (v23 : Vec Ideal S512x1 .f32) (v27 : Vec Ideal S512x128 .f32) (v31 : Vec Ideal S128x128 .f32) (a : Fin 512) (f : Fin 128) :
    k1_pay1 v23 v27 v31 (ix2 a f) = ∑ k : Fin 128, Ideal.div (v27 (ix2 a k)) (max (v23 (ix2 a (0 : Fin 1))) (Ideal.ofBits .f32 0x2B8CBCCC#32)) * v31 (ix2 k f) := by
  unfold k1_pay1
  refine (congrFun (shapeCast_self _ _) _).trans ?_
  refine (matmulW128_apply _ v31 a f).trans ?_
  refine Finset.sum_congr rfl fun k _ => congrArg (· * v31 (ix2 k f)) ?_
  refine (divf_apply _ _ _).trans ?_
  refine congrArg₂ Ideal.div ?_ ?_
  · exact congrFun (shapeCast_self v27 _) _
  · refine (broadcastTo_a1_ab_apply _ _ a k).trans ?_
    refine (maximumf_apply _ _ _).trans ?_
    refine congrArg₂ max ?_ rfl
    exact congrFun (shapeCast_self v23 _) _

/-- The cleared accumulator of the next layer is zero everywhere. -/
theorem k1_pay2_apply (a : Fin 512) (f : Fin 128) : k1_pay2 (F := Ideal) (ix2 a f) = 0 :=
  Ideal.ofBits_zero_f32

/-- One block's step of the next layer's anchor-space accumulator: the block's rows of the layer's output,
    `max (Σ_a' A(r,a') · v(a',f) / max (Σ_a' A(r,a')) eps + b(f)) 0`, aggregated back to the anchors and added to `t(a,f)`. -/
theorem k1_pay3_apply (v3 : Vec Ideal S2000x512 .f32) (v8 : Vec Ideal S512x128 .f32) (v12 : Vec Ideal S1x128 .f32) (v18 : Vec Ideal S512x128 .f32) (a : Fin 512) (f : Fin 128) :
    k1_pay3 v3 v8 v12 v18 (ix2 a f) = v18 (ix2 a f) + ∑ r : Fin 2000, v3 (ix2 r a) *
        max (Ideal.div (∑ a' : Fin 512, v3 (ix2 r a') * v8 (ix2 a' f)) (max (∑ a' : Fin 512, v3 (ix2 r a')) (Ideal.ofBits .f32 0x2B8CBCCC#32)) + v12 (ix2 (0 : Fin 1) f)) 0 := by
  unfold k1_pay3
  refine (addf_apply _ _ _).trans ?_
  refine congrArg₂ (· + ·) ?_ ?_
  · exact congrFun (shapeCast_self v18 _) _
  · refine (matmulT128_apply v3 _ a f).trans ?_
    refine Finset.sum_congr rfl fun r _ => congrArg (v3 (ix2 r a) * ·) ?_
    refine (maximumf_apply _ _ _).trans ?_
    refine congrArg₂ max ?_ Ideal.ofBits_zero_f32
    refine (addf_apply _ _ _).trans ?_
    refine congrArg₂ (· + ·) ?_ ?_
    · refine (divf_apply _ _ _).trans ?_
      refine congrArg₂ Ideal.div ?_ ?_
      · exact matmulA128_apply v3 v8 r f
      · refine (broadcastTo_a1_ab_apply _ _ r f).trans ?_
        refine (maximumf_apply _ _ _).trans ?_
        refine congrArg₂ max ?_ rfl
        refine (shapeCast_a_a1_apply _ _ r (0 : Fin 1)).trans ?_
        exact rowSum_apply v3 _ _ r
    · refine (broadcastTo_1b_ab_apply _ _ r f).trans ?_
      exact congrFun (shapeCast_self v12 _) _

/-- The same reading for the second copy of the kernel. -/
theorem k2_pay1_apply (v23 : Vec Ideal S512x1 .f32) (v27 : Vec Ideal S512x128 .f32) (v31 : Vec Ideal S128x128 .f32) (a : Fin 512) (f : Fin 128) :
    k2_pay1 v23 v27 v31 (ix2 a f) = ∑ k : Fin 128, Ideal.div (v27 (ix2 a k)) (max (v23 (ix2 a (0 : Fin 1))) (Ideal.ofBits .f32 0x2B8CBCCC#32)) * v31 (ix2 k f) := by
  unfold k2_pay1
  refine (congrFun (shapeCast_self _ _) _).trans ?_
  refine (matmulW128_apply _ v31 a f).trans ?_
  refine Finset.sum_congr rfl fun k _ => congrArg (· * v31 (ix2 k f)) ?_
  refine (divf_apply _ _ _).trans ?_
  refine congrArg₂ Ideal.div ?_ ?_
  · exact congrFun (shapeCast_self v27 _) _
  · refine (broadcastTo_a1_ab_apply _ _ a k).trans ?_
    refine (maximumf_apply _ _ _).trans ?_
    refine congrArg₂ max ?_ rfl
    exact congrFun (shapeCast_self v23 _) _

/-- The cleared accumulator of the next layer is zero everywhere. -/
theorem k2_pay2_apply (a : Fin 512) (f : Fin 128) : k2_pay2 (F := Ideal) (ix2 a f) = 0 :=
  Ideal.ofBits_zero_f32

/-- One block's step of the next layer's anchor-space accumulator: the block's rows of the layer's output,
    `max (Σ_a' A(r,a') · v(a',f) / max (Σ_a' A(r,a')) eps + b(f)) 0`, aggregated back to the anchors and added to `t(a,f)`. -/
theorem k2_pay3_apply (v3 : Vec Ideal S2000x512 .f32) (v8 : Vec Ideal S512x128 .f32) (v12 : Vec Ideal S1x128 .f32) (v18 : Vec Ideal S512x128 .f32) (a : Fin 512) (f : Fin 128) :
    k2_pay3 v3 v8 v12 v18 (ix2 a f) = v18 (ix2 a f) + ∑ r : Fin 2000, v3 (ix2 r a) *
        max (Ideal.div (∑ a' : Fin 512, v3 (ix2 r a') * v8 (ix2 a' f)) (max (∑ a' : Fin 512, v3 (ix2 r a')) (Ideal.ofBits .f32 0x2B8CBCCC#32)) + v12 (ix2 (0 : Fin 1) f)) 0 := by
  unfold k2_pay3
  refine (addf_apply _ _ _).trans ?_
  refine congrArg₂ (· + ·) ?_ ?_
  · exact congrFun (shapeCast_self v18 _) _
  · refine (matmulT128_apply v3 _ a f).trans ?_
    refine Finset.sum_congr rfl fun r _ => congrArg (v3 (ix2 r a) * ·) ?_
    refine (maximumf_apply _ _ _).trans ?_
    refine congrArg₂ max ?_ Ideal.ofBits_zero_f32
    refine (addf_apply _ _ _).trans ?_
    refine congrArg₂ (· + ·) ?_ ?_
    · refine (divf_apply _ _ _).trans ?_
      refine congrArg₂ Ideal.div ?_ ?_
      · exact matmulA128_apply v3 v8 r f
      · refine (broadcastTo_a1_ab_apply _ _ r f).trans ?_
        refine (maximumf_apply _ _ _).trans ?_
        refine congrArg₂ max ?_ rfl
        refine (shapeCast_a_a1_apply _ _ r (0 : Fin 1)).trans ?_
        exact rowSum_apply v3 _ _ r
    · refine (broadcastTo_1b_ab_apply _ _ r f).trans ?_
      exact congrFun (shapeCast_self v12 _) _

end Cert.KernelIdeal.PayValue

end
-- ==== Proof.Val1.lean ====
/-
  The first hidden layer's pass, read back as values (II), over the extended reals: the scratch holds
  the anchor-space weights v = (t / max col eps) W after every block; after block n the accumulator
  holds the contributions A(j, a) · max (Σ_a' A(j, a') v(a', f) / max (Σ_a' A(j, a')) eps + b(f)) 0 of
  the first 2000 (n + 1) rows j (by induction on the block; addition in the extended reals is a
  commutative monoid, so no finiteness is needed); the output array is written back once, whole, after
  the last block, so it ends holding the sum over all 50000 rows.
-/
import proofs.«182234_g5308579578416_cont_8to1_c_894_2_alg».proof.Proof.Val1Pieces
import proofs.«182234_g5308579578416_cont_8to1_c_894_2_alg».proof.Proof.PayMid
import proofs.«182234_g5308579578416_cont_8to1_c_894_2_alg».proof.Proof.EpsLiteral
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]

-- products, sums and equations of entries read off the buffers, with the type `EReal` named (an entry's own type is the buffer's element type, which unfolds to it)
local notation:70 x:70 " ⬝ " y:71 => @HMul.hMul EReal EReal EReal instHMul x y
local notation:65 x:65 " ⊞ " y:66 => @HAdd.hAdd EReal EReal EReal instHAdd x y
local notation:50 x:51 " =ₑ " y:51 => @Eq EReal x y

/-! ### The values, over the extended reals -/

section Value

variable (V : (c : Dev nD) → (b : Ref sig .tc) → Buf (Elt Ideal) ((c : Thread nD τ).loc b))

/-- The first point of the pass. -/
abbrev t1_0 : Fin cfg1.N := ⟨0, by rw [show cfg1.N = 25 from N_1]; decide⟩

/-- The anchor-space weights `v(a', f) = Σ_k (t(a', k) / max col(a') eps) · W(k, f)`. -/
def vAt1 (c : Dev nD) (a' : Fin 512) (f : Fin 128) : EReal :=
  ∑ k : Fin 128, Ideal.div (V c main_call0_v0_0 (ix2 a' k)) (max (V c main_call0_v0_1 (ix2 a' (0 : Fin 8))) (Ideal.ofBits .f32 0x2B8CBCCC#32)) ⬝ V c main_arg2 (ix2 k f)

/-- Row `n`'s contribution to the next aggregate at `(a, f)`: `A(n, a) · max (Σ_a' A(n, a') v(a', f) / max (Σ_a' A(n, a')) eps + b(f)) 0`. -/
def term1 (c : Dev nD) (a : Fin 512) (f : Fin 128) (n : Fin 50000) : EReal :=
  V c main_arg1 (ix2 n a) ⬝
    max (Ideal.div (∑ a' : Fin 512, V c main_arg1 (ix2 n a') ⬝ vAt1 V c a' f)
            (max (∑ a' : Fin 512, V c main_arg1 (ix2 n a')) (Ideal.ofBits .f32 0x2B8CBCCC#32))
          ⊞ V c main_call0_v1 (ix2 (0 : Fin 1) f)) 0

/-- The same over the naturals, zero past the last row. -/
def termN1 (c : Dev nD) (a : Fin 512) (f : Fin 128) (j : ℕ) : EReal :=
  if h : j < 50000 then term1 V c a f ⟨j, h⟩ else 0

/-- What the scratch holds from the first block on. -/
def vv1 (c : Dev nD) : Vec Ideal S512x128 .f32 :=
  k1_pay1 (col0_1 (iblk1 V c 1 t1_0)) (iblk1 V c 0 t1_0) (iblk1 V c 2 t1_0)

theorem vv1_apply (c : Dev nD) (a' : Fin 512) (f : Fin 128) : vv1 V c (ix2 a' f) = vAt1 V c a' f := by
  unfold vv1 vAt1
  refine (PayValue.k1_pay1_apply _ _ _ a' f).trans ?_
  refine Finset.sum_congr rfl fun k _ => ?_
  exact congrArg₂ (· * ·)
    (congrArg₂ Ideal.div (iblk1_0_apply V c t1_0 a' k)
      (congrArg (max · (Ideal.ofBits .f32 0x2B8CBCCC#32)) ((col0_1_apply _ a').trans (iblk1_1_apply V c t1_0 a' 0))))
    (iblk1_2_apply V c t1_0 k f)

/-- The scratch holds the anchor-space weights after every block. -/
theorem outsAt1_snd (c : Dev nD) : ∀ (n : ℕ) (hn : n < cfg1.N), (outsAt1 V c n hn).2 = vv1 V c
  | 0, hn => (congrArg Prod.snd (outsAt1_A V c ⟨0, hn⟩ rfl)).trans
      (out1_A_snd c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) _ (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn => (congrArg Prod.snd (outsAt1_B V c ⟨n + 1, hn⟩ (Nat.succ_ne_zero n))).trans (outsAt1_snd c n _)

/-- One block's step: the accumulator gains the block's 2000 rows' contributions. -/
theorem step1 (c : Dev nD) (t : Fin cfg1.N) (acc : Vec Ideal S512x128 .f32) (a : Fin 512) (f : Fin 128) :
    k1_pay3 (iblk1 V c 4 t) (vv1 V c) (iblk1 V c 3 t) acc (ix2 a f)
      = acc (ix2 a f) + ∑ r ∈ Finset.range 2000, termN1 V c a f (2000 * t.val + r) := by
  have hN : t.val < 25 := lt_of_lt_of_eq t.isLt (show cfg1.N = 25 from N_1)
  refine (PayValue.k1_pay3_apply _ _ _ _ a f).trans ?_
  refine congrArg (acc (ix2 a f) + ·) ?_
  rw [Finset.sum_range]
  refine Finset.sum_congr rfl fun r _ => ?_
  have hb : 2000 * t.val + r.val < 50000 := by have := r.isLt; omega
  rw [termN1, dif_pos hb, term1]
  have hA : ∀ a' : Fin 512, (iblk1 V c 4 t : Vec Ideal S2000x512 .f32) (ix2 r a') = V c main_arg1 (ix2 (⟨2000 * t.val + r.val, hb⟩ : Fin 50000) a') :=
    fun a' => iblk1_4_apply V c t r a' hb
  exact congrArg₂ (· * ·) (hA a) (congrArg (max · 0) (congrArg₂ (· + ·)
    (congrArg₂ Ideal.div (Finset.sum_congr rfl fun a' _ => congrArg₂ (· * ·) (hA a') (vv1_apply V c a' f))
      (congrArg (max · (Ideal.ofBits .f32 0x2B8CBCCC#32)) (Finset.sum_congr rfl fun a' _ => hA a')))
    (iblk1_3_apply V c t 0 f)))

end Value

section Value2

variable (V : (c : Dev nD) → (b : Ref sig .tc) → Buf (Elt Ideal) ((c : Thread nD τ).loc b))

/-- After block `n` the accumulator holds the contributions of the first `2000 (n + 1)` rows. -/
theorem outsAt1_fst (c : Dev nD) (a : Fin 512) (f : Fin 128) :
    ∀ (n : ℕ) (hn : n < cfg1.N), (outsAt1 V c n hn).1 (ix2 a f) = ∑ j ∈ Finset.range (2000 * (n + 1)), termN1 V c a f j
  | 0, hn => by
    refine (congrFun ((congrArg Prod.fst (outsAt1_A V c ⟨0, hn⟩ rfl)).trans
      (out1_A_fst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) _ (iblk1 V c 0 ⟨0, hn⟩) (iblk1 V c 1 ⟨0, hn⟩) (iblk1 V c 2 ⟨0, hn⟩) (iblk1 V c 3 ⟨0, hn⟩) (iblk1 V c 4 ⟨0, hn⟩))) (ix2 a f)).trans ?_
    refine (step1 V c ⟨0, hn⟩ (k1_pay2 (F := Ideal)) a f).trans ?_
    rw [PayValue.k1_pay2_apply, zero_add]
    simp only [Nat.mul_zero, Nat.zero_add, Nat.mul_one]
  | n + 1, hn => by
    refine (congrFun ((congrArg Prod.fst (outsAt1_B V c ⟨n + 1, hn⟩ (Nat.succ_ne_zero n))).trans
      (out1_B_fst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) _ (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 V c n (Nat.lt_of_succ_lt hn)))) (ix2 a f)).trans ?_
    rw [outsAt1_snd V c n]
    refine (step1 V c ⟨n + 1, hn⟩ _ a f).trans ?_
    rw [outsAt1_fst c a f n, show 2000 * (n + 1 + 1) = 2000 * (n + 1) + 2000 by ring, Finset.sum_range_add]

/-- The last point of the pass. -/
abbrev t1_24 : Fin cfg1.N := ⟨24, by rw [show cfg1.N = 25 from N_1]; decide⟩

/-- What the accumulator holds after the last block, as contents of the output array. -/
def result1 (c : Dev nD) : Buf (Elt Ideal) ((c : Thread nD τ).loc main_call0_v2) := (outsAt1 V c 24 t1_24.isLt).1

/-- The one write-back, at the last point, writes it: the block is the whole array. -/
theorem flushed_eq1 (c : Dev nD) (t : Fin cfg1.N) (hf : (cfg1.win 5).flush t = true) :
    (dat1 V c).flushed 5 t = ((cfg1.win 5).blk t).view.read (Elt Ideal) (result1 V c) := by
  have hN : cfg1.N = 25 := N_1
  have h24 : t.val = 24 := by have := (flush1_5 t).mp hf; have := t.isLt; omega
  obtain rfl : t = t1_24 := Fin.ext h24
  show (cfg1.win 5).cut (grid1.coords t1_24) ((dat1 V c).after 5 t1_24) = _
  rw [after1_5]
  have hz' : (fun a => win1_5.index t1_24 a * main_call0_v2.ty.shape.size a) = fun _ => 0 := funext fun a => by fin_cases a <;> decide
  exact (Memref.read_access_unit_zero (Elt Ideal) main_call0_v2 hz' (fun a => by rw [congrFun hz' a]; simp) (result1 V c)).symm

/-- So the output array ends holding what the last block left. -/
theorem final1 (c : Dev nD) : (dat1 V c).arrAt 5 cfg1.N = result1 V c :=
  (dat1 V c).arrAt_eq_of_cover 5 (result1 V c) (flushed_eq1 V c) fun i =>
    ⟨t1_24, (flush1_5 t1_24).mpr rfl, by
      show i ∈ ((View.whole main_call0_v2).slice (win1_5.rect t1_24)).set
      rw [View.set_slice_whole, Rect.mem_set_unit]
      intro a
      have h0 : (i 0 : Nat) < 512 := (i 0).isLt
      have h1 : (i 1 : Nat) < 128 := (i 1).isLt
      match a with
      | ⟨0, _⟩ => show win1_5.index t1_24 0 * win1_5.size 0 ≤ (i 0 : Nat) ∧ (i 0 : Nat) < win1_5.index t1_24 0 * win1_5.size 0 + win1_5.xsize (grid1.coords t1_24) 0
                  rw [show win1_5.index t1_24 0 * win1_5.size 0 = 0 from by decide +kernel, show win1_5.xsize (grid1.coords t1_24) 0 = 512 from by decide +kernel]; omega
      | ⟨1, _⟩ => show win1_5.index t1_24 1 * win1_5.size 1 ≤ (i 1 : Nat) ∧ (i 1 : Nat) < win1_5.index t1_24 1 * win1_5.size 1 + win1_5.xsize (grid1.coords t1_24) 1
                  rw [show win1_5.index t1_24 1 * win1_5.size 1 = 0 from by decide +kernel, show win1_5.xsize (grid1.coords t1_24) 1 = 128 from by decide +kernel]; omega⟩

/-- THE VALUE OF THE PASS: the next layer's anchor-space aggregate, entry by entry. -/
theorem val1_agg (c : Dev nD) (a : Fin 512) (f : Fin 128) :
    (dat1 (F := Ideal) V c).arrAt 5 cfg1.N (ix2 a f)
      =ₑ ∑ n : Fin 50000, V c main_arg1 (ix2 n a) ⬝
          max (Ideal.div (∑ a' : Fin 512, V c main_arg1 (ix2 n a') ⬝
                  (∑ k : Fin 128, Ideal.div (V c main_call0_v0_0 (ix2 a' k)) (max (V c main_call0_v0_1 (ix2 a' (0 : Fin 8))) (Ideal.ofBits .f32 0x2B8CBCCC#32)) ⬝ V c main_arg2 (ix2 k f)))
                (max (∑ a' : Fin 512, V c main_arg1 (ix2 n a')) (Ideal.ofBits .f32 0x2B8CBCCC#32))
               ⊞ V c main_call0_v1 (ix2 (0 : Fin 1) f)) 0 := by
  refine (congrFun (final1 V c) (ix2 a f)).trans ?_
  refine (outsAt1_fst V c a f 24 t1_24.isLt).trans ?_
  rw [show 2000 * (24 + 1) = 50000 by norm_num, Finset.sum_range]
  exact Finset.sum_congr rfl fun n _ => by rw [termN1, dif_pos n.isLt]; rfl

end Value2

end Cert.KernelIdeal.Hand

end
-- ==== Proof.Val2Pieces.lean ====
/-
  The second hidden layer's pass, read back as values (I): what each of the body's two control cases
  leaves in the output accumulator and in the scratch, as the body's arithmetic on whole blocks, and
  what each input window's block holds at an index — the aggregate, the column sums, the weights and
  the bias are whole arrays at every block; block t of the adjacency is its rows 2000 t … 2000 t + 1999.
  For any float values.
-/
import proofs.«182234_g5308579578416_cont_8to1_c_894_2_alg».proof.Proof.Reg2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]

/-! ### What each control case leaves, as the body's arithmetic on whole blocks -/

theorem hzero2 : (![0, 0] : Fin 2 → Nat) = fun _ => 0 := funext fun a => by fin_cases a <;> rfl

/-- Column 0 of the [512,8] block of column sums, as a [512,1] block. -/
def col0_2 (x2 : Vec F S512x8 .f32) : Vec F S512x1 .f32 :=
  View.ld x2 (Rect.unit ![0, 0] S512x1.size inb_S512x8_S512x1_0_0)

/-- The first block leaves the anchor-space weights in the scratch. -/
theorem out2_A_snd (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i) (x1 : Vec F S512x128 .f32) (x2 : Vec F S512x8 .f32) (x3 : Vec F S128x128 .f32) (x4 : Vec F S1x128 .f32) (x5 : Vec F S2000x512 .f32) :
    (out2_A c i arg1 harg1 arg2 harg2 arg3 harg3 arg4 harg4 arg5 harg5 arg6 harg6 arg7 harg7 hc0 x1 x2 x3 x4 x5).2 = k2_pay1 (col0_2 x2) x1 x3 := by
  unfold out2_A
  dsimp only
  rw [View.read_writes_eq_canon _ _ _ (scover2_A c i arg1 harg1 arg2 harg2 arg3 harg3 arg4 harg4 arg5 harg5 arg6 harg6 arg7 harg7 hc0 x1 x2 x3 x4 x5)]
  unfold kernelRun2_A
  dsimp only
  sl_unfold_words
  rw [View.canon_unit_zero (S := S512x128) hzero2]
  simp only [View.readAt_eq_ld, harg1.read_unread, harg2.read_unread, harg3.read_unread,
    View.ld_unit_zero (S := S512x128) hzero2, View.ld_unit_zero (S := S128x128) hzero2]
  rfl

/-- The first block leaves in the accumulator its own step from the cleared accumulator. -/
theorem out2_A_fst (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : cond2 i) (x1 : Vec F S512x128 .f32) (x2 : Vec F S512x8 .f32) (x3 : Vec F S128x128 .f32) (x4 : Vec F S1x128 .f32) (x5 : Vec F S2000x512 .f32) :
    (out2_A c i arg1 harg1 arg2 harg2 arg3 harg3 arg4 harg4 arg5 harg5 arg6 harg6 arg7 harg7 hc0 x1 x2 x3 x4 x5).1 = k2_pay3 x5 (k2_pay1 (col0_2 x2) x1 x3) x4 k2_pay2 := by
  unfold out2_A
  dsimp only
  rw [View.read_writes_eq_canon _ _ _ (cover2_A_6 c i arg1 harg1 arg2 harg2 arg3 harg3 arg4 harg4 arg5 harg5 arg6 harg6 arg7 harg7 hc0 x1 x2 x3 x4 x5)]
  unfold kernelRun2_A
  dsimp only
  sl_unfold_words
  rw [View.canon_cons_unit_zero (S := S512x128) hzero2, View.readCov_unit_zero (S := S512x128) _ hzero2,
    View.readCov_unit_zero (S := S512x128) _ hzero2]
  simp only [View.readAt_eq_ld, harg1.read_unread, harg2.read_unread, harg3.read_unread, harg4.read_unread, harg5.read_unread,
    View.ld_unit_zero (S := S512x128) hzero2, View.ld_unit_zero (S := S128x128) hzero2, View.ld_unit_zero (S := S1x128) hzero2,
    View.ld_unit_zero (S := S2000x512) hzero2]
  rfl

/-- A later block adds its step to what the block before left; the scratch is read, not written. -/
theorem out2_B_fst (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond2 i) (x1 : Vec F S512x128 .f32) (x2 : Vec F S512x8 .f32) (x3 : Vec F S128x128 .f32) (x4 : Vec F S1x128 .f32) (x5 : Vec F S2000x512 .f32) (p : Vec F S512x128 .f32 × Vec F S512x128 .f32) :
    (out2_B c i arg1 harg1 arg2 harg2 arg3 harg3 arg4 harg4 arg5 harg5 arg6 harg6 arg7 harg7 hc0 x1 x2 x3 x4 x5 p).1 = k2_pay3 x5 p.2 x4 p.1 := by
  unfold out2_B
  dsimp only
  rw [View.read_writes_eq_canon _ _ _ (cover2_B_6 c i arg1 harg1 arg2 harg2 arg3 harg3 arg4 harg4 arg5 harg5 arg6 harg6 arg7 harg7 hc0 x1 x2 x3 x4 x5 p.1 p.2)]
  unfold kernelRun2_B
  dsimp only
  sl_unfold_words
  rw [View.canon_unit_zero (S := S512x128) hzero2]
  simp only [View.readAt_eq_ld, harg4.read_unread, harg5.read_unread, harg6.read_unread, harg7.read_unread,
    View.ld_unit_zero (S := S512x128) hzero2, View.ld_unit_zero (S := S1x128) hzero2, View.ld_unit_zero (S := S2000x512) hzero2]

theorem out2_B_snd (c : Dev nD) (i : grid2.Coords) (arg1 : Memref sig .tc .vmem S512x128 .f32) (harg1 : arg1.IsWhole) (arg2 : Memref sig .tc .vmem S512x8 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x512 .f32) (harg5 : arg5.IsWhole) (arg6 : Memref sig .tc .vmem S512x128 .f32) (harg6 : arg6.IsWhole)
    (arg7 : Memref sig .tc .vmem S512x128 .f32) (harg7 : arg7.IsWhole) (hc0 : ¬cond2 i) (x1 : Vec F S512x128 .f32) (x2 : Vec F S512x8 .f32) (x3 : Vec F S128x128 .f32) (x4 : Vec F S1x128 .f32) (x5 : Vec F S2000x512 .f32) (p : Vec F S512x128 .f32 × Vec F S512x128 .f32) :
    (out2_B c i arg1 harg1 arg2 harg2 arg3 harg3 arg4 harg4 arg5 harg5 arg6 harg6 arg7 harg7 hc0 x1 x2 x3 x4 x5 p).2 = p.2 := rfl

/-! ### The input blocks at an index -/

section Blocks

variable (V : (c : Dev nD) → (b : Ref sig .tc) → Buf (Elt F) ((c : Thread nD τ).loc b))

theorem col0_2_apply (x2 : Vec F S512x8 .f32) (a : Fin 512) : col0_2 x2 (ix2 a (0 : Fin 1)) = x2 (ix2 a (0 : Fin 8)) := by
  unfold col0_2
  show x2 _ = x2 _
  congr 1
  funext d; apply Fin.ext
  match d with
  | ⟨0, _⟩ => show 0 + 1 * a.val = a.val; omega
  | ⟨1, _⟩ => show 0 + 1 * 0 = 0; omega

theorem idx2_0 : ∀ t : Fin grid2.N, win2_0.index t 0 = 0 ∧ win2_0.index t 1 = 0 := by decide +kernel
theorem idx2_1 : ∀ t : Fin grid2.N, win2_1.index t 0 = 0 ∧ win2_1.index t 1 = 0 := by decide +kernel
theorem idx2_2 : ∀ t : Fin grid2.N, win2_2.index t 0 = 0 ∧ win2_2.index t 1 = 0 := by decide +kernel
theorem idx2_3 : ∀ t : Fin grid2.N, win2_3.index t 0 = 0 ∧ win2_3.index t 1 = 0 := by decide +kernel
theorem idx2_4 : ∀ t : Fin grid2.N, win2_4.index t 0 = t.val ∧ win2_4.index t 1 = 0 := by decide +kernel

/-- The aggregate's block is the whole aggregate. -/
theorem iblk2_0_apply (c : Dev nD) (t : Fin cfg2.N) (a : Fin 512) (k : Fin 128) :
    (iblk2 V c 0 t : Vec F S512x128 .f32) (ix2 a k) = V c main_call0_v2 (ix2 a k) := by
  unfold iblk2
  rw [View.read_apply]
  show V c main_call0_v2 _ = V c main_call0_v2 _
  congr 1
  funext d; apply Fin.ext
  match d with
  | ⟨0, _⟩ => show win2_0.index t 0 * 512 + 1 * a.val = a.val; rw [(idx2_0 t).1]; omega
  | ⟨1, _⟩ => show win2_0.index t 1 * 128 + 1 * k.val = k.val; rw [(idx2_0 t).2]; omega

/-- The column sums' block is the whole array of column sums. -/
theorem iblk2_1_apply (c : Dev nD) (t : Fin cfg2.N) (a : Fin 512) (k : Fin 8) :
    (iblk2 V c 1 t : Vec F S512x8 .f32) (ix2 a k) = V c main_call0_v0_1 (ix2 a k) := by
  unfold iblk2
  rw [View.read_apply]
  show V c main_call0_v0_1 _ = V c main_call0_v0_1 _
  congr 1
  funext d; apply Fin.ext
  match d with
  | ⟨0, _⟩ => show win2_1.index t 0 * 512 + 1 * a.val = a.val; rw [(idx2_1 t).1]; omega
  | ⟨1, _⟩ => show win2_1.index t 1 * 8 + 1 * k.val = k.val; rw [(idx2_1 t).2]; omega

/-- The weights' block is the whole weight matrix. -/
theorem iblk2_2_apply (c : Dev nD) (t : Fin cfg2.N) (k : Fin 128) (f : Fin 128) :
    (iblk2 V c 2 t : Vec F S128x128 .f32) (ix2 k f) = V c main_arg4 (ix2 k f) := by
  unfold iblk2
  rw [View.read_apply]
  show V c main_arg4 _ = V c main_arg4 _
  congr 1
  funext d; apply Fin.ext
  match d with
  | ⟨0, _⟩ => show win2_2.index t 0 * 128 + 1 * k.val = k.val; rw [(idx2_2 t).1]; omega
  | ⟨1, _⟩ => show win2_2.index t 1 * 128 + 1 * f.val = f.val; rw [(idx2_2 t).2]; omega

/-- The bias' block is the whole bias row. -/
theorem iblk2_3_apply (c : Dev nD) (t : Fin cfg2.N) (z : Fin 1) (f : Fin 128) :
    (iblk2 V c 3 t : Vec F S1x128 .f32) (ix2 z f) = V c main_call0_v3 (ix2 z f) := by
  unfold iblk2
  rw [View.read_apply]
  show V c main_call0_v3 _ = V c main_call0_v3 _
  congr 1
  funext d; apply Fin.ext
  match d with
  | ⟨0, _⟩ => show win2_3.index t 0 * 1 + 1 * z.val = z.val; rw [(idx2_3 t).1]; omega
  | ⟨1, _⟩ => show win2_3.index t 1 * 128 + 1 * f.val = f.val; rw [(idx2_3 t).2]; omega

/-- Block `t` of the adjacency is its rows `2000 t … 2000 t + 1999`. -/
theorem iblk2_4_apply (c : Dev nD) (t : Fin cfg2.N) (r : Fin 2000) (a' : Fin 512) (hb : 2000 * t.val + r.val < 50000) :
    (iblk2 V c 4 t : Vec F S2000x512 .f32) (ix2 r a') = V c main_arg1 (ix2 (⟨2000 * t.val + r.val, hb⟩ : Fin 50000) a') := by
  unfold iblk2
  rw [View.read_apply]
  show V c main_arg1 _ = V c main_arg1 _
  congr 1
  funext d; apply Fin.ext
  match d with
  | ⟨0, _⟩ => show win2_4.index t 0 * 2000 + 1 * r.val = 2000 * t.val + r.val; rw [(idx2_4 t).1]; omega
  | ⟨1, _⟩ => show win2_4.index t 1 * 512 + 1 * a'.val = a'.val; rw [(idx2_4 t).2]; omega

end Blocks

end Cert.KernelIdeal.Hand

end
-- ==== Proof.Val2.lean ====
/-
  The second hidden layer's pass, read back as values (II), over the extended reals: the scratch holds
  the anchor-space weights v = (t / max col eps) W after every block; after block n the accumulator
  holds the contributions A(j, a) · max (Σ_a' A(j, a') v(a', f) / max (Σ_a' A(j, a')) eps + b(f)) 0 of
  the first 2000 (n + 1) rows j (by induction on the block; addition in the extended reals is a
  commutative monoid, so no finiteness is needed); the output array is written back once, whole, after
  the last block, so it ends holding the sum over all 50000 rows.
-/
import proofs.«182234_g5308579578416_cont_8to1_c_894_2_alg».proof.Proof.Val2Pieces
import proofs.«182234_g5308579578416_cont_8to1_c_894_2_alg».proof.Proof.PayMid
import proofs.«182234_g5308579578416_cont_8to1_c_894_2_alg».proof.Proof.EpsLiteral
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]

-- products, sums and equations of entries read off the buffers, with the type `EReal` named (an entry's own type is the buffer's element type, which unfolds to it)
local notation:70 x:70 " ⬝ " y:71 => @HMul.hMul EReal EReal EReal instHMul x y
local notation:65 x:65 " ⊞ " y:66 => @HAdd.hAdd EReal EReal EReal instHAdd x y
local notation:50 x:51 " =ₑ " y:51 => @Eq EReal x y

/-! ### The values, over the extended reals -/

section Value

variable (V : (c : Dev nD) → (b : Ref sig .tc) → Buf (Elt Ideal) ((c : Thread nD τ).loc b))

/-- The first point of the pass. -/
abbrev t2_0 : Fin cfg2.N := ⟨0, by rw [show cfg2.N = 25 from N_2]; decide⟩

/-- The anchor-space weights `v(a', f) = Σ_k (t(a', k) / max col(a') eps) · W(k, f)`. -/
def vAt2 (c : Dev nD) (a' : Fin 512) (f : Fin 128) : EReal :=
  ∑ k : Fin 128, Ideal.div (V c main_call0_v2 (ix2 a' k)) (max (V c main_call0_v0_1 (ix2 a' (0 : Fin 8))) (Ideal.ofBits .f32 0x2B8CBCCC#32)) ⬝ V c main_arg4 (ix2 k f)

/-- Row `n`'s contribution to the next aggregate at `(a, f)`: `A(n, a) · max (Σ_a' A(n, a') v(a', f) / max (Σ_a' A(n, a')) eps + b(f)) 0`. -/
def term2 (c : Dev nD) (a : Fin 512) (f : Fin 128) (n : Fin 50000) : EReal :=
  V c main_arg1 (ix2 n a) ⬝
    max (Ideal.div (∑ a' : Fin 512, V c main_arg1 (ix2 n a') ⬝ vAt2 V c a' f)
            (max (∑ a' : Fin 512, V c main_arg1 (ix2 n a')) (Ideal.ofBits .f32 0x2B8CBCCC#32))
          ⊞ V c main_call0_v3 (ix2 (0 : Fin 1) f)) 0

/-- The same over the naturals, zero past the last row. -/
def termN2 (c : Dev nD) (a : Fin 512) (f : Fin 128) (j : ℕ) : EReal :=
  if h : j < 50000 then term2 V c a f ⟨j, h⟩ else 0

/-- What the scratch holds from the first block on. -/
def vv2 (c : Dev nD) : Vec Ideal S512x128 .f32 :=
  k2_pay1 (col0_2 (iblk2 V c 1 t2_0)) (iblk2 V c 0 t2_0) (iblk2 V c 2 t2_0)

theorem vv2_apply (c : Dev nD) (a' : Fin 512) (f : Fin 128) : vv2 V c (ix2 a' f) = vAt2 V c a' f := by
  unfold vv2 vAt2
  refine (PayValue.k2_pay1_apply _ _ _ a' f).trans ?_
  refine Finset.sum_congr rfl fun k _ => ?_
  exact congrArg₂ (· * ·)
    (congrArg₂ Ideal.div (iblk2_0_apply V c t2_0 a' k)
      (congrArg (max · (Ideal.ofBits .f32 0x2B8CBCCC#32)) ((col0_2_apply _ a').trans (iblk2_1_apply V c t2_0 a' 0))))
    (iblk2_2_apply V c t2_0 k f)

/-- The scratch holds the anchor-space weights after every block. -/
theorem outsAt2_snd (c : Dev nD) : ∀ (n : ℕ) (hn : n < cfg2.N), (outsAt2 V c n hn).2 = vv2 V c
  | 0, hn => (congrArg Prod.snd (outsAt2_A V c ⟨0, hn⟩ rfl)).trans
      (out2_A_snd c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) _ (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn => (congrArg Prod.snd (outsAt2_B V c ⟨n + 1, hn⟩ (Nat.succ_ne_zero n))).trans (outsAt2_snd c n _)

/-- One block's step: the accumulator gains the block's 2000 rows' contributions. -/
theorem step2 (c : Dev nD) (t : Fin cfg2.N) (acc : Vec Ideal S512x128 .f32) (a : Fin 512) (f : Fin 128) :
    k2_pay3 (iblk2 V c 4 t) (vv2 V c) (iblk2 V c 3 t) acc (ix2 a f)
      = acc (ix2 a f) + ∑ r ∈ Finset.range 2000, termN2 V c a f (2000 * t.val + r) := by
  have hN : t.val < 25 := lt_of_lt_of_eq t.isLt (show cfg2.N = 25 from N_2)
  refine (PayValue.k2_pay3_apply _ _ _ _ a f).trans ?_
  refine congrArg (acc (ix2 a f) + ·) ?_
  rw [Finset.sum_range]
  refine Finset.sum_congr rfl fun r _ => ?_
  have hb : 2000 * t.val + r.val < 50000 := by have := r.isLt; omega
  rw [termN2, dif_pos hb, term2]
  have hA : ∀ a' : Fin 512, (iblk2 V c 4 t : Vec Ideal S2000x512 .f32) (ix2 r a') = V c main_arg1 (ix2 (⟨2000 * t.val + r.val, hb⟩ : Fin 50000) a') :=
    fun a' => iblk2_4_apply V c t r a' hb
  exact congrArg₂ (· * ·) (hA a) (congrArg (max · 0) (congrArg₂ (· + ·)
    (congrArg₂ Ideal.div (Finset.sum_congr rfl fun a' _ => congrArg₂ (· * ·) (hA a') (vv2_apply V c a' f))
      (congrArg (max · (Ideal.ofBits .f32 0x2B8CBCCC#32)) (Finset.sum_congr rfl fun a' _ => hA a')))
    (iblk2_3_apply V c t 0 f)))

end Value

section Value2

variable (V : (c : Dev nD) → (b : Ref sig .tc) → Buf (Elt Ideal) ((c : Thread nD τ).loc b))

/-- After block `n` the accumulator holds the contributions of the first `2000 (n + 1)` rows. -/
theorem outsAt2_fst (c : Dev nD) (a : Fin 512) (f : Fin 128) :
    ∀ (n : ℕ) (hn : n < cfg2.N), (outsAt2 V c n hn).1 (ix2 a f) = ∑ j ∈ Finset.range (2000 * (n + 1)), termN2 V c a f j
  | 0, hn => by
    refine (congrFun ((congrArg Prod.fst (outsAt2_A V c ⟨0, hn⟩ rfl)).trans
      (out2_A_fst c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) _ (iblk2 V c 0 ⟨0, hn⟩) (iblk2 V c 1 ⟨0, hn⟩) (iblk2 V c 2 ⟨0, hn⟩) (iblk2 V c 3 ⟨0, hn⟩) (iblk2 V c 4 ⟨0, hn⟩))) (ix2 a f)).trans ?_
    refine (step2 V c ⟨0, hn⟩ (k2_pay2 (F := Ideal)) a f).trans ?_
    rw [PayValue.k2_pay2_apply, zero_add]
    simp only [Nat.mul_zero, Nat.zero_add, Nat.mul_one]
  | n + 1, hn => by
    refine (congrFun ((congrArg Prod.fst (outsAt2_B V c ⟨n + 1, hn⟩ (Nat.succ_ne_zero n))).trans
      (out2_B_fst c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) _ (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)))) (ix2 a f)).trans ?_
    rw [outsAt2_snd V c n]
    refine (step2 V c ⟨n + 1, hn⟩ _ a f).trans ?_
    rw [outsAt2_fst c a f n, show 2000 * (n + 1 + 1) = 2000 * (n + 1) + 2000 by ring, Finset.sum_range_add]

/-- The last point of the pass. -/
abbrev t2_24 : Fin cfg2.N := ⟨24, by rw [show cfg2.N = 25 from N_2]; decide⟩

/-- What the accumulator holds after the last block, as contents of the output array. -/
def result2 (c : Dev nD) : Buf (Elt Ideal) ((c : Thread nD τ).loc main_call0_v4) := (outsAt2 V c 24 t2_24.isLt).1

/-- The one write-back, at the last point, writes it: the block is the whole array. -/
theorem flushed_eq2 (c : Dev nD) (t : Fin cfg2.N) (hf : (cfg2.win 5).flush t = true) :
    (dat2 V c).flushed 5 t = ((cfg2.win 5).blk t).view.read (Elt Ideal) (result2 V c) := by
  have hN : cfg2.N = 25 := N_2
  have h24 : t.val = 24 := by have := (flush2_5 t).mp hf; have := t.isLt; omega
  obtain rfl : t = t2_24 := Fin.ext h24
  show (cfg2.win 5).cut (grid2.coords t2_24) ((dat2 V c).after 5 t2_24) = _
  rw [after2_5]
  have hz' : (fun a => win2_5.index t2_24 a * main_call0_v4.ty.shape.size a) = fun _ => 0 := funext fun a => by fin_cases a <;> decide
  exact (Memref.read_access_unit_zero (Elt Ideal) main_call0_v4 hz' (fun a => by rw [congrFun hz' a]; simp) (result2 V c)).symm

/-- So the output array ends holding what the last block left. -/
theorem final2 (c : Dev nD) : (dat2 V c).arrAt 5 cfg2.N = result2 V c :=
  (dat2 V c).arrAt_eq_of_cover 5 (result2 V c) (flushed_eq2 V c) fun i =>
    ⟨t2_24, (flush2_5 t2_24).mpr rfl, by
      show i ∈ ((View.whole main_call0_v4).slice (win2_5.rect t2_24)).set
      rw [View.set_slice_whole, Rect.mem_set_unit]
      intro a
      have h0 : (i 0 : Nat) < 512 := (i 0).isLt
      have h1 : (i 1 : Nat) < 128 := (i 1).isLt
      match a with
      | ⟨0, _⟩ => show win2_5.index t2_24 0 * win2_5.size 0 ≤ (i 0 : Nat) ∧ (i 0 : Nat) < win2_5.index t2_24 0 * win2_5.size 0 + win2_5.xsize (grid2.coords t2_24) 0
                  rw [show win2_5.index t2_24 0 * win2_5.size 0 = 0 from by decide +kernel, show win2_5.xsize (grid2.coords t2_24) 0 = 512 from by decide +kernel]; omega
      | ⟨1, _⟩ => show win2_5.index t2_24 1 * win2_5.size 1 ≤ (i 1 : Nat) ∧ (i 1 : Nat) < win2_5.index t2_24 1 * win2_5.size 1 + win2_5.xsize (grid2.coords t2_24) 1
                  rw [show win2_5.index t2_24 1 * win2_5.size 1 = 0 from by decide +kernel, show win2_5.xsize (grid2.coords t2_24) 1 = 128 from by decide +kernel]; omega⟩

/-- THE VALUE OF THE PASS: the next layer's anchor-space aggregate, entry by entry. -/
theorem val2_agg (c : Dev nD) (a : Fin 512) (f : Fin 128) :
    (dat2 (F := Ideal) V c).arrAt 5 cfg2.N (ix2 a f)
      =ₑ ∑ n : Fin 50000, V c main_arg1 (ix2 n a) ⬝
          max (Ideal.div (∑ a' : Fin 512, V c main_arg1 (ix2 n a') ⬝
                  (∑ k : Fin 128, Ideal.div (V c main_call0_v2 (ix2 a' k)) (max (V c main_call0_v0_1 (ix2 a' (0 : Fin 8))) (Ideal.ofBits .f32 0x2B8CBCCC#32)) ⬝ V c main_arg4 (ix2 k f)))
                (max (∑ a' : Fin 512, V c main_arg1 (ix2 n a')) (Ideal.ofBits .f32 0x2B8CBCCC#32))
               ⊞ V c main_call0_v3 (ix2 (0 : Fin 1) f)) 0 := by
  refine (congrFun (final2 V c) (ix2 a f)).trans ?_
  refine (outsAt2_fst V c a f 24 t2_24.isLt).trans ?_
  rw [show 2000 * (24 + 1) = 50000 by norm_num, Finset.sum_range]
  exact Finset.sum_congr rfl fun n _ => by rw [termN2, dif_pos n.isLt]; rfl

end Value2

end Cert.KernelIdeal.Hand

end
-- ==== Proof.PayOut.lean ====
/-
  The last kernel's stored values (layer 3), read entry by entry.

  On its first block the kernel turns the anchor-space features `t` [512,128] of the previous pass
  into `v = (t / max col eps) W` [512,64]. On every block of 2000 rows of the node-by-anchor matrix
  `A` it stores the layer's output rows `Σ_a A(r,a) v(a,f) / max (Σ_a A(r,a)) eps + b(f)`. Every sum
  is a finite sum in the extended reals, every quotient `Ideal.div`.
-/
import proofs.«182234_g5308579578416_cont_8to1_c_894_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«182234_g5308579578416_cont_8to1_c_894_2_alg».proof.Proof.PayIn

noncomputable section

namespace Cert.KernelIdeal.PayValue

open Idealize.ShloMosaic ValueIdx Cert.KernelIdeal Cert.KernelIdeal.Gen

theorem dotW64_lhs_c (j : S512x64.Idx) (q : dot_S512x128_S128x64_S512x64_1_0_0_1_n_n.contr.Idx) :
    (dot_S512x128_S128x64_S512x64_1_0_0_1_n_n.lhsIdx j q 1).val = (q ⟨0, by decide⟩).val :=
  dot_S512x128_S128x64_S512x64_1_0_0_1_n_n.lhsIdx_val_of_single rfl j q
theorem dotW64_lhs_n (j : S512x64.Idx) (q : dot_S512x128_S128x64_S512x64_1_0_0_1_n_n.contr.Idx) :
    (dot_S512x128_S128x64_S512x64_1_0_0_1_n_n.lhsIdx j q 0).val = (j 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem dotW64_rhs_c (j : S512x64.Idx) (q : dot_S512x128_S128x64_S512x64_1_0_0_1_n_n.contr.Idx) :
    (dot_S512x128_S128x64_S512x64_1_0_0_1_n_n.rhsIdx j q 0).val = (q ⟨0, by decide⟩).val :=
  dot_S512x128_S128x64_S512x64_1_0_0_1_n_n.rhsIdx_val_of_single rfl j q
theorem dotW64_rhs_n (j : S512x64.Idx) (q : dot_S512x128_S128x64_S512x64_1_0_0_1_n_n.contr.Idx) :
    (dot_S512x128_S128x64_S512x64_1_0_0_1_n_n.rhsIdx j q 1).val = (j 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- `l r` into the zero accumulator, for a [512,128] and a [128,64] factor: at `(p, q)` the sum over `n` of `l(p,n) · r(n,q)`. -/
theorem matmulW64_apply (l : FVec Ideal S512x128 .f32) (r : FVec Ideal S128x64 .f32) (p : Fin 512) (q : Fin 64) :
    matmul dot_S512x128_S128x64_S512x64_1_0_0_1_n_n none l r (constant S512x64 .f32 0x00000000#32) (ix2 p q)
      = ∑ n : Fin 128, l (ix2 p n) * r (ix2 n q) := by
  refine (Ideal.matmul_constant_zero_apply dot_S512x128_S128x64_S512x64_1_0_0_1_n_n none l r (ix2 p q)).trans ?_
  rw [← Equiv.sum_comp (contrEquiv1 dot_S512x128_S128x64_S512x64_1_0_0_1_n_n 128 rfl rfl).symm]
  refine Finset.sum_congr rfl fun n _ => ?_
  have hk := contrEquiv1_symm_val dot_S512x128_S128x64_S512x64_1_0_0_1_n_n 128 rfl rfl n
  have el : dot_S512x128_S128x64_S512x64_1_0_0_1_n_n.lhsIdx (ix2 p q) ((contrEquiv1 dot_S512x128_S128x64_S512x64_1_0_0_1_n_n 128 rfl rfl).symm n) = ix2 p n := funext fun x => Fin.ext (by
    match x with
    | ⟨0, _⟩ => exact dotW64_lhs_n _ _
    | ⟨1, _⟩ => exact (dotW64_lhs_c _ _).trans hk)
  have er : dot_S512x128_S128x64_S512x64_1_0_0_1_n_n.rhsIdx (ix2 p q) ((contrEquiv1 dot_S512x128_S128x64_S512x64_1_0_0_1_n_n 128 rfl rfl).symm n) = ix2 n q := funext fun x => Fin.ext (by
    match x with
    | ⟨0, _⟩ => exact (dotW64_rhs_c _ _).trans hk
    | ⟨1, _⟩ => exact dotW64_rhs_n _ _)
  rw [el, er]

theorem dotA64_lhs_c (j : S2000x64.Idx) (q : dot_S2000x512_S512x64_S2000x64_1_0_0_1_n_n.contr.Idx) :
    (dot_S2000x512_S512x64_S2000x64_1_0_0_1_n_n.lhsIdx j q 1).val = (q ⟨0, by decide⟩).val :=
  dot_S2000x512_S512x64_S2000x64_1_0_0_1_n_n.lhsIdx_val_of_single rfl j q
theorem dotA64_lhs_n (j : S2000x64.Idx) (q : dot_S2000x512_S512x64_S2000x64_1_0_0_1_n_n.contr.Idx) :
    (dot_S2000x512_S512x64_S2000x64_1_0_0_1_n_n.lhsIdx j q 0).val = (j 0).val := by
  unfold DotDims.lhsIdx
  rw [dif_neg (show ¬(0 : Fin S2000x512.rank) ∈ dot_S2000x512_S512x64_S2000x64_1_0_0_1_n_n.lhsBatch by decide), dif_pos (show (0 : Fin S2000x512.rank) ∈ dot_S2000x512_S512x64_S2000x64_1_0_0_1_n_n.lhsNonContracting by decide)]
  rfl
theorem dotA64_rhs_c (j : S2000x64.Idx) (q : dot_S2000x512_S512x64_S2000x64_1_0_0_1_n_n.contr.Idx) :
    (dot_S2000x512_S512x64_S2000x64_1_0_0_1_n_n.rhsIdx j q 0).val = (q ⟨0, by decide⟩).val :=
  dot_S2000x512_S512x64_S2000x64_1_0_0_1_n_n.rhsIdx_val_of_single rfl j q
theorem dotA64_rhs_n (j : S2000x64.Idx) (q : dot_S2000x512_S512x64_S2000x64_1_0_0_1_n_n.contr.Idx) :
    (dot_S2000x512_S512x64_S2000x64_1_0_0_1_n_n.rhsIdx j q 1).val = (j 1).val := by
  unfold DotDims.rhsIdx
  rw [dif_neg (show ¬(1 : Fin S512x64.rank) ∈ dot_S2000x512_S512x64_S2000x64_1_0_0_1_n_n.rhsBatch by decide), dif_pos (show (1 : Fin S512x64.rank) ∈ dot_S2000x512_S512x64_S2000x64_1_0_0_1_n_n.rhsNonContracting by decide)]
  rfl

/-- `l r` into the zero accumulator, for a [2000,512] and a [512,64] factor: at `(p, q)` the sum over `n` of `l(p,n) · r(n,q)`. -/
theorem matmulA64_apply (l : FVec Ideal S2000x512 .f32) (r : FVec Ideal S512x64 .f32) (p : Fin 2000) (q : Fin 64) :
    matmul dot_S2000x512_S512x64_S2000x64_1_0_0_1_n_n none l r (constant S2000x64 .f32 0x00000000#32) (ix2 p q)
      = ∑ n : Fin 512, l (ix2 p n) * r (ix2 n q) := by
  refine (Ideal.matmul_constant_zero_apply dot_S2000x512_S512x64_S2000x64_1_0_0_1_n_n none l r (ix2 p q)).trans ?_
  rw [← Equiv.sum_comp (contrEquiv1 dot_S2000x512_S512x64_S2000x64_1_0_0_1_n_n 512 rfl rfl).symm]
  refine Finset.sum_congr rfl fun n _ => ?_
  have hk := contrEquiv1_symm_val dot_S2000x512_S512x64_S2000x64_1_0_0_1_n_n 512 rfl rfl n
  have el : dot_S2000x512_S512x64_S2000x64_1_0_0_1_n_n.lhsIdx (ix2 p q) ((contrEquiv1 dot_S2000x512_S512x64_S2000x64_1_0_0_1_n_n 512 rfl rfl).symm n) = ix2 p n := funext fun x => Fin.ext (by
    match x with
    | ⟨0, _⟩ => exact dotA64_lhs_n _ _
    | ⟨1, _⟩ => exact (dotA64_lhs_c _ _).trans hk)
  have er : dot_S2000x512_S512x64_S2000x64_1_0_0_1_n_n.rhsIdx (ix2 p q) ((contrEquiv1 dot_S2000x512_S512x64_S2000x64_1_0_0_1_n_n 512 rfl rfl).symm n) = ix2 n q := funext fun x => Fin.ext (by
    match x with
    | ⟨0, _⟩ => exact (dotA64_rhs_c _ _).trans hk
    | ⟨1, _⟩ => exact dotA64_rhs_n _ _)
  rw [el, er]

/-- The anchor-space rows scaled by the floored column sums, times the weights: `Σ_k (t(a,k) / max col(a) eps) · W(k,f)`. -/
theorem k3_pay1_apply (v17 : Vec Ideal S512x1 .f32) (v21 : Vec Ideal S512x128 .f32) (v25 : Vec Ideal S128x64 .f32) (a : Fin 512) (f : Fin 64) :
    k3_pay1 v17 v21 v25 (ix2 a f) = ∑ k : Fin 128, Ideal.div (v21 (ix2 a k)) (max (v17 (ix2 a (0 : Fin 1))) (Ideal.ofBits .f32 0x2B8CBCCC#32)) * v25 (ix2 k f) := by
  unfold k3_pay1
  refine (congrFun (shapeCast_self _ _) _).trans ?_
  refine (matmulW64_apply _ v25 a f).trans ?_
  refine Finset.sum_congr rfl fun k _ => congrArg (· * v25 (ix2 k f)) ?_
  refine (divf_apply _ _ _).trans ?_
  refine congrArg₂ Ideal.div ?_ ?_
  · exact congrFun (shapeCast_self v21 _) _
  · refine (broadcastTo_a1_ab_apply _ _ a k).trans ?_
    refine (maximumf_apply _ _ _).trans ?_
    refine congrArg₂ max ?_ rfl
    exact congrFun (shapeCast_self v17 _) _

/-- The block's rows of the layer's output: `Σ_a A(r,a) · v(a,f) / max (Σ_a A(r,a)) eps + b(f)`. -/
theorem k3_pay2_apply (v3 : Vec Ideal S2000x512 .f32) (v8 : Vec Ideal S512x64 .f32) (v12 : Vec Ideal S1x64 .f32) (r : Fin 2000) (f : Fin 64) :
    k3_pay2 v3 v8 v12 (ix2 r f) = Ideal.div (∑ a : Fin 512, v3 (ix2 r a) * v8 (ix2 a f)) (max (∑ a : Fin 512, v3 (ix2 r a)) (Ideal.ofBits .f32 0x2B8CBCCC#32)) + v12 (ix2 (0 : Fin 1) f) := by
  unfold k3_pay2
  refine (addf_apply _ _ _).trans ?_
  refine congrArg₂ (· + ·) ?_ ?_
  · refine (divf_apply _ _ _).trans ?_
    refine congrArg₂ Ideal.div ?_ ?_
    · exact matmulA64_apply v3 v8 r f
    · refine (broadcastTo_a1_ab_apply _ _ r f).trans ?_
      refine (maximumf_apply _ _ _).trans ?_
      refine congrArg₂ max ?_ rfl
      refine (shapeCast_a_a1_apply _ _ r (0 : Fin 1)).trans ?_
      exact rowSum_apply v3 _ _ r
  · refine (broadcastTo_1b_ab_apply _ _ r f).trans ?_
    exact congrFun (shapeCast_self v12 _) _

end Cert.KernelIdeal.PayValue

end
-- ==== Proof.AnchorSpec.lean ====
/-
  Three stacked anchor-graph convolution layers, as functions on the extended reals, in the two
  arrangements this certificate compares.

  For a node-by-anchor matrix `A`, features `h`, weights `W`, a bias `b` and a floor `eps`:
  the column sums and the row sums of `A` are floored at `eps`  (`colClip`, `rowClip`);
  the ANCHOR-FIRST arrangement aggregates the features into anchor space, `t = Aᵀ h` (`agg`),
  scales each anchor's row by its floored column sum and multiplies by the weights
  (`anchorW`: `v = (t / col) W`), and returns to node space, `A v / row + b` (`nodeOut`);
  the NODE-FIRST arrangement multiplies the features by the weights first and then applies the
  two normalised copies of `A`:  `(A / row) ((A / col)ᵀ (h W)) + b`  (`refLayer`).
  Every quotient is `Ideal.div`, every sum a finite sum in the extended reals.
-/
import Idealize.ShloMosaic.PureOps.Ideal

noncomputable section

namespace AnchorGcn

open Idealize.ShloMosaic

variable {N K I O : Type} [Fintype N] [Fintype K] [Fintype I] [Fintype O]

/-- The column sum of `A` at anchor `a`, floored at `eps`. -/
def colClip (eps : EReal) (A : N → K → EReal) (a : K) : EReal := max (∑ n, A n a) eps

/-- The row sum of `A` at node `n`, floored at `eps`. -/
def rowClip (eps : EReal) (A : N → K → EReal) (n : N) : EReal := max (∑ a, A n a) eps

/-- `Aᵀ h`: the features aggregated at each anchor. -/
def agg (A : N → K → EReal) (h : N → I → EReal) (a : K) (k : I) : EReal := ∑ n, A n a * h n k

/-- `(t / col) W`: the anchor-space rows scaled by the floored column sums, times the weights. -/
def anchorW (eps : EReal) (A : N → K → EReal) (t : K → I → EReal) (W : I → O → EReal) (a : K) (f : O) : EReal :=
  ∑ k, Ideal.div (t a k) (colClip eps A a) * W k f

/-- `A v / row + b`: back to node space. -/
def nodeOut (eps : EReal) (A : N → K → EReal) (v : K → O → EReal) (b : O → EReal) (n : N) (f : O) : EReal :=
  Ideal.div (∑ a, A n a * v a f) (rowClip eps A n) + b f

/-- One layer, anchor first. -/
def kerLayer (eps : EReal) (A : N → K → EReal) (h : N → I → EReal) (W : I → O → EReal) (b : O → EReal) : N → O → EReal :=
  nodeOut eps A (anchorW eps A (agg A h) W) b

/-- One layer, node first: `(A / row) ((A / col)ᵀ (h W)) + b`. -/
def refLayer (eps : EReal) (A : N → K → EReal) (h : N → I → EReal) (W : I → O → EReal) (b : O → EReal) (n : N) (f : O) : EReal :=
  (∑ a, Ideal.div (A n a) (rowClip eps A n) * (∑ n', Ideal.div (A n' a) (colClip eps A a) * (∑ k, h n' k * W k f))) + b f

/-- The rectifier `max (·) 0`, entry by entry. -/
def relu (h : N → O → EReal) (n : N) (f : O) : EReal := max (h n f) 0

variable {H1 H2 : Type} [Fintype H1] [Fintype H2]

/-- The three layers, anchor first. -/
def kerNet (eps : EReal) (A : N → K → EReal) (x : N → I → EReal) (W1 : I → H1 → EReal) (b1 : H1 → EReal)
    (W2 : H1 → H2 → EReal) (b2 : H2 → EReal) (W3 : H2 → O → EReal) (b3 : O → EReal) : N → O → EReal :=
  kerLayer eps A (relu (kerLayer eps A (relu (kerLayer eps A x W1 b1)) W2 b2)) W3 b3

/-- The three layers, node first. -/
def refNet (eps : EReal) (A : N → K → EReal) (x : N → I → EReal) (W1 : I → H1 → EReal) (b1 : H1 → EReal)
    (W2 : H1 → H2 → EReal) (b2 : H2 → EReal) (W3 : H2 → O → EReal) (b3 : O → EReal) : N → O → EReal :=
  refLayer eps A (relu (refLayer eps A (relu (refLayer eps A x W1 b1)) W2 b2)) W3 b3

end AnchorGcn

end
-- ==== Proof.Val3.lean ====
/-
  The value of the output layer's pass: its result array, entry by entry, over the extended reals.

  At its first block the pass computes the anchor-space weights `v = (t / max col eps) W` from the aggregate `t`,
  column 0 of the column sums and the layer's weights, and keeps them in scratch; the scratch holds `v` after
  every block (written once, never again). At block `t` it stores rows `2000 t … 2000 t + 1999` of
  `A v / max (row sums of A) eps + b`, and that block is written back at once. The four small operands' blocks are
  the whole arrays; the adjacency's block at point `t` is its rows `2000 t + r`. The 25 blocks tile the 50000
  rows (row `n` lies in block `n / 2000`), so the result array ends at that one function of its index.
-/
import proofs.«182234_g5308579578416_cont_8to1_c_894_2_alg».proof.Proof.Reg3
import proofs.«182234_g5308579578416_cont_8to1_c_894_2_alg».proof.Proof.PayOut
import proofs.«182234_g5308579578416_cont_8to1_c_894_2_alg».proof.Proof.EpsLiteral
import Idealize.ShloMosaic.Lib.Pipeline.Value
import Idealize.ShloMosaic.Lib.ValueIdx
import proofs.«182234_g5308579578416_cont_8to1_c_894_2_alg».proof.Proof.AnchorSpec

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-! ## What each case leaves, as the body's payloads of the buffers' contents -/

section Pieces

variable {F : FTy → Type} [FloatOps F]

theorem hz3 : (![0, 0] : Fin 2 → Nat) = fun _ => 0 := funext fun a => by fin_cases a <;> rfl

/-- Column 0 of the column sums' buffer, as the body loads it: a [512,1] rectangle at the origin. -/
abbrev col0_3 (x2 : Vec F S512x8 .f32) : Vec F S512x1 .f32 :=
  View.ld x2 (Rect.unit (s := S512x8) ![0, 0] S512x1.size inb_S512x8_S512x1_0_0)

/-- It reads column 0. -/
theorem col0_3_apply (x2 : Vec F S512x8 .f32) (a : Fin 512) : col0_3 x2 (ix2 a (0 : Fin 1)) = x2 (ix2 a (0 : Fin 8)) := by
  show x2 _ = x2 _
  refine congrArg x2 (funext fun d => Fin.ext ?_)
  match d with
  | ⟨0, _⟩ =>
    simp only [LoadRect.idx_apply, Rect.emb_apply, Rect.off_unit, Rect.stride_unit, Nat.one_mul]
    show (0 : ℕ) + a.val = a.val
    omega
  | ⟨1, _⟩ =>
    simp only [LoadRect.idx_apply, Rect.emb_apply, Rect.off_unit, Rect.stride_unit, Nat.one_mul]
    show (0 : ℕ) + (0 : Fin 1).val = (0 : Fin 8).val
    rfl

/-- A later block stores the block's rows of the result, computed from the scratch as it found it. -/
theorem out3_B_fst (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : ¬cond3 i)
    (x1 : Vec F S512x128 .f32) (x2 : Vec F S512x8 .f32) (x3 : Vec F S128x64 .f32) (x4 : Vec F S1x64 .f32) (x5 : Vec F S2000x512 .f32) (p : Vec F S2000x64 .f32 × Vec F S512x64 .f32) :
    (out3_B c i arg1 harg1 arg2 harg2 arg3 harg3 arg4 harg4 arg5 harg5 arg6 harg6 arg7 harg7 hc0 x1 x2 x3 x4 x5 p).1 = k3_pay2 x5 p.2 x4 := by
  unfold out3_B; dsimp only
  rw [View.read_writes_eq_canon _ _ _ (cover3_B_6 c i arg1 harg1 arg2 harg2 arg3 harg3 arg4 harg4 arg5 harg5 arg6 harg6 arg7 harg7 hc0 x1 x2 x3 x4 x5 p.2)]
  unfold kernelRun3_B
  dsimp only
  rw [View.canon_unit_zero hz3]
  simp only [View.readAt_eq_ld, harg5.read_unread, harg7.read_unread, harg4.read_unread,
    View.ld_unit_zero (S := S2000x512) hz3, View.ld_unit_zero (S := S512x64) hz3, View.ld_unit_zero (S := S1x64) hz3]

/-- The first block leaves the anchor-space weights in the scratch. -/
theorem out3_A_snd (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) :
    (out3_A c i arg1 harg1 arg2 harg2 arg3 harg3 arg4 harg4 arg5 harg5 arg6 harg6 arg7 harg7 hc0 x1 x2 x3 x4 x5).2 = k3_pay1 (col0_3 x2) x1 x3 := by
  unfold out3_A; dsimp only
  rw [View.read_writes_eq_canon _ _ _ (scover3_A c i arg1 harg1 arg2 harg2 arg3 harg3 arg4 harg4 arg5 harg5 arg6 harg6 arg7 harg7 hc0 x1 x2 x3 x4 x5)]
  unfold kernelRun3_A
  dsimp only
  sl_unfold_words
  rw [View.canon_unit_zero hz3]
  simp only [View.readAt_eq_ld, harg1.read_unread, harg2.read_unread, harg3.read_unread,
    View.ld_unit_zero (S := S512x128) hz3, View.ld_unit_zero (S := S128x64) hz3]

/-- The first block stores its rows of the result, computed from the scratch it has just written. -/
theorem out3_A_fst (c : Dev nD) (i : grid3.Coords) (arg1 : Memref sig .tc .vmem S512x128 .f32) (harg1 : arg1.IsWhole) (arg2 : Memref sig .tc .vmem S512x8 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S2000x512 .f32) (harg5 : arg5.IsWhole) (arg6 : Memref sig .tc .vmem S2000x64 .f32) (harg6 : arg6.IsWhole)
    (arg7 : Memref sig .tc .vmem S512x64 .f32) (harg7 : arg7.IsWhole) (hc0 : cond3 i)
    (x1 : Vec F S512x128 .f32) (x2 : Vec F S512x8 .f32) (x3 : Vec F S128x64 .f32) (x4 : Vec F S1x64 .f32) (x5 : Vec F S2000x512 .f32) :
    (out3_A c i arg1 harg1 arg2 harg2 arg3 harg3 arg4 harg4 arg5 harg5 arg6 harg6 arg7 harg7 hc0 x1 x2 x3 x4 x5).1 = k3_pay2 x5 (k3_pay1 (col0_3 x2) x1 x3) x4 := by
  unfold out3_A; dsimp only
  rw [View.read_writes_eq_canon _ _ _ (cover3_A_6 c i arg1 harg1 arg2 harg2 arg3 harg3 arg4 harg4 arg5 harg5 arg6 harg6 arg7 harg7 hc0 x1 x2 x3 x4 x5)]
  unfold kernelRun3_A
  dsimp only
  sl_unfold_words
  rw [View.canon_unit_zero hz3, View.readCov_unit_zero (S := S512x64) _ hz3]
  simp only [View.readAt_eq_ld, harg1.read_unread, harg2.read_unread, harg3.read_unread, harg4.read_unread, harg5.read_unread,
    View.ld_unit_zero (S := S2000x512) hz3, View.ld_unit_zero (S := S1x64) hz3,
    View.ld_unit_zero (S := S512x128) hz3, View.ld_unit_zero (S := S128x64) hz3]

end Pieces

/-! ## The blocks the body is handed, as the arrays' entries -/

section Blocks

variable {F : FTy → Type} [FloatOps F]
variable (V : (c : Dev nD) → (b : Ref sig .tc) → Buf (Elt F) ((c : Thread nD τ).loc b))

/-- The printed index maps, decided over the grid: the four small operands stay at block (0, 0); the adjacency's and
    the result's row block is the point. -/
theorem idx3_small : ∀ t : Fin cfg3.N, (win3_0.index t (0 : Fin 2) = 0 ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0) :=
  (by decide +kernel : ∀ t : Fin grid3.N, _)
theorem idx3_rows : ∀ t : Fin cfg3.N, (win3_4.index t (0 : Fin 2) = t.val ∧ win3_4.index t (1 : Fin 2) = 0)
    ∧ (win3_5.index t (0 : Fin 2) = t.val ∧ win3_5.index t (1 : Fin 2) = 0) :=
  (by decide +kernel : ∀ t : Fin grid3.N, _)

/-- The aggregate's block is the whole aggregate, at every point. -/
theorem iblk3_0_eq (c : Dev nD) (t : Fin cfg3.N) : (iblk3 V c 0 t : S512x128.Idx → Elt F .f32) = V c main_call0_v4 := by
  obtain ⟨⟨e0, e1⟩, -⟩ := idx3_small t
  funext j
  unfold iblk3
  rw [View.read_apply]
  show V c main_call0_v4 _ = V c main_call0_v4 j
  refine congrArg (V c main_call0_v4) (funext fun d => Fin.ext ?_)
  match d with
  | ⟨0, _⟩ => show win3_0.index t 0 * 512 + 1 * (j 0).val = (j 0).val; rw [e0]; omega
  | ⟨1, _⟩ => show win3_0.index t 1 * 128 + 1 * (j 1).val = (j 1).val; rw [e1]; omega

/-- The column sums' block is the whole array. -/
theorem iblk3_1_eq (c : Dev nD) (t : Fin cfg3.N) : (iblk3 V c 1 t : S512x8.Idx → Elt F .f32) = V c main_call0_v0_1 := by
  obtain ⟨-, ⟨e0, e1⟩, -⟩ := idx3_small t
  funext j
  unfold iblk3
  rw [View.read_apply]
  show V c main_call0_v0_1 _ = V c main_call0_v0_1 j
  refine congrArg (V c main_call0_v0_1) (funext fun d => Fin.ext ?_)
  match d with
  | ⟨0, _⟩ => show win3_1.index t 0 * 512 + 1 * (j 0).val = (j 0).val; rw [e0]; omega
  | ⟨1, _⟩ => show win3_1.index t 1 * 8 + 1 * (j 1).val = (j 1).val; rw [e1]; omega

/-- The weights' block is the whole array. -/
theorem iblk3_2_eq (c : Dev nD) (t : Fin cfg3.N) : (iblk3 V c 2 t : S128x64.Idx → Elt F .f32) = V c main_arg6 := by
  obtain ⟨-, -, ⟨e0, e1⟩, -⟩ := idx3_small t
  funext j
  unfold iblk3
  rw [View.read_apply]
  show V c main_arg6 _ = V c main_arg6 j
  refine congrArg (V c main_arg6) (funext fun d => Fin.ext ?_)
  match d with
  | ⟨0, _⟩ => show win3_2.index t 0 * 128 + 1 * (j 0).val = (j 0).val; rw [e0]; omega
  | ⟨1, _⟩ => show win3_2.index t 1 * 64 + 1 * (j 1).val = (j 1).val; rw [e1]; omega

/-- The bias row's block is the whole row. -/
theorem iblk3_3_eq (c : Dev nD) (t : Fin cfg3.N) : (iblk3 V c 3 t : S1x64.Idx → Elt F .f32) = V c main_call0_v5 := by
  obtain ⟨-, -, -, ⟨e0, e1⟩⟩ := idx3_small t
  funext j
  unfold iblk3
  rw [View.read_apply]
  show V c main_call0_v5 _ = V c main_call0_v5 j
  refine congrArg (V c main_call0_v5) (funext fun d => Fin.ext ?_)
  match d with
  | ⟨0, _⟩ => show win3_3.index t 0 * 1 + 1 * (j 0).val = (j 0).val; rw [e0]; omega
  | ⟨1, _⟩ => show win3_3.index t 1 * 64 + 1 * (j 1).val = (j 1).val; rw [e1]; omega

/-- The adjacency's block at point `t` is its rows `2000 t … 2000 t + 1999`. -/
theorem iblk3_4_apply (c : Dev nD) (t : Fin cfg3.N) (r : Fin 2000) (a : Fin 512) (k : Fin 50000) (hk : k.val = 2000 * t.val + r.val) :
    (iblk3 V c 4 t : S2000x512.Idx → Elt F .f32) (ix2 r a) = (V c main_arg1 : S50000x512.Idx → Elt F .f32) (ix2 k a) := by
  obtain ⟨⟨e0, e1⟩, -⟩ := idx3_rows t
  unfold iblk3
  rw [View.read_apply]
  show V c main_arg1 _ = V c main_arg1 _
  refine congrArg (V c main_arg1) (funext fun d => Fin.ext ?_)
  match d with
  | ⟨0, _⟩ => show win3_4.index t 0 * 2000 + 1 * r.val = k.val; rw [e0, hk]; omega
  | ⟨1, _⟩ => show win3_4.index t 1 * 512 + 1 * a.val = a.val; rw [e1]; omega

end Blocks

/-! ## The scratch and the output block after every block -/

section Carried

variable {F : FTy → Type} [FloatOps F]
variable (V : (c : Dev nD) → (b : Ref sig .tc) → Buf (Elt F) ((c : Thread nD τ).loc b))

/-- The layer's anchor-space weights `(t / col) W`, as the first block computes them from the arrays. -/
def anchorV3 (c : Dev nD) : Vec F S512x64 .f32 := k3_pay1 (col0_3 (V c main_call0_v0_1)) (V c main_call0_v4) (V c main_arg6)

/-- The scratch holds them after every block: written at the first, untouched afterwards. -/
theorem outsAt3_snd (c : Dev nD) : ∀ (n : ℕ) (h : n < cfg3.N), (outsAt3 V c n h).2 = anchorV3 V c
  | 0, h => by
    refine (congrArg Prod.snd (outsAt3_A V c ⟨0, h⟩ rfl)).trans ?_
    rw [out3_A_snd, iblk3_0_eq, iblk3_1_eq, iblk3_2_eq]
    rfl
  | n + 1, h => by
    refine (congrArg Prod.snd (outsAt3_B V c ⟨n + 1, h⟩ (Nat.succ_ne_zero n))).trans ?_
    unfold out3_B; dsimp only
    exact outsAt3_snd c n _

/-- The output block after block `t`: the block's rows of the result, from the adjacency's block and the weights. -/
theorem outsAt3_fst (c : Dev nD) (t : Fin cfg3.N) :
    (outsAt3 V c t.val t.isLt).1 = k3_pay2 (iblk3 V c 4 t) (anchorV3 V c) (V c main_call0_v5) := by
  by_cases hz : t.val = 0
  · rw [outsAt3_A V c t hz, out3_A_fst, iblk3_0_eq, iblk3_1_eq, iblk3_2_eq, iblk3_3_eq]
    rfl
  · rw [outsAt3_B V c t hz, out3_B_fst, outsAt3_snd, iblk3_3_eq]

end Carried

/-! ## The result array, entry by entry, over the extended reals -/

/-- The output layer's result at node `n`, class `f`, from the adjacency `A`, the aggregate `T`, the column sums `C`,
    the weights `W`, the bias `b` and the floor `eps`:  `Σ_a A(n,a) v(a,f) / max (Σ_a A(n,a)) eps + b(f)`  with
    `v(a,f) = Σ_k (T(a,k) / max C(a) eps) W(k,f)`. -/
def outVal3 (eps : EReal) (A : Fin 50000 → Fin 512 → EReal) (T : Fin 512 → Fin 128 → EReal) (C : Fin 512 → EReal)
    (W : Fin 128 → Fin 64 → EReal) (b : Fin 64 → EReal) (n : Fin 50000) (f : Fin 64) : EReal :=
  Ideal.div (∑ a : Fin 512, A n a * (∑ k : Fin 128, Ideal.div (T a k) (max (C a) eps) * W k f)) (max (∑ a : Fin 512, A n a) eps) + b f

/-- It is the specification's return to node space, over those anchor-space weights. -/
theorem outVal3_eq_nodeOut (eps : EReal) (A : Fin 50000 → Fin 512 → EReal) (T : Fin 512 → Fin 128 → EReal) (C : Fin 512 → EReal)
    (W : Fin 128 → Fin 64 → EReal) (b : Fin 64 → EReal) (n : Fin 50000) (f : Fin 64) :
    outVal3 eps A T C W b n f
      = AnchorGcn.nodeOut eps A (fun (a : Fin 512) (f : Fin 64) => ∑ k : Fin 128, Ideal.div (T a k) (max (C a) eps) * W k f) b n f := rfl

section Final

variable (V : (c : Dev nD) → (b : Ref sig .tc) → Buf (Elt Ideal) ((c : Thread nD τ).loc b))

/-- The result array as one function of its index. -/
def outArr3 (c : Dev nD) : Buf (Elt Ideal) ((c : Thread nD τ).loc main_v0) :=
  fun (i : S50000x64.Idx) => outVal3 (Ideal.ofBits .f32 0x2B8CBCCC#32)
        (fun (n : Fin 50000) (a : Fin 512) => V c main_arg1 (ix2 n a)) (fun (a : Fin 512) (k : Fin 128) => V c main_call0_v4 (ix2 a k))
        (fun (a : Fin 512) => V c main_call0_v0_1 (ix2 a (0 : Fin 8))) (fun (k : Fin 128) (f : Fin 64) => V c main_arg6 (ix2 k f))
        (fun (f : Fin 64) => V c main_call0_v5 (ix2 (0 : Fin 1) f)) (i 0) (i 1)

/-- The anchor-space weights at an entry. -/
theorem anchorV3_apply (c : Dev nD) (a : Fin 512) (f : Fin 64) :
    anchorV3 V c (ix2 a f) = ∑ k : Fin 128, Ideal.div (V c main_call0_v4 (ix2 a k)) (max (V c main_call0_v0_1 (ix2 a (0 : Fin 8))) (Ideal.ofBits .f32 0x2B8CBCCC#32)) * (V c main_arg6 (ix2 k f) : EReal) := by
  unfold anchorV3
  rw [PayValue.k3_pay1_apply, col0_3_apply]

/-- WHAT POINT `t` WRITES BACK is block `t` of the result array. -/
theorem flushed3_eq (c : Dev nD) (t : Fin cfg3.N) :
    (dat3 V c).flushed 5 t = ((cfg3.win 5).blk t).view.read (Elt Ideal) (outArr3 V c) := by
  obtain ⟨-, ⟨e0, e1⟩⟩ := idx3_rows t
  have hN : t.val < 25 := lt_of_lt_of_eq t.isLt (show cfg3.N = 25 from N_3)
  show (cfg3.win 5).cut (grid3.coords t) ((dat3 V c).after 5 t) = _
  rw [after3_5, outsAt3_fst]
  funext j
  obtain ⟨r, f, rfl⟩ : ∃ (r : Fin 2000) (f : Fin 64), j = ix2 r f := ⟨j 0, j 1, eq_ix2 j⟩
  rw [View.read_apply]
  have hemb : ((cfg3.win 5).blk t).view.emb (ix2 r f) = (ix2 (⟨2000 * t.val + r.val, by omega⟩ : Fin 50000) f : S50000x64.Idx) :=
    funext fun d => Fin.ext (by
      match d with
      | ⟨0, _⟩ => show win3_5.index t 0 * 2000 + 1 * r.val = 2000 * t.val + r.val; rw [e0]; omega
      | ⟨1, _⟩ => show win3_5.index t 1 * 64 + 1 * f.val = f.val; rw [e1]; omega)
  rw [hemb]
  show k3_pay2 (iblk3 V c 4 t) (anchorV3 V c) (V c main_call0_v5) (ix2 r f)
    = outVal3 (Ideal.ofBits .f32 0x2B8CBCCC#32)
        (fun (n : Fin 50000) (a : Fin 512) => V c main_arg1 (ix2 n a)) (fun (a : Fin 512) (k : Fin 128) => V c main_call0_v4 (ix2 a k))
        (fun (a : Fin 512) => V c main_call0_v0_1 (ix2 a (0 : Fin 8))) (fun (k : Fin 128) (f : Fin 64) => V c main_arg6 (ix2 k f))
        (fun (f : Fin 64) => V c main_call0_v5 (ix2 (0 : Fin 1) f)) (⟨2000 * t.val + r.val, by omega⟩ : Fin 50000) f
  rw [PayValue.k3_pay2_apply]
  unfold outVal3
  simp only [iblk3_4_apply V c t r _ (⟨2000 * t.val + r.val, by omega⟩ : Fin 50000) rfl, anchorV3_apply]
/-- An index of the array is in point `t`'s block iff each coordinate is in the block's range on its axis. -/
theorem mem_blk3 (t : Fin cfg3.N) (i : S50000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole main_v0).slice (win3_5.rect t)).set ↔ _
  rw [View.set_slice_whole, Rect.mem_set_unit]
  exact Iff.rfl

/-- THE ARRAY after the run: row `n` lies in block `n / 2000`, and every point writes its block back. -/
theorem final3 (c : Dev nD) : (dat3 V c).arrAt 5 cfg3.N = outArr3 V c :=
  (dat3 V c).arrAt_eq_of_cover 5 (outArr3 V c) (fun t _ => flushed3_eq V c t) fun (i : S50000x64.Idx) => by
    have h0 : (i 0).val < 50000 := (i 0).isLt
    have h1 : (i 1).val < 64 := (i 1).isLt
    have hN : cfg3.N = 25 := N_3
    have ht : (i 0).val / 2000 < cfg3.N := by omega
    obtain ⟨-, ⟨e0, e1⟩⟩ := idx3_rows ⟨(i 0).val / 2000, ht⟩
    refine ⟨⟨(i 0).val / 2000, ht⟩, flush3_5 _, ?_⟩
    rw [mem_blk3]
    intro a
    match a with
    | ⟨0, _⟩ => show win3_5.index ⟨(i 0).val / 2000, ht⟩ (0 : Fin 2) * 2000 ≤ (i 0).val ∧ (i 0).val < win3_5.index ⟨(i 0).val / 2000, ht⟩ (0 : Fin 2) * 2000 + 2000
                rw [e0]; dsimp only; omega
    | ⟨1, _⟩ => show win3_5.index ⟨(i 0).val / 2000, ht⟩ (1 : Fin 2) * 64 ≤ (i 1).val ∧ (i 1).val < win3_5.index ⟨(i 0).val / 2000, ht⟩ (1 : Fin 2) * 64 + 64
                rw [e1]; omega

/-- The result array of the output pass, entry by entry. -/
theorem val3_out (c : Dev nD) (n : Fin 50000) (f : Fin 64) :
    (dat3 (F := Ideal) V c).arrAt 5 cfg3.N (ix2 n f)
      = outVal3 (Ideal.ofBits .f32 0x2B8CBCCC#32)
        (fun (n : Fin 50000) (a : Fin 512) => V c main_arg1 (ix2 n a)) (fun (a : Fin 512) (k : Fin 128) => V c main_call0_v4 (ix2 a k))
        (fun (a : Fin 512) => V c main_call0_v0_1 (ix2 a (0 : Fin 8))) (fun (k : Fin 128) (f : Fin 64) => V c main_arg6 (ix2 k f))
        (fun (f : Fin 64) => V c main_call0_v5 (ix2 (0 : Fin 1) f)) n f :=
  congrFun (final3 V c) (ix2 n f)

end Final

end Cert.KernelIdeal.Hand

end
-- ==== Proof.KernelValue.lean ====
/-
  The kernel program's result as the specification's three anchor-first layers of the launch memory.

  Each pass's value is restated over abstract arrays as one of the specification's functions (the first
  pass: the aggregate Aᵀ x and the column sums of A; a hidden layer's pass: the aggregate of the
  rectified layer, Aᵀ (relu (A v / row + b)) with v = (t / max col eps) W; the output pass:
  A v / row + b). What each pass finds in the buffers it reads is traced back along the program's
  steps: the adjacency, the weights and the bias vectors are the launch memory's (a bias row is its
  vector, reshaped on the host just before its pass), the column sums are the first pass's, each
  aggregate is what the pass before left. Composing the four values gives the three layers.
-/
import proofs.«182234_g5308579578416_cont_8to1_c_894_2_alg».proof.Proof.Track
import proofs.«182234_g5308579578416_cont_8to1_c_894_2_alg».proof.Proof.Reshape
import proofs.«182234_g5308579578416_cont_8to1_c_894_2_alg».proof.Proof.Val0
import proofs.«182234_g5308579578416_cont_8to1_c_894_2_alg».proof.Proof.Val1
import proofs.«182234_g5308579578416_cont_8to1_c_894_2_alg».proof.Proof.Val2
import proofs.«182234_g5308579578416_cont_8to1_c_894_2_alg».proof.Proof.Val3
import proofs.«182234_g5308579578416_cont_8to1_c_894_2_alg».proof.Proof.AnchorSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

-- equations and products of entries read off the buffers, with the type `EReal` named (an entry's own type is the buffer's element type, which unfolds to it)
local notation:50 x:51 " =ₑ " y:51 => @Eq EReal x y

section Specs0

variable (V : (c : Dev nD) → (b : Ref sig .tc) → Buf (Elt Ideal) ((c : Thread nD τ).loc b))

/-- The first pass leaves the aggregate `Aᵀ x` … -/
theorem val0_agg_spec (c : Dev nD) (A : Fin 50000 → Fin 512 → EReal) (x : Fin 50000 → Fin 128 → EReal)
    (hA : ∀ n a, V c main_arg1 (ix2 n a) =ₑ A n a) (hx : ∀ n k, V c main_arg0 (ix2 n k) =ₑ x n k) (a : Fin 512) (k : Fin 128) :
    (dat0 (F := Ideal) V c).arrAt 2 cfg0.N (ix2 a k) =ₑ AnchorGcn.agg A x a k :=
  (val0_agg V c a k).trans (Finset.sum_congr rfl fun n _ => congrArg₂ (· * ·) (hA n a) (hx n k))

/-- … and the column sums of `A`, in each of the eight columns of their array. -/
theorem val0_col_spec (c : Dev nD) (A : Fin 50000 → Fin 512 → EReal)
    (hA : ∀ n a, V c main_arg1 (ix2 n a) =ₑ A n a) (a : Fin 512) (j : Fin 8) :
    (dat0 (F := Ideal) V c).arrAt 3 cfg0.N (ix2 a j) =ₑ ∑ n : Fin 50000, A n a :=
  (val0_col V c a j).trans (Finset.sum_congr rfl fun n _ => hA n a)

end Specs0

/-! ### Each pass's value over abstract arrays: the passes as the specification's functions -/

section Specs

variable (V : (c : Dev nD) → (b : Ref sig .tc) → Buf (Elt Ideal) ((c : Thread nD τ).loc b))

/-- A hidden layer's pass (the first): from the adjacency `A`, the previous aggregate `t`, the column sums `col`, the
    weights and the bias it leaves the next aggregate `Aᵀ (relu (A v / row + b))`, `v = (t / max col eps) W`. -/
theorem val1_spec (c : Dev nD) (A : Fin 50000 → Fin 512 → EReal) (t : Fin 512 → Fin 128 → EReal) (col : Fin 512 → EReal)
    (W : Fin 128 → Fin 128 → EReal) (b : Fin 128 → EReal)
    (hA : ∀ n a, V c main_arg1 (ix2 n a) =ₑ A n a) (ht : ∀ a k, V c main_call0_v0_0 (ix2 a k) =ₑ t a k)
    (hcol : ∀ a, V c main_call0_v0_1 (ix2 a (0 : Fin 8)) =ₑ col a) (hW : ∀ k f, V c main_arg2 (ix2 k f) =ₑ W k f)
    (hb : ∀ f, V c main_call0_v1 (ix2 (0 : Fin 1) f) =ₑ b f) (a : Fin 512) (f : Fin 128) :
    (dat1 (F := Ideal) V c).arrAt 5 cfg1.N (ix2 a f)
      =ₑ AnchorGcn.agg A (AnchorGcn.relu (AnchorGcn.nodeOut (Ideal.ofBits .f32 0x2B8CBCCC#32) A
          (fun a f => ∑ k : Fin 128, Ideal.div (t a k) (max (col a) (Ideal.ofBits .f32 0x2B8CBCCC#32)) * W k f) b)) a f := by
  refine (val1_agg V c a f).trans ?_
  simp only [hA, ht, hcol, hW, hb]
  rfl

/-- The second hidden layer's pass, the same. -/
theorem val2_spec (c : Dev nD) (A : Fin 50000 → Fin 512 → EReal) (t : Fin 512 → Fin 128 → EReal) (col : Fin 512 → EReal)
    (W : Fin 128 → Fin 128 → EReal) (b : Fin 128 → EReal)
    (hA : ∀ n a, V c main_arg1 (ix2 n a) =ₑ A n a) (ht : ∀ a k, V c main_call0_v2 (ix2 a k) =ₑ t a k)
    (hcol : ∀ a, V c main_call0_v0_1 (ix2 a (0 : Fin 8)) =ₑ col a) (hW : ∀ k f, V c main_arg4 (ix2 k f) =ₑ W k f)
    (hb : ∀ f, V c main_call0_v3 (ix2 (0 : Fin 1) f) =ₑ b f) (a : Fin 512) (f : Fin 128) :
    (dat2 (F := Ideal) V c).arrAt 5 cfg2.N (ix2 a f)
      =ₑ AnchorGcn.agg A (AnchorGcn.relu (AnchorGcn.nodeOut (Ideal.ofBits .f32 0x2B8CBCCC#32) A
          (fun a f => ∑ k : Fin 128, Ideal.div (t a k) (max (col a) (Ideal.ofBits .f32 0x2B8CBCCC#32)) * W k f) b)) a f := by
  refine (val2_agg V c a f).trans ?_
  simp only [hA, ht, hcol, hW, hb]
  rfl

/-- The output pass: `A v / row + b` with `v = (t / max col eps) W`. -/
theorem val3_spec (c : Dev nD) (A : Fin 50000 → Fin 512 → EReal) (t : Fin 512 → Fin 128 → EReal) (col : Fin 512 → EReal)
    (W : Fin 128 → Fin 64 → EReal) (b : Fin 64 → EReal)
    (hA : ∀ n a, V c main_arg1 (ix2 n a) =ₑ A n a) (ht : ∀ a k, V c main_call0_v4 (ix2 a k) =ₑ t a k)
    (hcol : ∀ a, V c main_call0_v0_1 (ix2 a (0 : Fin 8)) =ₑ col a) (hW : ∀ k f, V c main_arg6 (ix2 k f) =ₑ W k f)
    (hb : ∀ f, V c main_call0_v5 (ix2 (0 : Fin 1) f) =ₑ b f) (n : Fin 50000) (f : Fin 64) :
    (dat3 (F := Ideal) V c).arrAt 5 cfg3.N (ix2 n f)
      =ₑ AnchorGcn.nodeOut (Ideal.ofBits .f32 0x2B8CBCCC#32) A
          (fun a f => ∑ k : Fin 128, Ideal.div (t a k) (max (col a) (Ideal.ofBits .f32 0x2B8CBCCC#32)) * W k f) b n f := by
  refine (val3_out V c n f).trans ?_
  have eA : (fun (n : Fin 50000) (a : Fin 512) => (V c main_arg1 (ix2 n a) : EReal)) = A := funext fun n => funext fun a => hA n a
  have et : (fun (a : Fin 512) (k : Fin 128) => (V c main_call0_v4 (ix2 a k) : EReal)) = t := funext fun a => funext fun k => ht a k
  have ec : (fun (a : Fin 512) => (V c main_call0_v0_1 (ix2 a (0 : Fin 8)) : EReal)) = col := funext fun a => hcol a
  have eW : (fun (k : Fin 128) (f : Fin 64) => (V c main_arg6 (ix2 k f) : EReal)) = W := funext fun k => funext fun f => hW k f
  have eb : (fun (f : Fin 64) => (V c main_call0_v5 (ix2 (0 : Fin 1) f) : EReal)) = b := funext fun f => hb f
  rw [eA, et, ec, eW, eb]
  exact outVal3_eq_nodeOut _ A t col W b n f

end Specs

/-! ### What each pass finds in the buffers it reads, traced back to the launch memory and to the earlier passes' results -/

section Stages

variable (m : (ℓ : Loc nD τ sig) → Buf (Elt Ideal) ℓ)

-- the adjacency, as every pass finds it
theorem V2_adj (c : Dev nD) (n : Fin 50000) (a : Fin 512) :
    V2 m c main_arg1 (ix2 n a) =ₑ (m ((c : Thread nD τ).loc main_arg1) : S50000x512.Idx → EReal) (ix2 n a) :=
  congrFun ((W2_keep_arg1 m c).trans (W1_keep_arg1 m c)) (ix2 n a)
theorem V4_adj (c : Dev nD) (n : Fin 50000) (a : Fin 512) :
    V4 m c main_arg1 (ix2 n a) =ₑ (m ((c : Thread nD τ).loc main_arg1) : S50000x512.Idx → EReal) (ix2 n a) :=
  congrFun ((W4_keep_arg1 m c).trans ((W3_keep_arg1 m c).trans ((W2_keep_arg1 m c).trans (W1_keep_arg1 m c)))) (ix2 n a)
theorem V6_adj (c : Dev nD) (n : Fin 50000) (a : Fin 512) :
    V6 m c main_arg1 (ix2 n a) =ₑ (m ((c : Thread nD τ).loc main_arg1) : S50000x512.Idx → EReal) (ix2 n a) :=
  congrFun ((W6_keep_arg1 m c).trans ((W5_keep_arg1 m c).trans ((W4_keep_arg1 m c).trans ((W3_keep_arg1 m c).trans ((W2_keep_arg1 m c).trans (W1_keep_arg1 m c)))))) (ix2 n a)

-- the column sums the first pass left, as every later pass finds them
theorem V2_col (c : Dev nD) (a : Fin 512) (j : Fin 8) :
    V2 m c main_call0_v0_1 (ix2 a j) =ₑ (dat0 (F := Ideal) (V0 m) c).arrAt 3 cfg0.N (ix2 a j) :=
  congrFun ((W2_keep_v0_1 m c).trans (W1_arr m c 3)) (ix2 a j)
theorem V4_col (c : Dev nD) (a : Fin 512) (j : Fin 8) :
    V4 m c main_call0_v0_1 (ix2 a j) =ₑ (dat0 (F := Ideal) (V0 m) c).arrAt 3 cfg0.N (ix2 a j) :=
  congrFun ((W4_keep_v0_1 m c).trans ((W3_keep_v0_1 m c).trans ((W2_keep_v0_1 m c).trans (W1_arr m c 3)))) (ix2 a j)
theorem V6_col (c : Dev nD) (a : Fin 512) (j : Fin 8) :
    V6 m c main_call0_v0_1 (ix2 a j) =ₑ (dat0 (F := Ideal) (V0 m) c).arrAt 3 cfg0.N (ix2 a j) :=
  congrFun ((W6_keep_v0_1 m c).trans ((W5_keep_v0_1 m c).trans ((W4_keep_v0_1 m c).trans ((W3_keep_v0_1 m c).trans ((W2_keep_v0_1 m c).trans (W1_arr m c 3)))))) (ix2 a j)

-- the aggregates: each pass finds what the pass before left
theorem V2_agg (c : Dev nD) (a : Fin 512) (k : Fin 128) :
    V2 m c main_call0_v0_0 (ix2 a k) =ₑ (dat0 (F := Ideal) (V0 m) c).arrAt 2 cfg0.N (ix2 a k) :=
  congrFun ((W2_keep_v0_0 m c).trans (W1_arr m c 2)) (ix2 a k)
theorem V4_agg (c : Dev nD) (a : Fin 512) (k : Fin 128) :
    V4 m c main_call0_v2 (ix2 a k) =ₑ (dat1 (F := Ideal) (V2 m) c).arrAt 5 cfg1.N (ix2 a k) :=
  congrFun ((W4_keep_v2 m c).trans (W3_arr m c 5)) (ix2 a k)
theorem V6_agg (c : Dev nD) (a : Fin 512) (k : Fin 128) :
    V6 m c main_call0_v4 (ix2 a k) =ₑ (dat2 (F := Ideal) (V4 m) c).arrAt 5 cfg2.N (ix2 a k) :=
  congrFun ((W6_keep_v4 m c).trans (W5_arr m c 5)) (ix2 a k)

-- the weights
theorem V2_w (c : Dev nD) (k : Fin 128) (g : Fin 128) :
    V2 m c main_arg2 (ix2 k g) =ₑ (m ((c : Thread nD τ).loc main_arg2) : S128x128.Idx → EReal) (ix2 k g) :=
  congrFun ((W2_keep_arg2 m c).trans (W1_keep_arg2 m c)) (ix2 k g)
theorem V4_w (c : Dev nD) (k : Fin 128) (g : Fin 128) :
    V4 m c main_arg4 (ix2 k g) =ₑ (m ((c : Thread nD τ).loc main_arg4) : S128x128.Idx → EReal) (ix2 k g) :=
  congrFun ((W4_keep_arg4 m c).trans ((W3_keep_arg4 m c).trans ((W2_keep_arg4 m c).trans (W1_keep_arg4 m c)))) (ix2 k g)
theorem V6_w (c : Dev nD) (k : Fin 128) (g : Fin 64) :
    V6 m c main_arg6 (ix2 k g) =ₑ (m ((c : Thread nD τ).loc main_arg6) : S128x64.Idx → EReal) (ix2 k g) :=
  congrFun ((W6_keep_arg6 m c).trans ((W5_keep_arg6 m c).trans ((W4_keep_arg6 m c).trans ((W3_keep_arg6 m c).trans ((W2_keep_arg6 m c).trans (W1_keep_arg6 m c)))))) (ix2 k g)

-- the bias rows: each the bias vector, reshaped on the host just before its pass
theorem V2_b (c : Dev nD) (g : Fin 128) :
    V2 m c main_call0_v1 (ix2 (0 : Fin 1) g) =ₑ (m ((c : Thread nD τ).loc main_arg3) : S128.Idx → EReal) (ix1 g) :=
  (W2_v1_apply m c g).trans (congrFun (W1_keep_arg3 m c) (ix1 g))
theorem V4_b (c : Dev nD) (g : Fin 128) :
    V4 m c main_call0_v3 (ix2 (0 : Fin 1) g) =ₑ (m ((c : Thread nD τ).loc main_arg5) : S128.Idx → EReal) (ix1 g) :=
  (W4_v3_apply m c g).trans (congrFun ((W3_keep_arg5 m c).trans ((W2_keep_arg5 m c).trans (W1_keep_arg5 m c))) (ix1 g))
theorem V6_b (c : Dev nD) (g : Fin 64) :
    V6 m c main_call0_v5 (ix2 (0 : Fin 1) g) =ₑ (m ((c : Thread nD τ).loc main_arg7) : S64.Idx → EReal) (ix1 g) :=
  (W6_v5_apply m c g).trans (congrFun ((W5_keep_arg7 m c).trans ((W4_keep_arg7 m c).trans ((W3_keep_arg7 m c).trans ((W2_keep_arg7 m c).trans (W1_keep_arg7 m c))))) (ix1 g))

-- the result array is what the last pass leaves
theorem W7_out (c : Dev nD) (n : Fin 50000) (f : Fin 64) :
    (W7 m c (Proc.devRef .tc main_v0) : S50000x64.Idx → EReal) (ix2 n f) =ₑ (dat3 (F := Ideal) (V6 m) c).arrAt 5 cfg3.N (ix2 n f) :=
  congrFun (W7_arr m c 5) (ix2 n f)

end Stages

/-! ### The composition: the result array is the specification's three anchor-first layers of the launch memory -/

section Compose

variable (m : (ℓ : Loc nD τ sig) → Buf (Elt Ideal) ℓ)

/-- The launch memory's arrays as the specification's arguments. -/
abbrev adjM (c : Dev nD) : Fin 50000 → Fin 512 → EReal := fun (n : Fin 50000) (a : Fin 512) => (m ((c : Thread nD τ).loc main_arg1) : S50000x512.Idx → EReal) (ix2 n a)
abbrev featM (c : Dev nD) : Fin 50000 → Fin 128 → EReal := fun (n : Fin 50000) (k : Fin 128) => (m ((c : Thread nD τ).loc main_arg0) : S50000x128.Idx → EReal) (ix2 n k)
abbrev w1M (c : Dev nD) : Fin 128 → Fin 128 → EReal := fun (k : Fin 128) (g : Fin 128) => (m ((c : Thread nD τ).loc main_arg2) : S128x128.Idx → EReal) (ix2 k g)
abbrev b1M (c : Dev nD) : Fin 128 → EReal := fun (g : Fin 128) => (m ((c : Thread nD τ).loc main_arg3) : S128.Idx → EReal) (ix1 g)
abbrev w2M (c : Dev nD) : Fin 128 → Fin 128 → EReal := fun (k : Fin 128) (g : Fin 128) => (m ((c : Thread nD τ).loc main_arg4) : S128x128.Idx → EReal) (ix2 k g)
abbrev b2M (c : Dev nD) : Fin 128 → EReal := fun (g : Fin 128) => (m ((c : Thread nD τ).loc main_arg5) : S128.Idx → EReal) (ix1 g)
abbrev w3M (c : Dev nD) : Fin 128 → Fin 64 → EReal := fun (k : Fin 128) (g : Fin 64) => (m ((c : Thread nD τ).loc main_arg6) : S128x64.Idx → EReal) (ix2 k g)
abbrev b3M (c : Dev nD) : Fin 64 → EReal := fun (g : Fin 64) => (m ((c : Thread nD τ).loc main_arg7) : S64.Idx → EReal) (ix1 g)

/-- The first pass: the aggregate of the features and the column sums of the adjacency. -/
theorem stage0_agg (c : Dev nD) (a : Fin 512) (k : Fin 128) :
    (dat0 (F := Ideal) (V0 m) c).arrAt 2 cfg0.N (ix2 a k) =ₑ AnchorGcn.agg (adjM m c) (featM m c) a k :=
  val0_agg_spec (V0 m) c (adjM m c) (featM m c) (fun _ _ => rfl) (fun _ _ => rfl) a k
theorem stage0_col (c : Dev nD) (a : Fin 512) (j : Fin 8) :
    (dat0 (F := Ideal) (V0 m) c).arrAt 3 cfg0.N (ix2 a j) =ₑ ∑ n : Fin 50000, adjM m c n a :=
  val0_col_spec (V0 m) c (adjM m c) (fun _ _ => rfl) a j

/-- The first hidden layer's pass: the aggregate of the rectified first layer. -/
theorem stage1 (c : Dev nD) (a : Fin 512) (f : Fin 128) :
    (dat1 (F := Ideal) (V2 m) c).arrAt 5 cfg1.N (ix2 a f)
      =ₑ AnchorGcn.agg (adjM m c) (AnchorGcn.relu (AnchorGcn.kerLayer (Ideal.ofBits .f32 0x2B8CBCCC#32) (adjM m c) (featM m c) (w1M m c) (b1M m c))) a f :=
  val1_spec (V2 m) c (adjM m c) (AnchorGcn.agg (adjM m c) (featM m c)) (fun a => ∑ n : Fin 50000, adjM m c n a) (w1M m c) (b1M m c)
    (V2_adj m c) (fun a k => (V2_agg m c a k).trans (stage0_agg m c a k)) (fun a => (V2_col m c a 0).trans (stage0_col m c a 0))
    (V2_w m c) (V2_b m c) a f

/-- The second hidden layer's pass: the aggregate of the rectified second layer. -/
theorem stage2 (c : Dev nD) (a : Fin 512) (f : Fin 128) :
    (dat2 (F := Ideal) (V4 m) c).arrAt 5 cfg2.N (ix2 a f)
      =ₑ AnchorGcn.agg (adjM m c) (AnchorGcn.relu (AnchorGcn.kerLayer (Ideal.ofBits .f32 0x2B8CBCCC#32) (adjM m c)
          (AnchorGcn.relu (AnchorGcn.kerLayer (Ideal.ofBits .f32 0x2B8CBCCC#32) (adjM m c) (featM m c) (w1M m c) (b1M m c))) (w2M m c) (b2M m c))) a f :=
  val2_spec (V4 m) c (adjM m c)
    (AnchorGcn.agg (adjM m c) (AnchorGcn.relu (AnchorGcn.kerLayer (Ideal.ofBits .f32 0x2B8CBCCC#32) (adjM m c) (featM m c) (w1M m c) (b1M m c))))
    (fun a => ∑ n : Fin 50000, adjM m c n a) (w2M m c) (b2M m c)
    (V4_adj m c) (fun a k => (V4_agg m c a k).trans (stage1 m c a k)) (fun a => (V4_col m c a 0).trans (stage0_col m c a 0))
    (V4_w m c) (V4_b m c) a f

/-- THE KERNEL PROGRAM'S RESULT: the three anchor-first layers of the launch memory's arrays. -/
theorem kernel_value (c : Dev nD) (n : Fin 50000) (f : Fin 64) :
    (W7 m c (Proc.devRef .tc main_v0) : S50000x64.Idx → EReal) (ix2 n f)
      = AnchorGcn.kerNet (Ideal.ofBits .f32 0x2B8CBCCC#32)
          (fun (n : Fin 50000) (a : Fin 512) => (m ((c : Thread nD τ).loc main_arg1) : S50000x512.Idx → EReal) (ix2 n a))
          (fun (n : Fin 50000) (k : Fin 128) => (m ((c : Thread nD τ).loc main_arg0) : S50000x128.Idx → EReal) (ix2 n k))
          (fun (k : Fin 128) (g : Fin 128) => (m ((c : Thread nD τ).loc main_arg2) : S128x128.Idx → EReal) (ix2 k g))
          (fun (g : Fin 128) => (m ((c : Thread nD τ).loc main_arg3) : S128.Idx → EReal) (ix1 g))
          (fun (k : Fin 128) (g : Fin 128) => (m ((c : Thread nD τ).loc main_arg4) : S128x128.Idx → EReal) (ix2 k g))
          (fun (g : Fin 128) => (m ((c : Thread nD τ).loc main_arg5) : S128.Idx → EReal) (ix1 g))
          (fun (k : Fin 128) (g : Fin 64) => (m ((c : Thread nD τ).loc main_arg6) : S128x64.Idx → EReal) (ix2 k g))
          (fun (g : Fin 64) => (m ((c : Thread nD τ).loc main_arg7) : S64.Idx → EReal) (ix1 g)) n f :=
  (W7_out m c n f).trans
    (val3_spec (V6 m) c (adjM m c)
      (AnchorGcn.agg (adjM m c) (AnchorGcn.relu (AnchorGcn.kerLayer (Ideal.ofBits .f32 0x2B8CBCCC#32) (adjM m c)
          (AnchorGcn.relu (AnchorGcn.kerLayer (Ideal.ofBits .f32 0x2B8CBCCC#32) (adjM m c) (featM m c) (w1M m c) (b1M m c))) (w2M m c) (b2M m c))))
      (fun a => ∑ n : Fin 50000, adjM m c n a) (w3M m c) (b3M m c)
      (V6_adj m c) (fun a k => (V6_agg m c a k).trans (stage2 m c a k)) (fun a => (V6_col m c a 0).trans (stage0_col m c a 0))
      (V6_w m c) (V6_b m c) n f)

end Compose

end Cert.KernelIdeal.Hand

end
-- ==== Proof.AnchorAlgebra.lean ====
/-
  The two arrangements of an anchor-graph convolution layer agree on real inputs with a positive floor.

  On real inputs every floored sum `max s e` is a real `≥ e > 0`, so every quotient is the real
  quotient and both arrangements are coercions of real expressions; in the reals
    (Σ_a A n a * Σ_k ((Σ_n' A n' a * h n' k) / c a) * W k f) / r n
      = Σ_a (A n a / r n) * Σ_n' (A n' a / c a) * Σ_k h n' k * W k f
  by distributing the sums and exchanging the order of summation.  A layer of real inputs is real,
  and the rectifier of a real is real, so the three layers chain.
-/
import proofs.«182234_g5308579578416_cont_8to1_c_894_2_alg».proof.Proof.AnchorSpec

noncomputable section

namespace AnchorGcn

open Idealize.ShloMosaic

variable {N K I O : Type} [Fintype N] [Fintype K] [Fintype I] [Fintype O]

namespace Alg

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-- The coercion commutes with `max`. -/
theorem coe_max (x y : ℝ) : ((max x y : ℝ) : EReal) = max (x : EReal) (y : EReal) :=
  (EReal.coe_strictMono.monotone).map_max

/-- The quotient of two reals with a nonzero divisor is the real quotient. -/
theorem div_real (x y : ℝ) (hy : y ≠ 0) : Ideal.div (x : EReal) (y : EReal) = ((x / y : ℝ) : EReal) := by
  rw [Ideal.div_coe hy, ← EReal.coe_mul, mul_one_div]

/-- A sum floored at a positive real is nonzero. -/
theorem clip_ne_zero (s e : ℝ) (he : 0 < e) : max s e ≠ 0 :=
  (lt_of_lt_of_le he (le_max_right s e)).ne'

/-! ### Each piece of a layer, on real inputs, is the coercion of its real counterpart -/

theorem colClip_coe (e : ℝ) (A : N → K → ℝ) (a : K) :
    colClip (e : EReal) (fun n a => (A n a : EReal)) a = ((max (∑ n, A n a) e : ℝ) : EReal) := by
  rw [colClip, coe_max, coe_sum]

theorem rowClip_coe (e : ℝ) (A : N → K → ℝ) (n : N) :
    rowClip (e : EReal) (fun n a => (A n a : EReal)) n = ((max (∑ a, A n a) e : ℝ) : EReal) := by
  rw [rowClip, coe_max, coe_sum]

theorem agg_coe (A : N → K → ℝ) (h : N → I → ℝ) (a : K) (k : I) :
    agg (fun n a => (A n a : EReal)) (fun n k => (h n k : EReal)) a k = ((∑ n, A n a * h n k : ℝ) : EReal) := by
  rw [agg, coe_sum]
  exact Finset.sum_congr rfl fun n _ => (EReal.coe_mul _ _).symm

theorem anchorW_coe (e : ℝ) (he : 0 < e) (A : N → K → ℝ) (t : K → I → ℝ) (W : I → O → ℝ) (a : K) (f : O) :
    anchorW (e : EReal) (fun n a => (A n a : EReal)) (fun a k => (t a k : EReal)) (fun k f => (W k f : EReal)) a f
      = ((∑ k, t a k / max (∑ n, A n a) e * W k f : ℝ) : EReal) := by
  rw [anchorW, coe_sum]
  refine Finset.sum_congr rfl fun k _ => ?_
  rw [colClip_coe, div_real _ _ (clip_ne_zero _ e he), ← EReal.coe_mul]

theorem nodeOut_coe (e : ℝ) (he : 0 < e) (A : N → K → ℝ) (v : K → O → ℝ) (b : O → ℝ) (n : N) (f : O) :
    nodeOut (e : EReal) (fun n a => (A n a : EReal)) (fun a f => (v a f : EReal)) (fun f => (b f : EReal)) n f
      = (((∑ a, A n a * v a f) / max (∑ a, A n a) e + b f : ℝ) : EReal) := by
  have hs : (∑ a, (A n a : EReal) * (v a f : EReal)) = ((∑ a, A n a * v a f : ℝ) : EReal) := by
    rw [coe_sum]
    exact Finset.sum_congr rfl fun a _ => (EReal.coe_mul _ _).symm
  rw [nodeOut, hs, rowClip_coe, div_real _ _ (clip_ne_zero _ e he), ← EReal.coe_add]

theorem refLayer_coe (e : ℝ) (he : 0 < e) (A : N → K → ℝ) (h : N → I → ℝ) (W : I → O → ℝ) (b : O → ℝ) (n : N) (f : O) :
    refLayer (e : EReal) (fun n a => (A n a : EReal)) (fun n k => (h n k : EReal)) (fun k f => (W k f : EReal))
        (fun f => (b f : EReal)) n f
      = (((∑ a, A n a / max (∑ a, A n a) e * ∑ n', A n' a / max (∑ n, A n a) e * ∑ k, h n' k * W k f) + b f : ℝ) : EReal) := by
  rw [refLayer, EReal.coe_add, coe_sum]
  congr 1
  refine Finset.sum_congr rfl fun a _ => ?_
  rw [rowClip_coe, div_real _ _ (clip_ne_zero _ e he), EReal.coe_mul, coe_sum]
  congr 1
  refine Finset.sum_congr rfl fun n' _ => ?_
  rw [colClip_coe, div_real _ _ (clip_ne_zero _ e he), EReal.coe_mul, coe_sum]
  congr 1

/-! ### The identity in the reals -/

/-- Distributing the sums and exchanging the order of summation: the anchor-first expression is the
    node-first one, for any column scales `c` and row scale `r` (division by them is a product). -/
theorem real_layer (A : N → K → ℝ) (h : N → I → ℝ) (W : I → O → ℝ) (c : K → ℝ) (r : ℝ) (n : N) (f : O) :
    (∑ a, A n a * ∑ k, (∑ n', A n' a * h n' k) / c a * W k f) / r
      = ∑ a, A n a / r * ∑ n', A n' a / c a * ∑ k, h n' k * W k f := by
  rw [Finset.sum_div]
  refine Finset.sum_congr rfl fun a _ => ?_
  have inner : (∑ k, (∑ n', A n' a * h n' k) / c a * W k f) = ∑ n', A n' a / c a * ∑ k, h n' k * W k f := by
    calc (∑ k, (∑ n', A n' a * h n' k) / c a * W k f)
        = ∑ k, ∑ n', A n' a / c a * (h n' k * W k f) := by
          refine Finset.sum_congr rfl fun k _ => ?_
          rw [Finset.sum_div, Finset.sum_mul]
          exact Finset.sum_congr rfl fun n' _ => by ring
      _ = ∑ n', ∑ k, A n' a / c a * (h n' k * W k f) := Finset.sum_comm
      _ = ∑ n', A n' a / c a * ∑ k, h n' k * W k f := by
          refine Finset.sum_congr rfl fun n' _ => ?_
          rw [Finset.mul_sum]
  rw [inner]; ring

/-- The rectifier of a real array is real. -/
theorem relu_real (h : N → O → EReal) (hh : ∀ n f, ∃ r : ℝ, h n f = (r : EReal)) :
    ∀ n f, ∃ r : ℝ, relu h n f = (r : EReal) := by
  intro n f
  obtain ⟨r, hr⟩ := hh n f
  exact ⟨max r 0, by rw [relu, hr, coe_max, EReal.coe_zero]⟩

end Alg

open Alg

/-- On real inputs with a positive floor the two arrangements of a layer agree, and the layer is real. -/
theorem kerLayer_eq_refLayer {N K I O : Type} [Fintype N] [Fintype K] [Fintype I] [Fintype O]
    (eps : EReal) (e : ℝ) (he : 0 < e) (heps : eps = (e : EReal))
    (A : N → K → EReal) (h : N → I → EReal) (W : I → O → EReal) (b : O → EReal)
    (hA : ∀ n a, ∃ r : ℝ, A n a = (r : EReal)) (hh : ∀ n k, ∃ r : ℝ, h n k = (r : EReal))
    (hW : ∀ k f, ∃ r : ℝ, W k f = (r : EReal)) (hb : ∀ f, ∃ r : ℝ, b f = (r : EReal)) :
    kerLayer eps A h W b = refLayer eps A h W b ∧ ∀ n f, ∃ r : ℝ, refLayer eps A h W b n f = (r : EReal) := by
  subst heps
  choose A' hA' using hA
  choose h' hh' using hh
  choose W' hW' using hW
  choose b' hb' using hb
  obtain rfl : A = fun n a => (A' n a : EReal) := funext fun n => funext fun a => hA' n a
  obtain rfl : h = fun n k => (h' n k : EReal) := funext fun n => funext fun k => hh' n k
  obtain rfl : W = fun k f => (W' k f : EReal) := funext fun k => funext fun f => hW' k f
  obtain rfl : b = fun f => (b' f : EReal) := funext hb'
  refine ⟨?_, fun n f => ⟨_, refLayer_coe e he A' h' W' b' n f⟩⟩
  funext n f
  have hagg : agg (fun n a => (A' n a : EReal)) (fun n k => (h' n k : EReal))
      = fun a k => ((∑ n, A' n a * h' n k : ℝ) : EReal) :=
    funext fun a => funext fun k => agg_coe A' h' a k
  have hv : anchorW (e : EReal) (fun n a => (A' n a : EReal)) (fun a k => ((∑ n, A' n a * h' n k : ℝ) : EReal))
        (fun k f => (W' k f : EReal))
      = fun a f => ((∑ k, (∑ n, A' n a * h' n k) / max (∑ n, A' n a) e * W' k f : ℝ) : EReal) :=
    funext fun a => funext fun f => anchorW_coe e he A' (fun a k => ∑ n, A' n a * h' n k) W' a f
  rw [refLayer_coe e he, kerLayer, hagg, hv,
    nodeOut_coe e he A' (fun a f => ∑ k, (∑ n, A' n a * h' n k) / max (∑ n, A' n a) e * W' k f) b' n f]
  congr 2
  exact real_layer A' h' W' (fun a => max (∑ n, A' n a) e) (max (∑ a, A' n a) e) n f

/-- The three layers, with the rectifier between them, agree on real inputs with a positive floor. -/
theorem kerNet_eq_refNet {N K I H1 H2 O : Type} [Fintype N] [Fintype K] [Fintype I] [Fintype H1] [Fintype H2] [Fintype O]
    (eps : EReal) (e : ℝ) (he : 0 < e) (heps : eps = (e : EReal))
    (A : N → K → EReal) (x : N → I → EReal) (W1 : I → H1 → EReal) (b1 : H1 → EReal) (W2 : H1 → H2 → EReal) (b2 : H2 → EReal) (W3 : H2 → O → EReal) (b3 : O → EReal)
    (hA : ∀ n a, ∃ r : ℝ, A n a = (r : EReal)) (hx : ∀ n k, ∃ r : ℝ, x n k = (r : EReal))
    (hW1 : ∀ k f, ∃ r : ℝ, W1 k f = (r : EReal)) (hb1 : ∀ f, ∃ r : ℝ, b1 f = (r : EReal))
    (hW2 : ∀ k f, ∃ r : ℝ, W2 k f = (r : EReal)) (hb2 : ∀ f, ∃ r : ℝ, b2 f = (r : EReal))
    (hW3 : ∀ k f, ∃ r : ℝ, W3 k f = (r : EReal)) (hb3 : ∀ f, ∃ r : ℝ, b3 f = (r : EReal)) :
    kerNet eps A x W1 b1 W2 b2 W3 b3 = refNet eps A x W1 b1 W2 b2 W3 b3 := by
  obtain ⟨e1, r1⟩ := kerLayer_eq_refLayer eps e he heps A x W1 b1 hA hx hW1 hb1
  have q1 := relu_real _ r1
  obtain ⟨e2, r2⟩ := kerLayer_eq_refLayer eps e he heps A (relu (refLayer eps A x W1 b1)) W2 b2 hA q1 hW2 hb2
  have q2 := relu_real _ r2
  obtain ⟨e3, _⟩ := kerLayer_eq_refLayer eps e he heps A
    (relu (refLayer eps A (relu (refLayer eps A x W1 b1)) W2 b2)) W3 b3 hA q2 hW3 hb3
  rw [kerNet, refNet, e1, e2, e3]

end AnchorGcn

end
-- ==== Proof.FiniteInputs.lean ====
/-
  The precondition read back: when the printed `finite_inputs` of the eight argument arrays is all ones,
  every entry of every array is a real.

  The function is the conjunction, over the eight arrays, of `all (|x| < +∞)`: a reduction by `and`
  that is one had a one at every entry, and an extended real whose absolute value `max x (-x)` is
  below `⊤` is neither `⊥` nor `⊤`, hence the coercion of a real.
-/
import proofs.«182234_g5308579578416_cont_8to1_c_894_2_alg».proof.Pre_finite_inputs
import Idealize.ShloMosaic.Lib.ReduceAll
import Idealize.ShloMosaic.Lib.ValueIdx
import Idealize.ShloMosaic.PureOps.Ideal.Laws

namespace Cert.FiniteInputs

open Idealize.ShloMosaic Cert.Pre_finite_inputs

/-- The rank-0 shape has one index. -/
instance subsingleton_S_Idx : Subsingleton S_.Idx := ⟨fun a b => funext fun d => d.elim0⟩

/-- The f32 pattern `0x7F800000` denotes `⊤`. -/
theorem ofBits_inf : Ideal.ofBits .f32 0x7F800000#32 = (⊤ : EReal) := by simp [Ideal.ofBits, Ideal.ieee]

/-- An extended real whose absolute value compares below `+∞` is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- One conjunct of the precondition, at any shape: `all (|a| < +∞) = 1` makes every entry of `a` a real. -/
theorem all_real {s : Shape} {axes : List (Fin s.rank)}
    (bc : S_.BroadcastsInDim s (![] : Fin 0 → Fin s.rank)) (rd : s.ReducesTo axes S_) (hu : 0 < S_.numel)
    (a : FVec Ideal s .f32)
    (h : Host.reduce IntOp.andi
        (cmpf .olt (Host.absf a) (broadcastInDim s ![] bc (constant (F := Ideal) S_ .f32 0x7F800000#32)))
        (constantI S_ 1 1#1) rd hu ValueIdx.ix0 = 1#1) :
    ∀ i, ∃ r : ℝ, a i = (r : EReal) := by
  intro i
  have e := Host.reduce_andi_all _ _ rd hu ValueIdx.ix0 h i
  exact real_of_abs_lt_inf (a i) e

/-- The printed precondition, all ones, makes every entry of each of the eight argument arrays a real. -/
theorem real_of_pre [Cert.Pre_finite_inputs.Facts]
    (a0 : (⟨S50000x128, .f32⟩ : BufTy).Contents (Elt Ideal)) (a1 : (⟨S50000x512, .f32⟩ : BufTy).Contents (Elt Ideal))
    (a2 : (⟨S128x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal))
    (a6 : (⟨S128x64, .f32⟩ : BufTy).Contents (Elt Ideal)) (a7 : (⟨S64, .f32⟩ : BufTy).Contents (Elt Ideal))
    (h : Cert.Pre_finite_inputs.fn (F := Ideal) a0 a1 a2 a3 a4 a5 a6 a7 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ValueIdx.ix0
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  exact ⟨all_real _ _ _ a0 e0, all_real _ _ _ a1 e1, all_real _ _ _ a2 e2, all_real _ _ _ a3 e3,
    all_real _ _ _ a4 e4, all_real _ _ _ a5 e5, all_real _ _ _ a6 e6, all_real _ _ _ a7 e7⟩

end Cert.FiniteInputs
-- ==== Proof.RefNet.lean ====
/-
  The reference program, read at an index, is the three node-first layers of the shared specification.

  Each layer of the reference divides the adjacency `A` entry by entry by its floored column sums and, separately, by
  its floored row sums, multiplies the features by the weights, applies the transposed column-normalised copy and then
  the row-normalised copy, and adds the bias:  `(A / row) ((A / col)ᵀ (h W)) + b`.  The column sum and the row sum are
  "zero plus the finite sum", the zero being removed by `zero_add`; the floor is a maximum with the same word on both
  sides.  The second and third layers recompute the same two normalised copies, so their stages are the first layer's.
  Between layers the rectifier is a maximum with zero.  Every index met on the way is identified, coordinate by
  coordinate, with the index built from its two (or one) coordinates.
-/
import proofs.«182234_g5308579578416_cont_8to1_c_894_2_alg».proof.Proof.AnchorSpec
import proofs.«182234_g5308579578416_cont_8to1_c_894_2_alg».proof.Proof.Gen.ReferenceIdeal.Read

noncomputable section

namespace Cert.ReferenceIdeal.RefValue

open Cert.ReferenceIdeal Cert.ReferenceIdeal.Read Idealize.ShloMosaic Idealize.ShloMosaic.ValueIdx

/-- Two rank-2 (rank-1) indices with the same coordinates are equal. -/
local macro "idx2" : tactic => `(tactic| exact funext fun d => Fin.ext (by match d with | ⟨0, _⟩ => rfl | ⟨1, _⟩ => rfl))
local macro "idx1" : tactic => `(tactic| exact funext fun d => Fin.ext (by match d with | ⟨0, _⟩ => rfl))

/-- The floor of both normalisations. -/
abbrev eps : EReal := Ideal.ofBits .f32 0x2B8CBCCC#32

/-- The adjacency as a function of its two coordinates. -/
abbrev adj (x1 : (⟨S50000x512, .f32⟩ : BufTy).Contents (Elt Ideal)) (n : Fin 50000) (a : Fin 512) : EReal := x1 (ix2 n a)

/-- The column-normalised adjacency: an entry over its column's floored sum. -/
theorem colNorm1 (x1 : (⟨S50000x512, .f32⟩ : BufTy).Contents (Elt Ideal)) (n : Fin 50000) (a : Fin 512) :
    val_main_v6 (F := Ideal) x1 (ix2 n a) = Ideal.div (x1 (ix2 n a)) (AnchorGcn.colClip eps (adj x1) a) := by
  rw [val_main_v6_apply, val_main_v5_apply, val_main_v4_apply, val_main_v2_apply, val_main_v3_apply,
    val_main_cst_0_apply, val_main_v1_apply, val_main_cst_apply]
  simp only [Ideal.hostDivf_def, Ideal.maximumf_def, Ideal.ofBits_def, Ideal.ofBits_zero_f32, zero_add]
  unfold AnchorGcn.colClip
  refine congrArg (fun s => Ideal.div (x1 (ix2 n a)) (max s eps)) (Finset.sum_congr rfl fun k _ => congrArg x1 ?_)
  exact funext fun d => Fin.ext (by match d with | ⟨0, _⟩ => rfl | ⟨1, _⟩ => rfl)

/-- The row-normalised adjacency: an entry over its row's floored sum. -/
theorem rowNorm1 (x1 : (⟨S50000x512, .f32⟩ : BufTy).Contents (Elt Ideal)) (n : Fin 50000) (a : Fin 512) :
    val_main_v12 (F := Ideal) x1 (ix2 n a) = Ideal.div (x1 (ix2 n a)) (AnchorGcn.rowClip eps (adj x1) n) := by
  rw [val_main_v12_apply, val_main_v11_apply, val_main_v10_apply, val_main_v8_apply, val_main_v9_apply,
    val_main_cst_2_apply, val_main_v7_apply, val_main_cst_1_apply]
  simp only [Ideal.hostDivf_def, Ideal.maximumf_def, Ideal.ofBits_def, Ideal.ofBits_zero_f32, zero_add]
  unfold AnchorGcn.rowClip
  refine congrArg (fun s => Ideal.div (x1 (ix2 n a)) (max s eps)) (Finset.sum_congr rfl fun k _ => congrArg x1 ?_)
  exact funext fun d => Fin.ext (by match d with | ⟨0, _⟩ => rfl | ⟨1, _⟩ => rfl)

/-- The features times the first layer's weights. -/
theorem dense1 (x0 : (⟨S50000x128, .f32⟩ : BufTy).Contents (Elt Ideal)) (x2 : (⟨S128x128, .f32⟩ : BufTy).Contents (Elt Ideal))
    (n : Fin 50000) (f : Fin 128) :
    val_main_v0 (F := Ideal) x0 x2 (ix2 n f) = ∑ k : Fin 128, x0 (ix2 n k) * x2 (ix2 k f) := by
  rw [val_main_v0_apply]
  refine Finset.sum_congr rfl fun k _ => congrArg₂ (· * ·) (congrArg x0 ?_) (congrArg x2 ?_)
  · idx2
  · idx2

/-- The first layer, over the input features. -/
theorem layer1 (x0 : (⟨S50000x128, .f32⟩ : BufTy).Contents (Elt Ideal)) (x1 : (⟨S50000x512, .f32⟩ : BufTy).Contents (Elt Ideal))
    (x2 : (⟨S128x128, .f32⟩ : BufTy).Contents (Elt Ideal)) (x3 : (⟨S128, .f32⟩ : BufTy).Contents (Elt Ideal))
    (n : Fin 50000) (f : Fin 128) :
    val_main_v18 (F := Ideal) x0 x1 x2 x3 (ix2 n f)
      = AnchorGcn.refLayer eps (adj x1) (fun (n : Fin 50000) (k : Fin 128) => x0 (ix2 n k))
          (fun (k : Fin 128) (g : Fin 128) => x2 (ix2 k g)) (fun (g : Fin 128) => x3 (ix1 g)) n f := by
  rw [val_main_v18_apply, val_main_v17_apply, val_main_v16_apply, val_main_v15_apply, Ideal.addf_def]
  unfold AnchorGcn.refLayer
  refine congrArg₂ (· + ·) (Finset.sum_congr rfl fun a _ => congrArg₂ (· * ·) ?_ ?_) (congrArg x3 ?_)
  · refine (congrArg (val_main_v12 (F := Ideal) x1) (?_ : lidx_main_v15 (ix2 n f) a = ix2 n a)).trans (rowNorm1 x1 n a)
    idx2
  · refine (congrArg (val_main_v14 (F := Ideal) x0 x1 x2) (?_ : ridx_main_v15 (ix2 n f) a = ix2 a f)).trans ?_
    · idx2
    rw [val_main_v14_apply]
    refine Finset.sum_congr rfl fun n' _ => congrArg₂ (· * ·) ?_ ?_
    · rw [val_main_v13_apply]
      refine (congrArg (val_main_v6 (F := Ideal) x1) (?_ : idx_main_v13 (lidx_main_v14 (ix2 a f) n') = ix2 n' a)).trans (colNorm1 x1 n' a)
      idx2
    · refine (congrArg (val_main_v0 (F := Ideal) x0 x2) (?_ : ridx_main_v14 (ix2 a f) n' = ix2 n' f)).trans (dense1 x0 x2 n' f)
      idx2
  · idx1

/-- The second and third layers recompute the same two normalised copies of the adjacency. -/
theorem v26_eq (x1 : (⟨S50000x512, .f32⟩ : BufTy).Contents (Elt Ideal)) : val_main_v26 (F := Ideal) x1 = val_main_v6 (F := Ideal) x1 := rfl
theorem v32_eq (x1 : (⟨S50000x512, .f32⟩ : BufTy).Contents (Elt Ideal)) : val_main_v32 (F := Ideal) x1 = val_main_v12 (F := Ideal) x1 := rfl
theorem v46_eq (x1 : (⟨S50000x512, .f32⟩ : BufTy).Contents (Elt Ideal)) : val_main_v46 (F := Ideal) x1 = val_main_v6 (F := Ideal) x1 := rfl
theorem v52_eq (x1 : (⟨S50000x512, .f32⟩ : BufTy).Contents (Elt Ideal)) : val_main_v52 (F := Ideal) x1 = val_main_v12 (F := Ideal) x1 := rfl

/-- The rectifier after the first layer. -/
theorem relu1 (x0 : (⟨S50000x128, .f32⟩ : BufTy).Contents (Elt Ideal)) (x1 : (⟨S50000x512, .f32⟩ : BufTy).Contents (Elt Ideal)) (x2 : (⟨S128x128, .f32⟩ : BufTy).Contents (Elt Ideal)) (x3 : (⟨S128, .f32⟩ : BufTy).Contents (Elt Ideal)) (n : Fin 50000) (k : Fin 128) :
    val_main_v19 (F := Ideal) x0 x1 x2 x3 (ix2 n k) = max (val_main_v18 (F := Ideal) x0 x1 x2 x3 (ix2 n k)) 0 := by
  rw [val_main_v19_apply, val_main_call0_v0_apply, val_main_call0_cst_apply, Ideal.maximumf_def, Ideal.ofBits_def,
    Ideal.ofBits_zero_f32]

/-- The first layer's rectified value times the second layer's weights. -/
theorem dense2 (x0 : (⟨S50000x128, .f32⟩ : BufTy).Contents (Elt Ideal)) (x1 : (⟨S50000x512, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (n : Fin 50000) (f : Fin 128) :
    val_main_v20 (F := Ideal) x0 x1 x2 x3 x4 (ix2 n f)
      = ∑ k : Fin 128, val_main_v19 (F := Ideal) x0 x1 x2 x3 (ix2 n k) * x4 (ix2 k f) := by
  rw [val_main_v20_apply]
  refine Finset.sum_congr rfl fun k _ => congrArg₂ (· * ·) (congrArg (val_main_v19 (F := Ideal) x0 x1 x2 x3) ?_) (congrArg x4 ?_)
  · idx2
  · idx2

/-- The second layer, over the first layer's rectified value. -/
theorem layer2 (x0 : (⟨S50000x128, .f32⟩ : BufTy).Contents (Elt Ideal)) (x1 : (⟨S50000x512, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (n : Fin 50000) (f : Fin 128) :
    val_main_v38 (F := Ideal) x0 x1 x2 x3 x4 x5 (ix2 n f)
      = AnchorGcn.refLayer eps (adj x1) (fun (n : Fin 50000) (k : Fin 128) => val_main_v19 (F := Ideal) x0 x1 x2 x3 (ix2 n k))
          (fun (k : Fin 128) (g : Fin 128) => x4 (ix2 k g)) (fun (g : Fin 128) => x5 (ix1 g)) n f := by
  rw [val_main_v38_apply, val_main_v37_apply, val_main_v36_apply, val_main_v35_apply, Ideal.addf_def, v32_eq]
  unfold AnchorGcn.refLayer
  refine congrArg₂ (· + ·) (Finset.sum_congr rfl fun a _ => congrArg₂ (· * ·) ?_ ?_) (congrArg x5 ?_)
  · refine (congrArg (val_main_v12 (F := Ideal) x1) (?_ : lidx_main_v35 (ix2 n f) a = ix2 n a)).trans (rowNorm1 x1 n a)
    idx2
  · refine (congrArg (val_main_v34 (F := Ideal) x0 x1 x2 x3 x4) (?_ : ridx_main_v35 (ix2 n f) a = ix2 a f)).trans ?_
    · idx2
    rw [val_main_v34_apply]
    refine Finset.sum_congr rfl fun n' _ => congrArg₂ (· * ·) ?_ ?_
    · rw [val_main_v33_apply, v26_eq]
      refine (congrArg (val_main_v6 (F := Ideal) x1) (?_ : idx_main_v33 (lidx_main_v34 (ix2 a f) n') = ix2 n' a)).trans (colNorm1 x1 n' a)
      idx2
    · refine (congrArg (val_main_v20 (F := Ideal) x0 x1 x2 x3 x4) (?_ : ridx_main_v34 (ix2 a f) n' = ix2 n' f)).trans
        (dense2 x0 x1 x2 x3 x4 n' f)
      idx2
  · idx1

/-- The rectifier after the second layer. -/
theorem relu2 (x0 : (⟨S50000x128, .f32⟩ : BufTy).Contents (Elt Ideal)) (x1 : (⟨S50000x512, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (n : Fin 50000) (k : Fin 128) :
    val_main_v39 (F := Ideal) x0 x1 x2 x3 x4 x5 (ix2 n k) = max (val_main_v38 (F := Ideal) x0 x1 x2 x3 x4 x5 (ix2 n k)) 0 := by
  rw [val_main_v39_apply, val_main_call1_v0_apply, val_main_call1_cst_apply, Ideal.maximumf_def, Ideal.ofBits_def,
    Ideal.ofBits_zero_f32]

/-- The second layer's rectified value times the third layer's weights. -/
theorem dense3 (x0 : (⟨S50000x128, .f32⟩ : BufTy).Contents (Elt Ideal)) (x1 : (⟨S50000x512, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (n : Fin 50000) (f : Fin 64) :
    val_main_v40 (F := Ideal) x0 x1 x2 x3 x4 x5 x6 (ix2 n f)
      = ∑ k : Fin 128, val_main_v39 (F := Ideal) x0 x1 x2 x3 x4 x5 (ix2 n k) * x6 (ix2 k f) := by
  rw [val_main_v40_apply]
  refine Finset.sum_congr rfl fun k _ => congrArg₂ (· * ·) (congrArg (val_main_v39 (F := Ideal) x0 x1 x2 x3 x4 x5) ?_) (congrArg x6 ?_)
  · idx2
  · idx2

/-- The third layer, over the second layer's rectified value. -/
theorem layer3 (x0 : (⟨S50000x128, .f32⟩ : BufTy).Contents (Elt Ideal)) (x1 : (⟨S50000x512, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) (n : Fin 50000) (f : Fin 64) :
    val_main_v58 (F := Ideal) x0 x1 x2 x3 x4 x5 x6 x7 (ix2 n f)
      = AnchorGcn.refLayer eps (adj x1) (fun (n : Fin 50000) (k : Fin 128) => val_main_v39 (F := Ideal) x0 x1 x2 x3 x4 x5 (ix2 n k))
          (fun (k : Fin 128) (g : Fin 64) => x6 (ix2 k g)) (fun (g : Fin 64) => x7 (ix1 g)) n f := by
  rw [val_main_v58_apply, val_main_v57_apply, val_main_v56_apply, val_main_v55_apply, Ideal.addf_def, v52_eq]
  unfold AnchorGcn.refLayer
  refine congrArg₂ (· + ·) (Finset.sum_congr rfl fun a _ => congrArg₂ (· * ·) ?_ ?_) (congrArg x7 ?_)
  · refine (congrArg (val_main_v12 (F := Ideal) x1) (?_ : lidx_main_v55 (ix2 n f) a = ix2 n a)).trans (rowNorm1 x1 n a)
    idx2
  · refine (congrArg (val_main_v54 (F := Ideal) x0 x1 x2 x3 x4 x5 x6) (?_ : ridx_main_v55 (ix2 n f) a = ix2 a f)).trans ?_
    · idx2
    rw [val_main_v54_apply]
    refine Finset.sum_congr rfl fun n' _ => congrArg₂ (· * ·) ?_ ?_
    · rw [val_main_v53_apply, v46_eq]
      refine (congrArg (val_main_v6 (F := Ideal) x1) (?_ : idx_main_v53 (lidx_main_v54 (ix2 a f) n') = ix2 n' a)).trans (colNorm1 x1 n' a)
      idx2
    · refine (congrArg (val_main_v40 (F := Ideal) x0 x1 x2 x3 x4 x5 x6) (?_ : ridx_main_v54 (ix2 a f) n' = ix2 n' f)).trans
        (dense3 x0 x1 x2 x3 x4 x5 x6 n' f)
      idx2
  · idx1

/-- The reference's result is the three node-first layers. -/
theorem val_main_v58_eq_refNet
    (x0 : (⟨S50000x128, .f32⟩ : BufTy).Contents (Elt Ideal)) (x1 : (⟨S50000x512, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (n : Fin 50000) (f : Fin 64) :
    Cert.ReferenceIdeal.Read.val_main_v58 (F := Ideal) x0 x1 x2 x3 x4 x5 x6 x7 (ix2 n f)
      = AnchorGcn.refNet (Ideal.ofBits .f32 0x2B8CBCCC#32)
          (fun (n : Fin 50000) (a : Fin 512) => x1 (ix2 n a)) (fun (n : Fin 50000) (k : Fin 128) => x0 (ix2 n k))
          (fun (k : Fin 128) (g : Fin 128) => x2 (ix2 k g)) (fun (g : Fin 128) => x3 (ix1 g))
          (fun (k : Fin 128) (g : Fin 128) => x4 (ix2 k g)) (fun (g : Fin 128) => x5 (ix1 g))
          (fun (k : Fin 128) (g : Fin 64) => x6 (ix2 k g)) (fun (g : Fin 64) => x7 (ix1 g)) n f := by
  have h1 : (fun (n : Fin 50000) (k : Fin 128) => val_main_v19 (F := Ideal) x0 x1 x2 x3 (ix2 n k))
      = AnchorGcn.relu (AnchorGcn.refLayer eps (adj x1) (fun (n : Fin 50000) (k : Fin 128) => x0 (ix2 n k))
          (fun (k : Fin 128) (g : Fin 128) => x2 (ix2 k g)) (fun (g : Fin 128) => x3 (ix1 g))) :=
    funext fun n => funext fun k => (relu1 x0 x1 x2 x3 n k).trans (congrArg (max · 0) (layer1 x0 x1 x2 x3 n k))
  have h2 : (fun (n : Fin 50000) (k : Fin 128) => val_main_v39 (F := Ideal) x0 x1 x2 x3 x4 x5 (ix2 n k))
      = AnchorGcn.relu (AnchorGcn.refLayer eps (adj x1)
          (AnchorGcn.relu (AnchorGcn.refLayer eps (adj x1) (fun (n : Fin 50000) (k : Fin 128) => x0 (ix2 n k))
            (fun (k : Fin 128) (g : Fin 128) => x2 (ix2 k g)) (fun (g : Fin 128) => x3 (ix1 g))))
          (fun (k : Fin 128) (g : Fin 128) => x4 (ix2 k g)) (fun (g : Fin 128) => x5 (ix1 g))) :=
    funext fun n => funext fun k => (relu2 x0 x1 x2 x3 x4 x5 n k).trans
      (congrArg (max · 0) ((layer2 x0 x1 x2 x3 x4 x5 n k).trans (by rw [h1])))
  exact (layer3 x0 x1 x2 x3 x4 x5 x6 x7 n f).trans (by rw [h2]; rfl)

end Cert.ReferenceIdeal.RefValue

end
-- ==== Proof.Algebraic.lean ====
/-
  The two idealized programs agree on finite inputs. The kernel program's result is, entry by entry, the
  three layers in the anchor-first arrangement of the launch memory; the reference's is the node-first
  arrangement of its own arguments, which agree with the kernel's. Every input entry being a real number
  (the precondition) and the floor a positive real, the two arrangements are the same real numbers:
  aggregating into anchor space first or multiplying by the weights first differ by the distributive and
  associative laws of finite sums of reals, and a quotient by a positive real is the real quotient.
-/
import proofs.«182234_g5308579578416_cont_8to1_c_894_2_alg».proof.Defs
import proofs.«182234_g5308579578416_cont_8to1_c_894_2_alg».proof.Proof.Run
import proofs.«182234_g5308579578416_cont_8to1_c_894_2_alg».proof.Proof.KernelValue
import proofs.«182234_g5308579578416_cont_8to1_c_894_2_alg».proof.Proof.AnchorAlgebra
import proofs.«182234_g5308579578416_cont_8to1_c_894_2_alg».proof.Proof.EpsLiteral
import proofs.«182234_g5308579578416_cont_8to1_c_894_2_alg».proof.Proof.FiniteInputs
import proofs.«182234_g5308579578416_cont_8to1_c_894_2_alg».proof.Proof.RefNet
import proofs.«182234_g5308579578416_cont_8to1_c_894_2_alg».proof.Proof.Gen.Kernel
import proofs.«182234_g5308579578416_cont_8to1_c_894_2_alg».proof.Proof.Gen.KernelIdeal
import proofs.«182234_g5308579578416_cont_8to1_c_894_2_alg».proof.Proof.Gen.ReferenceIdeal
import proofs.«182234_g5308579578416_cont_8to1_c_894_2_alg».proof.Proof.Gen.ReferenceIdeal.Run
import proofs.«182234_g5308579578416_cont_8to1_c_894_2_alg».proof.Proof.Gen.ReferenceIdeal.Read
import proofs.«182234_g5308579578416_cont_8to1_c_894_2_alg».proof.Proof.Gen.Pre_finite_inputs

noncomputable section

namespace Cert.Proof
open Idealize.ShloMosaic Idealize.ShloMosaic.TcCoe Idealize.SL.Sem ValueIdx

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.W7 (F := Ideal) m c (Proc.devRef .tc Cert.KernelIdeal.main_v0), ?_, ?_⟩
  · exact (θ_run Cert.KernelIdeal.defs _ _).mono (fun _ h c =>
      ⟨h c _ (Cert.KernelIdeal.Hand.mem_uc Cert.KernelIdeal.main_v0 (by decide)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c),
       (h c _ (Cert.KernelIdeal.Hand.mem_uc Cert.KernelIdeal.main_arg4 (by decide))).trans (Cert.KernelIdeal.Hand.W7_main_arg4 m c),
       (h c _ (Cert.KernelIdeal.Hand.mem_uc Cert.KernelIdeal.main_arg5 (by decide))).trans (Cert.KernelIdeal.Hand.W7_main_arg5 m c),
       (h c _ (Cert.KernelIdeal.Hand.mem_uc Cert.KernelIdeal.main_arg6 (by decide))).trans (Cert.KernelIdeal.Hand.W7_main_arg6 m c),
       (h c _ (Cert.KernelIdeal.Hand.mem_uc Cert.KernelIdeal.main_arg7 (by decide))).trans (Cert.KernelIdeal.Hand.W7_main_arg7 m c)⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    obtain ⟨h0, h1, h2, h3, h4, h5, h6, h7⟩ := Cert.FiniteInputs.real_of_pre _ _ _ _ _ _ _ _ (hpre c)
    obtain ⟨e, he, heps⟩ := AnchorGcn.eps_literal
    funext i
    obtain ⟨n, f, rfl⟩ : ∃ (n : Fin 50000) (f : Fin 64), i = ix2 n f := ⟨i 0, i 1, eq_ix2 i⟩
    rw [Cert.ReferenceIdeal.RefValue.val_main_v58_eq_refNet]
    refine Eq.trans ?_ (Cert.KernelIdeal.Hand.kernel_value m c n f).symm
    exact congrFun (congrFun (AnchorGcn.kerNet_eq_refNet _ e he heps _ _ _ _ _ _ _ _
      (fun n a => h1 (ix2 n a)) (fun n k => h0 (ix2 n k)) (fun k g => h2 (ix2 k g)) (fun g => h3 (ix1 g))
      (fun k g => h4 (ix2 k g)) (fun g => h5 (ix1 g)) (fun k g => h6 (ix2 k g)) (fun g => h7 (ix1 g))).symm n) f

end Cert.Proof
end
-- ==== Proof.lean ====
/-
  The certificate's five claims for the three-layer anchor graph convolution.
  The kernel program is four passes over the adjacency, each a pipelined region carrying an
  accumulator and a scratch across its 25 row blocks; its frame (and the word-level program's) is the
  run of those four regions and the three one-line host stretches between them. The reference's frame
  is its generated run with the result dropped. The ideal pass rewrote nothing. At the extended reals
  the kernel's result is the three layers in the anchor-first arrangement and the reference's the
  node-first one; for finite inputs every floored row and column sum is a positive real, all
  quantities are reals, and the two arrangements agree by the distributive laws.
-/
import proofs.«182234_g5308579578416_cont_8to1_c_894_2_alg».proof.Defs
import proofs.«182234_g5308579578416_cont_8to1_c_894_2_alg».proof.Proof.Gen.Kernel
import proofs.«182234_g5308579578416_cont_8to1_c_894_2_alg».proof.Proof.Gen.KernelIdeal
import proofs.«182234_g5308579578416_cont_8to1_c_894_2_alg».proof.Proof.Gen.ReferenceIdeal
import proofs.«182234_g5308579578416_cont_8to1_c_894_2_alg».proof.Proof.Gen.ReferenceIdeal.Run
import proofs.«182234_g5308579578416_cont_8to1_c_894_2_alg».proof.Proof.Gen.ReferenceIdeal.Read
import proofs.«182234_g5308579578416_cont_8to1_c_894_2_alg».proof.Proof.Gen.Pre_finite_inputs
import proofs.«182234_g5308579578416_cont_8to1_c_894_2_alg».proof.Proof.BitsRun
import proofs.«182234_g5308579578416_cont_8to1_c_894_2_alg».proof.Proof.Run
import proofs.«182234_g5308579578416_cont_8to1_c_894_2_alg».proof.Proof.Algebraic
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ
theorem frame_ki : Cert.frame_KernelIdeal (hKernelIdeal := Cert.KernelIdeal.Gen.facts) (hPre_finite_inputs := Cert.Pre_finite_inputs.Gen.facts) :=
  fun m ρ _ => Cert.KernelIdeal.Hand.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
